-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x64x128x128 : Shape := ⟨5, ![16, 1, 64, 128, 128]⟩
abbrev S1024x16384 : Shape := ⟨2, ![1024, 16384]⟩
abbrev S1024 : Shape := ⟨1, ![1024]⟩
abbrev S1x64x1024 : Shape := ⟨3, ![1, 64, 1024]⟩
abbrev S1024x1024 : Shape := ⟨2, ![1024, 1024]⟩
abbrev S64x64 : Shape := ⟨2, ![64, 64]⟩
abbrev S16384x1024 : Shape := ⟨2, ![16384, 1024]⟩
abbrev S16384 : Shape := ⟨1, ![16384]⟩
abbrev S_ : Shape := ⟨0, ![]⟩

class Facts : Prop where
  bcast_S_S16x1x64x128x128 : S_.BroadcastsInDim S16x1x64x128x128 (![] : Fin 0 → Fin S16x1x64x128x128.rank)
  reducesTo_S16x1x64x128x128_S_d0_1_2_3_4 : S16x1x64x128x128.ReducesTo [0, 1, 2, 3, 4] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1024 : S_.BroadcastsInDim S1024 (![] : Fin 0 → Fin S1024.rank)
  reducesTo_S1024_S_d0 : S1024.ReducesTo [0] S_
  bcast_S_S1x64x1024 : S_.BroadcastsInDim S1x64x1024 (![] : Fin 0 → Fin S1x64x1024.rank)
  reducesTo_S1x64x1024_S_d0_1_2 : S1x64x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S64x64 : S_.BroadcastsInDim S64x64 (![] : Fin 0 → Fin S64x64.rank)
  reducesTo_S64x64_S_d0_1 : S64x64.ReducesTo [0, 1] S_
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg7 : FVec F S16384x1024 .f32) (main_arg8 : FVec F S16384 .f32) (main_v33 : IVec S_ 1) : IVec S_ 1 :=
  let main_v34 : FVec F S16384x1024 .f32 := Host.absf main_arg7
  let main_cst_12 : FVec F S_ .f32 := constant S_ .f32 0x7F800000#32
  let main_v35 : FVec F S16384x1024 .f32 := broadcastInDim S16384x1024 ![] bcast_S_S16384x1024 main_cst_12
  let main_v36 : IVec S16384x1024 1 := cmpf .olt main_v34 main_v35
  let main_c_13 : IVec S_ 1 := constantI S_ 1 1#1
  let main_v37 : IVec S_ 1 := (fun x v => Host.reduce IntOp.andi x v reducesTo_S16384x1024_S_d0_1 h_S_) main_v36 main_c_13
  let main_v38 : IVec S_ 1 := andi main_v33 main_v37
  let main_v39 : FVec F S16384 .f32 := Host.absf main_arg8
  let main_cst_14 : FVec F S_ .f32 := constant S_ .f32 0x7F800000#32
  let main_v40 : FVec F S16384 .f32 := broadcastInDim S16384 ![] bcast_S_S16384 main_cst_14
  let main_v41 : IVec S16384 1 := cmpf .olt main_v39 main_v40
  let main_c_15 : IVec S_ 1 := constantI S_ 1 1#1
  let main_v42 : IVec S_ 1 := (fun x v => Host.reduce IntOp.andi x v reducesTo_S16384_S_d0 h_S_) main_v41 main_c_15
  let main_v43 : IVec S_ 1 := andi main_v38 main_v42
  main_v43

def fn_part1 {F : FTy → Type} [FloatOps F] (main_arg4 : FVec F S1024x1024 .f32) (main_arg5 : FVec F S64x64 .f32) (main_arg6 : FVec F S1024x1024 .f32) (main_arg7 : FVec F S16384x1024 .f32) (main_arg8 : FVec F S16384 .f32) (main_v13 : IVec S_ 1) (main_v16 : IVec S1x64x1024 1) : IVec S_ 1 :=
  let main_c_5 : IVec S_ 1 := constantI S_ 1 1#1
  let main_v17 : IVec S_ 1 := (fun x v => Host.reduce IntOp.andi x v reducesTo_S1x64x1024_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S16x1x64x128x128 .f32) (main_arg1 : FVec F S1024x16384 .f32) (main_arg2 : FVec F S1024 .f32) (main_arg3 : FVec F S1x64x1024 .f32) (main_arg4 : FVec F S1024x1024 .f32) (main_arg5 : FVec F S64x64 .f32) (main_arg6 : FVec F S1024x1024 .f32) (main_arg7 : FVec F S16384x1024 .f32) (main_arg8 : FVec F S16384 .f32) : IVec S_ 1 :=
  let main_v0 : FVec F S16x1x64x128x128 .f32 := Host.absf main_arg0
  let main_cst : FVec F S_ .f32 := constant S_ .f32 0x7F800000#32
  let main_v1 : FVec F S16x1x64x128x128 .f32 := broadcastInDim S16x1x64x128x128 ![] bcast_S_S16x1x64x128x128 main_cst
  let main_v2 : IVec S16x1x64x128x128 1 := cmpf .olt main_v0 main_v1
  let main_c : IVec S_ 1 := constantI S_ 1 1#1
  let main_v3 : IVec S_ 1 := (fun x v => Host.reduce IntOp.andi x v reducesTo_S16x1x64x128x128_S_d0_1_2_3_4 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x64x1024 .f32 := Host.absf main_arg3
  let main_cst_4 : FVec F S_ .f32 := constant S_ .f32 0x7F800000#32
  let main_v15 : FVec F S1x64x1024 .f32 := broadcastInDim S1x64x1024 ![] bcast_S_S1x64x1024 main_cst_4
  let main_v16 : IVec S1x64x1024 1 := cmpf .olt main_v14 main_v15
  fn_part1 (F := F) main_arg4 main_arg5 main_arg6 main_arg7 main_arg8 main_v13 main_v16
-- ==== Kernel.lean ====
abbrev S16x1x64x128x128 : Shape := ⟨5, ![16, 1, 64, 128, 128]⟩
abbrev S1024x16384 : Shape := ⟨2, ![1024, 16384]⟩
abbrev S1024 : Shape := ⟨1, ![1024]⟩
abbrev S1x64x1024 : Shape := ⟨3, ![1, 64, 1024]⟩
abbrev S1024x1024 : Shape := ⟨2, ![1024, 1024]⟩
abbrev S64x64 : Shape := ⟨2, ![64, 64]⟩
abbrev S16384x1024 : Shape := ⟨2, ![16384, 1024]⟩
abbrev S16384 : Shape := ⟨1, ![16384]⟩
abbrev S64x1024 : Shape := ⟨2, ![64, 1024]⟩
abbrev S1x1024 : Shape := ⟨2, ![1, 1024]⟩
abbrev S1x64x1x1024 : Shape := ⟨4, ![1, 64, 1, 1024]⟩
abbrev S16x64x1x1024 : Shape := ⟨4, ![16, 64, 1, 1024]⟩
abbrev S1x16384 : Shape := ⟨2, ![1, 16384]⟩
abbrev S1024x1 : Shape := ⟨2, ![1024, 1]⟩
abbrev S8 : Shape := ⟨1, ![8]⟩
abbrev S1x8 : Shape := ⟨2, ![1, 8]⟩
abbrev S_ : Shape := ⟨0, ![]⟩
abbrev S1024x8 : Shape := ⟨2, ![1024, 8]⟩
abbrev S8x1024 : Shape := ⟨2, ![8, 1024]⟩
abbrev S256x2048 : Shape := ⟨2, ![256, 2048]⟩
abbrev S1024x2048 : Shape := ⟨2, ![1024, 2048]⟩
abbrev S256x1024 : Shape := ⟨2, ![256, 1024]⟩
abbrev S16x64x1024 : Shape := ⟨3, ![16, 64, 1024]⟩
abbrev S64x8 : Shape := ⟨2, ![64, 8]⟩
abbrev S4096x1024 : Shape := ⟨2, ![4096, 1024]⟩
abbrev S1x4096 : Shape := ⟨2, ![1, 4096]⟩
abbrev S256x4096 : Shape := ⟨2, ![256, 4096]⟩

abbrev nBuf : Space → Nat
  | .hbm => 61
  | .vmem => 26
  | .smem => 0
  | _ => 0

abbrev bufTy : (tb : Table) → Fin (tcTables nBuf tb) → BufTy
  | .hbm, ⟨0, _⟩ => ⟨S16x1x64x128x128, .f32⟩
  | .hbm, ⟨1, _⟩ => ⟨S1024x16384, .f32⟩
  | .hbm, ⟨2, _⟩ => ⟨S1024, .f32⟩
  | .hbm, ⟨3, _⟩ => ⟨S1x64x1024, .f32⟩
  | .hbm, ⟨4, _⟩ => ⟨S1024x1024, .f32⟩
  | .hbm, ⟨5, _⟩ => ⟨S64x64, .f32⟩
  | .hbm, ⟨6, _⟩ => ⟨S1024x1024, .f32⟩
  | .hbm, ⟨7, _⟩ => ⟨S16384x1024, .f32⟩
  | .hbm, ⟨8, _⟩ => ⟨S16384, .f32⟩
  | .hbm, ⟨9, _⟩ => ⟨S1024x16384, .f32⟩
  | .hbm, ⟨10, _⟩ => ⟨S1024x16384, .bf16⟩
  | .hbm, ⟨11, _⟩ => ⟨S1024x1024, .bf16⟩
  | .hbm, ⟨12, _⟩ => ⟨S1024x1024, .bf16⟩
  | .hbm, ⟨13, _⟩ => ⟨S64x64, .bf16⟩
  | .hbm, ⟨14, _⟩ => ⟨S16384x1024, .bf16⟩
  | .hbm, ⟨15, _⟩ => ⟨S64x1024, .f32⟩
  | .hbm, ⟨16, _⟩ => ⟨S1x1024, .f32⟩
  | .hbm, ⟨17, _⟩ => ⟨S64x1024, .f32⟩
  | .hbm, ⟨18, _⟩ => ⟨S64x1024, .f32⟩
  | .hbm, ⟨19, _⟩ => ⟨S1x64x1x1024, .f32⟩
  | .hbm, ⟨20, _⟩ => ⟨S16x64x1x1024, .f32⟩
  | .hbm, ⟨21, _⟩ => ⟨S1024x1024, .f32⟩
  | .hbm, ⟨22, _⟩ => ⟨S1x16384, .f32⟩
  | .hbm, ⟨23, _⟩ => ⟨S1024, .i32⟩
  | .hbm, ⟨24, _⟩ => ⟨S1024x1, .i32⟩
  | .hbm, ⟨25, _⟩ => ⟨S8, .i32⟩
  | .hbm, ⟨26, _⟩ => ⟨S1x8, .i32⟩
  | .hbm, ⟨27, _⟩ => ⟨S_, .i32⟩
  | .hbm, ⟨28, _⟩ => ⟨S_, .i32⟩
  | .hbm, ⟨29, _⟩ => ⟨S1024x1, .i32⟩
  | .hbm, ⟨30, _⟩ => ⟨S1024x1, .i32⟩
  | .hbm, ⟨31, _⟩ => ⟨S1024x1, .i32⟩
  | .hbm, ⟨32, _⟩ => ⟨S_, .i32⟩
  | .hbm, ⟨33, _⟩ => ⟨S1024x1, .i32⟩
  | .hbm, ⟨34, _⟩ => ⟨S1024x1, .i1⟩
  | .hbm, ⟨35, _⟩ => ⟨S1024x1, .i32⟩
  | .hbm, ⟨36, _⟩ => ⟨S1024x1, .i32⟩
  | .hbm, ⟨37, _⟩ => ⟨S_, .i32⟩
  | .hbm, ⟨38, _⟩ => ⟨S1024x1, .i32⟩
  | .hbm, ⟨39, _⟩ => ⟨S1024x1, .i1⟩
  | .hbm, ⟨40, _⟩ => ⟨S1024x1, .i1⟩
  | .hbm, ⟨41, _⟩ => ⟨S_, .i32⟩
  | .hbm, ⟨42, _⟩ => ⟨S1024x1, .i32⟩
  | .hbm, ⟨43, _⟩ => ⟨S1024x1, .i32⟩
  | .hbm, ⟨44, _⟩ => ⟨S1024x1, .i32⟩
  | .hbm, ⟨45, _⟩ => ⟨S1024x8, .i32⟩
  | .hbm, ⟨46, _⟩ => ⟨S1024x8, .i32⟩
  | .hbm, ⟨47, _⟩ => ⟨S1024x8, .i1⟩
  | .hbm, ⟨48, _⟩ => ⟨S1024x8, .f32⟩
  | .hbm, ⟨49, _⟩ => ⟨S_, .f32⟩
  | .hbm, ⟨50, _⟩ => ⟨S1024x8, .f32⟩
  | .hbm, ⟨51, _⟩ => ⟨S1024x8, .f32⟩
  | .hbm, ⟨52, _⟩ => ⟨S1024x8, .bf16⟩
  | .hbm, ⟨53, _⟩ => ⟨S8x1024, .f32⟩
  | .hbm, ⟨54, _⟩ => ⟨S8x1024, .bf16⟩
  | .hbm, ⟨55, _⟩ => ⟨S1024x1024, .f32⟩
  | .hbm, ⟨56, _⟩ => ⟨S16x64x1024, .f32⟩
  | .hbm, ⟨57, _⟩ => ⟨S16x64x1024, .f32⟩
  | .hbm, ⟨58, _⟩ => ⟨S1024x1024, .f32⟩
  | .hbm, ⟨59, _⟩ => ⟨S1024x16384, .f32⟩
  | .hbm, ⟨60, _⟩ => ⟨S16x1x64x128x128, .f32⟩
  | .local _ .vmem, ⟨0, _⟩ => ⟨S256x2048, .f32⟩
  | .local _ .vmem, ⟨1, _⟩ => ⟨S256x2048, .f32⟩
  | .local _ .vmem, ⟨2, _⟩ => ⟨S1024x2048, .bf16⟩
  | .local _ .vmem, ⟨3, _⟩ => ⟨S1024x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x64x1024, .f32⟩
  | .local _ .vmem, ⟨10, _⟩ => ⟨S1x64x1024, .f32⟩
  | .local _ .vmem, ⟨11, _⟩ => ⟨S1024x1024, .bf16⟩
  | .local _ .vmem, ⟨12, _⟩ => ⟨S1024x1024, .bf16⟩
  | .local _ .vmem, ⟨13, _⟩ => ⟨S64x64, .bf16⟩
  | .local _ .vmem, ⟨14, _⟩ => ⟨S1024x8, .bf16⟩
  | .local _ .vmem, ⟨15, _⟩ => ⟨S8x1024, .bf16⟩
  | .local _ .vmem, ⟨16, _⟩ => ⟨S1x64x1024, .f32⟩
  | .local _ .vmem, ⟨17, _⟩ => ⟨S1x64x1024, .f32⟩
  | .local _ .vmem, ⟨18, _⟩ => ⟨S256x1024, .f32⟩
  | .local _ .vmem, ⟨19, _⟩ => ⟨S256x1024, .f32⟩
  | .local _ .vmem, ⟨20, _⟩ => ⟨S4096x1024, .bf16⟩
  | .local _ .vmem, ⟨21, _⟩ => ⟨S4096x1024, .bf16⟩
  | .local _ .vmem, ⟨22, _⟩ => ⟨S1x4096, .f32⟩
  | .local _ .vmem, ⟨23, _⟩ => ⟨S1x4096, .f32⟩
  | .local _ .vmem, ⟨24, _⟩ => ⟨S256x4096, .f32⟩
  | .local _ .vmem, ⟨25, _⟩ => ⟨S256x4096, .f32⟩
  | _, _ => ⟨S16x1x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x8 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![4, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S16x1x64x128x128_S1024x16384 : S16x1x64x128x128.ShapeCasts S1024x16384
  bitsLt_bf16_f32 : FTy.bits .bf16 < FTy.bits .f32
  shapeCasts_S1x64x1024_S64x1024 : S1x64x1024.ShapeCasts S64x1024
  shapeCasts_S1024_S1x1024 : S1024.ShapeCasts S1x1024
  bcast_S1x1024_S64x1024_0_1 : S1x1024.BroadcastsInDim S64x1024 (![0, 1] : Fin 2 → Fin S64x1024.rank)
  shapeCasts_S64x1024_S1x64x1x1024 : S64x1024.ShapeCasts S1x64x1x1024
  bcast_S1x64x1x1024_S16x64x1x1024_0_1_2_3 : S1x64x1x1024.BroadcastsInDim S16x64x1x1024 (![0, 1, 2, 3] : Fin 4 → Fin S16x64x1x1024.rank)
  shapeCasts_S16x64x1x1024_S1024x1024 : S16x64x1x1024.ShapeCasts S1024x1024
  shapeCasts_S16384_S1x16384 : S16384.ShapeCasts S1x16384
  bcast_S1024_S1024x1_0 : S1024.BroadcastsInDim S1024x1 (![0] : Fin 1 → Fin S1024x1.rank)
  bcast_S8_S1x8_1 : S8.BroadcastsInDim S1x8 (![1] : Fin 1 → Fin S1x8.rank)
  bcast_S_S1024x1 : S_.BroadcastsInDim S1024x1 (![] : Fin 0 → Fin S1024x1.rank)
  bcast_S1024x1_S1024x8_0_1 : S1024x1.BroadcastsInDim S1024x8 (![0, 1] : Fin 2 → Fin S1024x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  transposes_S1024x8_S8x1024_1_0 : S1024x8.Transposes [1, 0] S8x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S1024x1024_S16x64x1024 : S1024x1024.ShapeCasts S16x64x1024
  inb_S1x64x1024_S1x64x1024_0_0_0 : ∀ a, (![0, 0, 0] : Fin 3 → Nat) a + S1x64x1024.size a ≤ S1x64x1024.size a
  h_S1x64x1024 : 0 < S1x64x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x8_S1024x8_0_0 : ∀ a, (![0, 0] : Fin 2 → Nat) a + S1024x8.size a ≤ S1024x8.size a
  h_S1024x8 : 0 < S1024x8.numel
  shapeCasts_S1024x8_S1024x8 : S1024x8.ShapeCasts S1024x8
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  shapeCasts_S64x1024_S1x64x1024 : S64x1024.ShapeCasts S1x64x1024
  shapeCasts_S16x64x1024_S1024x1024 : S16x64x1024.ShapeCasts S1024x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S1024x16384_S16x1x64x128x128 : S1024x16384.ShapeCasts S16x1x64x128x128
  dot_S256x2048_S1024x2048_S256x1024_1_1_0_0_n_n_wf : DotDims.WF S256x2048 S1024x2048 S256x1024 [1] [1] [0] [0] [] []
  dot_S64x1024_S1024x1024_S64x1024_1_1_0_0_n_n_wf : DotDims.WF S64x1024 S1024x1024 S64x1024 [1] [1] [0] [0] [] []
  dot_S64x1024_S1024x8_S64x8_1_0_0_1_n_n_wf : DotDims.WF S64x1024 S1024x8 S64x8 [1] [0] [0] [1] [] []
  dot_S64x64_S64x8_S64x8_1_0_0_1_n_n_wf : DotDims.WF S64x64 S64x8 S64x8 [1] [0] [0] [1] [] []
  dot_S64x8_S8x1024_S64x1024_1_0_0_1_n_n_wf : DotDims.WF S64x8 S8x1024 S64x1024 [1] [0] [0] [1] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S1024x16384.size a
  hwx0_0 : ∀ i : grid0.Coords, EltTy.bits .f32 = 32 ∨ (Rect.block (s := S1024x16384) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x16384.size a
  hwx0_1 : ∀ i : grid0.Coords, EltTy.bits .bf16 = 32 ∨ (Rect.block (s := S1024x16384) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .f32 = 32 ∨ (Rect.block (s := S1024x1024) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x1024.size a ≤ S16x64x1024.size a
  hwx1_0 : ∀ i : grid1.Coords, EltTy.bits .f32 = 32 ∨ (Rect.block (s := S16x64x1024) S1x64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x8.size a ≤ S1024x8.size a
  hwx1_4 : ∀ i : grid1.Coords, EltTy.bits .bf16 = 32 ∨ (Rect.block (s := S1024x8) S1024x8.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x1024.size a ≤ S8x1024.size a
  hwx1_5 : ∀ i : grid1.Coords, EltTy.bits .bf16 = 32 ∨ (Rect.block (s := S8x1024) S8x1024.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x1024.size a ≤ S16x64x1024.size a
  hwx1_6 : ∀ i : grid1.Coords, EltTy.bits .f32 = 32 ∨ (Rect.block (s := S16x64x1024) S1x64x1024.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S1024x1024.size a
  hwx2_0 : ∀ i : grid2.Coords, EltTy.bits .f32 = 32 ∨ (Rect.block (s := S1024x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1024.size a ≤ S16384x1024.size a
  hwx2_1 : ∀ i : grid2.Coords, EltTy.bits .bf16 = 32 ∨ (Rect.block (s := S16384x1024) S4096x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x4096.size a ≤ S1x16384.size a
  hwx2_2 : ∀ i : grid2.Coords, EltTy.bits .f32 = 32 ∨ (Rect.block (s := S1x16384) S1x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x4096.size a ≤ S1024x16384.size a
  hwx2_3 : ∀ i : grid2.Coords, EltTy.bits .f32 = 32 ∨ (Rect.block (s := S1024x16384) S256x4096.size (cc2_transform_3 i) (hinb2_3 i)).WholeWords (EltTy.packing .f32)

variable [Facts₀]

def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S64x1024_S1024x8_S64x8_1_0_0_1_n_n : DotDims S64x1024 S1024x8 S64x8 where
  lhsContracting := [1]
  rhsContracting := [0]
  lhsNonContracting := [0]
  rhsNonContracting := [1]
  lhsBatch := []
  rhsBatch := []
  wf := dot_S64x1024_S1024x8_S64x8_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf
def dot_S64x8_S8x1024_S64x1024_1_0_0_1_n_n : DotDims S64x8 S8x1024 S64x1024 where
  lhsContracting := [1]
  rhsContracting := [0]
  lhsNonContracting := [0]
  rhsNonContracting := [1]
  lhsBatch := []
  rhsBatch := []
  wf := dot_S64x8_S8x1024_S64x1024_1_0_0_1_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v29) S1x64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1024x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S8x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x64x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S4096x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S256x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16x1x64x128x128 : Shape := ⟨5, ![16, 1, 64, 128, 128]⟩
abbrev S1024x16384 : Shape := ⟨2, ![1024, 16384]⟩
abbrev S1024 : Shape := ⟨1, ![1024]⟩
abbrev S1x64x1024 : Shape := ⟨3, ![1, 64, 1024]⟩
abbrev S1024x1024 : Shape := ⟨2, ![1024, 1024]⟩
abbrev S64x64 : Shape := ⟨2, ![64, 64]⟩
abbrev S16384x1024 : Shape := ⟨2, ![16384, 1024]⟩
abbrev S16384 : Shape := ⟨1, ![16384]⟩
abbrev S16x64x16384 : Shape := ⟨3, ![16, 64, 16384]⟩
abbrev S16x64x1024 : Shape := ⟨3, ![16, 64, 1024]⟩
abbrev S1x1x1024 : Shape := ⟨3, ![1, 1, 1024]⟩
abbrev S16x64x8x128 : Shape := ⟨4, ![16, 64, 8, 128]⟩
abbrev S16x8x64x128 : Shape := ⟨4, ![16, 8, 64, 128]⟩
abbrev S_ : Shape := ⟨0, ![]⟩
abbrev S16x8x64 : Shape := ⟨3, ![16, 8, 64]⟩
abbrev S16x8x64x1 : Shape := ⟨4, ![16, 8, 64, 1]⟩
abbrev S1x1x16384 : Shape := ⟨3, ![1, 1, 16384]⟩

abbrev nBuf : Space → Nat
  | .hbm => 46
  | .vmem => 0
  | .smem => 0
  | _ => 0

abbrev bufTy : (tb : Table) → Fin (tcTables nBuf tb) → BufTy
  | .hbm, ⟨0, _⟩ => ⟨S16x1x64x128x128, .f32⟩
  | .hbm, ⟨1, _⟩ => ⟨S1024x16384, .f32⟩
  | .hbm, ⟨2, _⟩ => ⟨S1024, .f32⟩
  | .hbm, ⟨3, _⟩ => ⟨S1x64x1024, .f32⟩
  | .hbm, ⟨4, _⟩ => ⟨S1024x1024, .f32⟩
  | .hbm, ⟨5, _⟩ => ⟨S64x64, .f32⟩
  | .hbm, ⟨6, _⟩ => ⟨S1024x1024, .f32⟩
  | .hbm, ⟨7, _⟩ => ⟨S16384x1024, .f32⟩
  | .hbm, ⟨8, _⟩ => ⟨S16384, .f32⟩
  | .hbm, ⟨9, _⟩ => ⟨S16x64x16384, .f32⟩
  | .hbm, ⟨10, _⟩ => ⟨S16x64x1024, .f32⟩
  | .hbm, ⟨11, _⟩ => ⟨S1x1x1024, .f32⟩
  | .hbm, ⟨12, _⟩ => ⟨S16x64x1024, .f32⟩
  | .hbm, ⟨13, _⟩ => ⟨S16x64x1024, .f32⟩
  | .hbm, ⟨14, _⟩ => ⟨S16x64x1024, .f32⟩
  | .hbm, ⟨15, _⟩ => ⟨S16x64x1024, .f32⟩
  | .hbm, ⟨16, _⟩ => ⟨S16x64x1024, .f32⟩
  | .hbm, ⟨17, _⟩ => ⟨S16x64x8x128, .f32⟩
  | .hbm, ⟨18, _⟩ => ⟨S16x8x64x128, .f32⟩
  | .hbm, ⟨19, _⟩ => ⟨S_, .f32⟩
  | .hbm, ⟨20, _⟩ => ⟨S16x8x64, .f32⟩
  | .hbm, ⟨21, _⟩ => ⟨S_, .f32⟩
  | .hbm, ⟨22, _⟩ => ⟨S16x8x64, .f32⟩
  | .hbm, ⟨23, _⟩ => ⟨S16x8x64, .f32⟩
  | .hbm, ⟨24, _⟩ => ⟨S16x8x64, .f32⟩
  | .hbm, ⟨25, _⟩ => ⟨S16x8x64, .f32⟩
  | .hbm, ⟨26, _⟩ => ⟨S16x8x64, .f32⟩
  | .hbm, ⟨27, _⟩ => ⟨S_, .f32⟩
  | .hbm, ⟨28, _⟩ => ⟨S16x8x64, .f32⟩
  | .hbm, ⟨29, _⟩ => ⟨S16x8x64, .f32⟩
  | .hbm, ⟨30, _⟩ => ⟨S_, .f32⟩
  | .hbm, ⟨31, _⟩ => ⟨S16x8x64, .f32⟩
  | .hbm, ⟨32, _⟩ => ⟨S16x8x64, .f32⟩
  | .hbm, ⟨33, _⟩ => ⟨S16x64x1024, .f32⟩
  | .hbm, ⟨34, _⟩ => ⟨S16x64x8x128, .f32⟩
  | .hbm, ⟨35, _⟩ => ⟨S16x8x64x128, .f32⟩
  | .hbm, ⟨36, _⟩ => ⟨S16x8x64x1, .f32⟩
  | .hbm, ⟨37, _⟩ => ⟨S16x8x64x128, .f32⟩
  | .hbm, ⟨38, _⟩ => ⟨S16x8x64x128, .f32⟩
  | .hbm, ⟨39, _⟩ => ⟨S16x64x8x128, .f32⟩
  | .hbm, ⟨40, _⟩ => ⟨S16x64x1024, .f32⟩
  | .hbm, ⟨41, _⟩ => ⟨S16x64x16384, .f32⟩
  | .hbm, ⟨42, _⟩ => ⟨S1x1x16384, .f32⟩
  | .hbm, ⟨43, _⟩ => ⟨S16x64x16384, .f32⟩
  | .hbm, ⟨44, _⟩ => ⟨S16x64x16384, .f32⟩
  | .hbm, ⟨45, _⟩ => ⟨S16x1x64x128x128, .f32⟩
  | _, _ => ⟨S16x1x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  shapeCasts_S16x1x64x128x128_S16x64x16384 : S16x1x64x128x128.ShapeCasts S16x64x16384
  bcast_S1024_S1x1x1024_2 : S1024.BroadcastsInDim S1x1x1024 (![2] : Fin 1 → Fin S1x1x1024.rank)
  bcast_S1x1x1024_S16x64x1024_0_1_2 : S1x1x1024.BroadcastsInDim S16x64x1024 (![0, 1, 2] : Fin 3 → Fin S16x64x1024.rank)
  bcast_S1x64x1024_S16x64x1024_0_1_2 : S1x64x1024.BroadcastsInDim S16x64x1024 (![0, 1, 2] : Fin 3 → Fin S16x64x1024.rank)
  shapeCasts_S16x64x1024_S16x64x8x128 : S16x64x1024.ShapeCasts S16x64x8x128
  transposes_S16x64x8x128_S16x8x64x128_0_2_1_3 : S16x64x8x128.Transposes [0, 2, 1, 3] S16x8x64x128
  reducesTo_S16x8x64x128_S16x8x64_d3 : S16x8x64x128.ReducesTo [3] S16x8x64
  h_S_ : 0 < S_.numel
  bcast_S_S16x8x64 : S_.BroadcastsInDim S16x8x64 (![] : Fin 0 → Fin S16x8x64.rank)
  bcast_S16x8x64_S16x8x64x1_0_1_2 : S16x8x64.BroadcastsInDim S16x8x64x1 (![0, 1, 2] : Fin 3 → Fin S16x8x64x1.rank)
  bcast_S16x8x64x1_S16x8x64x128_0_1_2_3 : S16x8x64x1.BroadcastsInDim S16x8x64x128 (![0, 1, 2, 3] : Fin 4 → Fin S16x8x64x128.rank)
  transposes_S16x8x64x128_S16x64x8x128_0_2_1_3 : S16x8x64x128.Transposes [0, 2, 1, 3] S16x64x8x128
  shapeCasts_S16x64x8x128_S16x64x1024 : S16x64x8x128.ShapeCasts S16x64x1024
  bcast_S16384_S1x1x16384_2 : S16384.BroadcastsInDim S1x1x16384 (![2] : Fin 1 → Fin S1x1x16384.rank)
  bcast_S1x1x16384_S16x64x16384_0_1_2 : S1x1x16384.BroadcastsInDim S16x64x16384 (![0, 1, 2] : Fin 3 → Fin S16x64x16384.rank)
  shapeCasts_S16x64x16384_S16x1x64x128x128 : S16x64x16384.ShapeCasts S16x1x64x128x128
  dot_S16x64x16384_S1024x16384_S16x64x1024_2_1_01_0_n_n_wf : DotDims.WF S16x64x16384 S1024x16384 S16x64x1024 [2] [1] [0, 1] [0] [] []
  dot_S16x64x1024_S1024x1024_S16x64x1024_2_1_01_0_n_n_wf : DotDims.WF S16x64x1024 S1024x1024 S16x64x1024 [2] [1] [0, 1] [0] [] []
  dot_S16x8x64_S64x64_S16x8x64_2_1_01_0_n_n_wf : DotDims.WF S16x8x64 S64x64 S16x8x64 [2] [1] [0, 1] [0] [] []
  dot_S16x64x1024_S16384x1024_S16x64x16384_2_1_01_0_n_n_wf : DotDims.WF S16x64x1024 S16384x1024 S16x64x16384 [2] [1] [0, 1] [0] [] []

variable [Facts₀]

def dot_S16x64x16384_S1024x16384_S16x64x1024_2_1_01_0_n_n : DotDims S16x64x16384 S1024x16384 S16x64x1024 where
  lhsContracting := [2]
  rhsContracting := [1]
  lhsNonContracting := [0, 1]
  rhsNonContracting := [0]
  lhsBatch := []
  rhsBatch := []
  wf := dot_S16x64x16384_S1024x16384_S16x64x1024_2_1_01_0_n_n_wf
def dot_S16x64x1024_S1024x1024_S16x64x1024_2_1_01_0_n_n : DotDims S16x64x1024 S1024x1024 S16x64x1024 where
  lhsContracting := [2]
  rhsContracting := [1]
  lhsNonContracting := [0, 1]
  rhsNonContracting := [0]
  lhsBatch := []
  rhsBatch := []
  wf := dot_S16x64x1024_S1024x1024_S16x64x1024_2_1_01_0_n_n_wf
def dot_S16x8x64_S64x64_S16x8x64_2_1_01_0_n_n : DotDims S16x8x64 S64x64 S16x8x64 where
  lhsContracting := [2]
  rhsContracting := [1]
  lhsNonContracting := [0, 1]
  rhsNonContracting := [0]
  lhsBatch := []
  rhsBatch := []
  wf := dot_S16x8x64_S64x64_S16x8x64_2_1_01_0_n_n_wf
def dot_S16x64x1024_S16384x1024_S16x64x16384_2_1_01_0_n_n : DotDims S16x64x1024 S16384x1024 S16x64x16384 where
  lhsContracting := [2]
  rhsContracting := [1]
  lhsNonContracting := [0, 1]
  rhsNonContracting := [0]
  lhsBatch := []
  rhsBatch := []
  wf := dot_S16x64x1024_S16384x1024_S16x64x16384_2_1_01_0_n_n_wf

class Facts : Prop extends Facts₀ where

variable [Facts]
-- ==== Proof.KbEmbedDefs.lean ====
/-
  The embedding kernel (the first of the three): a 4 × 8 grid, row tile `i` by pixel tile `k`. At `k = 0` the
  accumulator (a scratch buffer kept from one grid point to the next) is cleared; at every point the product of the
  point's row tile of the batch with the point's pixel tile of the embedding is added to it; at `k = 7` the accumulator
  plus the bias tile is stored into the output block, which is written back only there.

  Here: each window's block at a point, the two branch conditions in closed form over the linear position
  (`k = 0` ⇔ position ≡ 0, `k = 7` ⇔ position ≡ 7 modulo 8), and where the output window is idle.
-/
import proofs.«151928_j1992864825605_2_alg».proof.Proof.Gen.Kernel.Launch
import proofs.«151928_j1992864825605_2_alg».proof.Proof.Gen.Kernel.Skeleton
import proofs.«151928_j1992864825605_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid position `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every position, whether the block was fetched there
    or is still the one fetched earlier (its index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first pixel tile" (`k = 0`), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)
/-- "This is the last pixel tile" (`k = 7`). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last pixel tile nothing is stored into the output block and it is not written back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## The staging memrefs and the accumulator -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
/-- The accumulator: a whole buffer of the kernel's own. -/
abbrev accM : Memref sig .tc .vmem S256x1024 .f32 := Memref.whole cc0_scratch0
abbrev accV : View sig .tc .vmem S256x1024 .f32 := (accM).view
/-- One staging buffer of the output window, through which its contents are stated. -/
abbrev outV : View sig .tc .vmem S256x1024 .f32 := (Memref.whole cc0_stg3_0 : Memref sig .tc .vmem S256x1024 .f32).view

/-- The staging buffers of the two later kernels: scoped buffers this kernel never touches, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- What the region's invariant holds besides the windows: the accumulator at some contents, the later kernels' staging
    buffers, and the generator register. -/
theorem PhiA0_eq (c : Dev nD) :
    (Pipeline.ΦA spec0 c : sProp 𝕄)
      = iprop(iprop((∃ d, owns (c : Thread nD τ) accM fullShare d) ∗ others0 c) ∗ (∃ r, prngReg c r)) := by
  unfold Pipeline.ΦA; rw [scopedRest0_eq]; simp only [accM, owns_whole, others0]; try rfl

end Cert.Kernel.Hand

end
-- ==== Proof.KbEmbedFirst.lean ====
/-
  The embedding kernel's body at the first pixel tile of a row tile: the accumulator is cleared, then the point's product is added to it.
-/
import proofs.«151928_j1992864825605_2_alg».proof.Proof.KbEmbedDefs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point, from the two input blocks `x0`, `x1` and the accumulator at anything, the body runs to its end
    leaving the input buffers as they were and the accumulator with the pieces `LS` written — the list the run finds. -/
noncomputable def embedRunFirst (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : isFirst i) (hc1 : ¬isLast i)
    (x0 : Vec F S256x2048 .f32) (x1 : Vec F S1024x2048 .bf16) :
    { LS : List (View.Piece (Elt F) S256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__kernel_embed i arg2 harg2 arg3 harg3 arg4 harg4 arg5 harg5 arg6 harg6) K } := by
  refine ⟨?_, fun E K => ?run⟩
  case run =>
    simp only [cc0__kernel_embed_eq_skeleton]; unfold cc0__kernel_embed_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.KbEmbedMid.lean ====
/-
  The embedding kernel's body at a grid point that is neither the first nor the last pixel tile: the point's product is added to the accumulator, nothing else is stored.
-/
import proofs.«151928_j1992864825605_2_alg».proof.Proof.KbEmbedDefs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point, from the two input blocks `x0`, `x1` and the accumulator at `xs`, the body runs to its end leaving
    the input buffers as they were and the accumulator with the pieces `LS` written — the list the run itself finds. -/
noncomputable def embedRunMid (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬isFirst i) (hc1 : ¬isLast i)
    (x0 : Vec F S256x2048 .f32) (x1 : Vec F S1024x2048 .bf16) (xs : Vec F S256x1024 .f32) :
    { LS : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__kernel_embed i arg2 harg2 arg3 harg3 arg4 harg4 arg5 harg5 arg6 harg6) K } := by
  refine ⟨?_, fun E K => ?run⟩
  case run =>
    simp only [cc0__kernel_embed_eq_skeleton]; unfold cc0__kernel_embed_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.Kernel.Hand

end
-- ==== Proof.KbEmbedLast.lean ====
/-
  The embedding kernel's body at the last pixel tile of a row tile: the point's product is added to the accumulator, and the accumulator plus the bias tile is stored into the output block.
-/
import proofs.«151928_j1992864825605_2_alg».proof.Proof.KbEmbedDefs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point, from the three input blocks `x0`, `x1`, `x2`, the output buffer at anything and the accumulator
    at `xs`, the body runs to its end leaving the input buffers as they were, the output buffer with the pieces `L3`
    written and the accumulator with `LS` — the lists the run finds. -/
noncomputable def embedRunLast (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬isFirst i) (hc1 : isLast i)
    (x0 : Vec F S256x2048 .f32) (x1 : Vec F S1024x2048 .bf16) (x2 : Vec F S256x1024 .f32) (xs : Vec F S256x1024 .f32) :
    Σ' (L3 : List (View.Piece (Elt F) S256x1024 .f32)), { LS : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__kernel_embed i arg2 harg2 arg3 harg3 arg4 harg4 arg5 harg5 arg6 harg6) K } := by
  refine ⟨?_, ?_, fun E K => ?run⟩
  case run =>
    simp only [cc0__kernel_embed_eq_skeleton]; unfold cc0__kernel_embed_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Hand

end
-- ==== Proof.KbEmbed.lean ====
/-
  The embedding kernel over its whole grid.

  The accumulator's contents after grid position `n` (`accAt`), by recursion on the position: at the first pixel tile
  of a row tile what the clearing-then-adding body leaves, elsewhere what the adding body leaves over the contents of
  the position before. The output block after a last pixel tile (`outAt`) is what that body stores there over the
  accumulator of the position before; at the other positions the output window is idle and its buffer is handed
  back as found.

  From these: the region's invariant (the accumulator at `accAt` of the position before, the later kernels' staging
  buffers and the generator register untouched), the pipeline's proof data, and the obligation that the body,
  started at any position with the buffers the pipeline hands it, ends with what the proof data say.
-/
import proofs.«151928_j1992864825605_2_alg».proof.Proof.KbEmbedFirst
import proofs.«151928_j1992864825605_2_alg».proof.Proof.KbEmbedMid
import proofs.«151928_j1992864825605_2_alg».proof.Proof.KbEmbedLast

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

section Pieces
variable (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole)

/-- The pieces the clearing-then-adding body writes into the accumulator tile it, so they cover it. -/
theorem cover_accFirst (hc0 : isFirst i) (hc1 : ¬isLast i) (x0 : Vec F S256x2048 .f32) (x1 : Vec F S1024x2048 .bf16) (y : S256x1024.Idx) :
    ∃ pc ∈ (embedRunFirst c i arg2 harg2 arg3 harg3 arg4 harg4 arg5 harg5 arg6 harg6 hc0 hc1 x0 x1).1, y ∈ pc.1.set :=
  View.cover_of_tiledL (embedRunFirst c i arg2 harg2 arg3 harg3 arg4 harg4 arg5 harg5 arg6 harg6 hc0 hc1 x0 x1).1 S256x1024.size (by sl_kernel_rfl) y
/-- The accumulator after a first pixel tile: those pieces read back. -/
def accFirst (hc0 : isFirst i) (hc1 : ¬isLast i) (x0 : Vec F S256x2048 .f32) (x1 : Vec F S1024x2048 .bf16) : Vec F S256x1024 .f32 :=
  accV.read (Elt F) (accV.writes (Elt F) accV.junk (embedRunFirst c i arg2 harg2 arg3 harg3 arg4 harg4 arg5 harg5 arg6 harg6 hc0 hc1 x0 x1).1)

theorem cover_accMid (hc0 : ¬isFirst i) (hc1 : ¬isLast i) (x0 : Vec F S256x2048 .f32) (x1 : Vec F S1024x2048 .bf16) (xs : Vec F S256x1024 .f32) (y : S256x1024.Idx) :
    ∃ pc ∈ (embedRunMid c i arg2 harg2 arg3 harg3 arg4 harg4 arg5 harg5 arg6 harg6 hc0 hc1 x0 x1 xs).1, y ∈ pc.1.set :=
  View.cover_of_tiledL (embedRunMid c i arg2 harg2 arg3 harg3 arg4 harg4 arg5 harg5 arg6 harg6 hc0 hc1 x0 x1 xs).1 S256x1024.size (by sl_kernel_rfl) y
/-- The accumulator after a middle pixel tile, over the contents `xs` it had before. -/
def accMid (hc0 : ¬isFirst i) (hc1 : ¬isLast i) (x0 : Vec F S256x2048 .f32) (x1 : Vec F S1024x2048 .bf16) (xs : Vec F S256x1024 .f32) : Vec F S256x1024 .f32 :=
  accV.read (Elt F) (accV.writes (Elt F) accV.junk (embedRunMid c i arg2 harg2 arg3 harg3 arg4 harg4 arg5 harg5 arg6 harg6 hc0 hc1 x0 x1 xs).1)

theorem cover_accLast (hc0 : ¬isFirst i) (hc1 : isLast i) (x0 : Vec F S256x2048 .f32) (x1 : Vec F S1024x2048 .bf16) (x2 xs : Vec F S256x1024 .f32) (y : S256x1024.Idx) :
    ∃ pc ∈ (embedRunLast c i arg2 harg2 arg3 harg3 arg4 harg4 arg5 harg5 arg6 harg6 hc0 hc1 x0 x1 x2 xs).2.1, y ∈ pc.1.set :=
  View.cover_of_tiledL (embedRunLast c i arg2 harg2 arg3 harg3 arg4 harg4 arg5 harg5 arg6 harg6 hc0 hc1 x0 x1 x2 xs).2.1 S256x1024.size (by sl_kernel_rfl) y
/-- The accumulator after a last pixel tile. -/
def accLast (hc0 : ¬isFirst i) (hc1 : isLast i) (x0 : Vec F S256x2048 .f32) (x1 : Vec F S1024x2048 .bf16) (x2 xs : Vec F S256x1024 .f32) : Vec F S256x1024 .f32 :=
  accV.read (Elt F) (accV.writes (Elt F) accV.junk (embedRunLast c i arg2 harg2 arg3 harg3 arg4 harg4 arg5 harg5 arg6 harg6 hc0 hc1 x0 x1 x2 xs).2.1)

theorem cover_outLast (hc0 : ¬isFirst i) (hc1 : isLast i) (x0 : Vec F S256x2048 .f32) (x1 : Vec F S1024x2048 .bf16) (x2 xs : Vec F S256x1024 .f32) (y : S256x1024.Idx) :
    ∃ pc ∈ (embedRunLast c i arg2 harg2 arg3 harg3 arg4 harg4 arg5 harg5 arg6 harg6 hc0 hc1 x0 x1 x2 xs).1, y ∈ pc.1.set :=
  View.cover_of_tiledL (embedRunLast c i arg2 harg2 arg3 harg3 arg4 harg4 arg5 harg5 arg6 harg6 hc0 hc1 x0 x1 x2 xs).1 S256x1024.size (by sl_kernel_rfl) y
/-- The output block after a last pixel tile. -/
def outLast (hc0 : ¬isFirst i) (hc1 : isLast i) (x0 : Vec F S256x2048 .f32) (x1 : Vec F S1024x2048 .bf16) (x2 xs : Vec F S256x1024 .f32) : Vec F S256x1024 .f32 :=
  outV.read (Elt F) (outV.writes (Elt F) outV.junk (embedRunLast c i arg2 harg2 arg3 harg3 arg4 harg4 arg5 harg5 arg6 harg6 hc0 hc1 x0 x1 x2 xs).1)

end Pieces

/-! ## The accumulator and the output block, position by position -/

theorem not_last_of_first (t : Fin cfg0.N) (h0 : t.val % 8 = 0) : ¬isLast (grid0.coords t) :=
  fun h => by have h7 := (isLast_iff t).mp h; omega
theorem not_first_of (t : Fin cfg0.N) (h0 : ¬t.val % 8 = 0) : ¬isFirst (grid0.coords t) :=
  fun h => h0 ((isFirst_iff t).mp h)
theorem not_last_of (t : Fin cfg0.N) (h1 : ¬t.val % 8 = 7) : ¬isLast (grid0.coords t) :=
  fun h => h1 ((isLast_iff t).mp h)

/-- The accumulator's contents after the body at position `n`. -/
def accAt (c : Dev nD) : (n : ℕ) → n < cfg0.N → Vec F S256x1024 .f32
  | 0, hn => accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM (Memref.isWhole_whole _) ((isFirst_iff ⟨0, hn⟩).mpr (Nat.zero_mod _)) (not_last_of_first ⟨0, hn⟩ (Nat.zero_mod _)) (iblk0 V c 0 ⟨0, hn⟩) (iblk0 V c 1 ⟨0, hn⟩)
  | n + 1, hn =>
    if h0 : (n + 1) % 8 = 0 then
      accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) ((isFirst_iff ⟨n + 1, hn⟩).mpr h0) (not_last_of_first ⟨n + 1, hn⟩ h0) (iblk0 V c 0 ⟨n + 1, hn⟩) (iblk0 V c 1 ⟨n + 1, hn⟩)
    else if h1 : (n + 1) % 8 = 7 then
      accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (not_first_of ⟨n + 1, hn⟩ h0) ((isLast_iff ⟨n + 1, hn⟩).mpr h1) (iblk0 V c 0 ⟨n + 1, hn⟩) (iblk0 V c 1 ⟨n + 1, hn⟩) (iblk0 V c 2 ⟨n + 1, hn⟩) (accAt c n (Nat.lt_of_succ_lt hn))
    else
      accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (not_first_of ⟨n + 1, hn⟩ h0) (not_last_of ⟨n + 1, hn⟩ h1) (iblk0 V c 0 ⟨n + 1, hn⟩) (iblk0 V c 1 ⟨n + 1, hn⟩) (accAt c n (Nat.lt_of_succ_lt hn))

theorem accAt_first (c : Dev nD) (t : Fin cfg0.N) (h0 : t.val % 8 = 0) :
    accAt V c t.val t.isLt = accFirst c (grid0.coords t) (ms0_0 t) (hs0_0 t) (ms0_1 t) (hs0_1 t) (ms0_2 t) (hs0_2 t) (ms0_3 t) (hs0_3 t) accM (Memref.isWhole_whole _) ((isFirst_iff t).mpr h0) (not_last_of_first t h0) (iblk0 V c 0 t) (iblk0 V c 1 t) := by
  obtain ⟨n, hn⟩ := t
  cases n with
  | zero => exact rfl
  | succ n => exact (dif_pos h0).trans rfl

theorem accAt_last (c : Dev nD) (t : Fin cfg0.N) (h0 : ¬t.val % 8 = 0) (h1 : t.val % 8 = 7) :
    accAt V c t.val t.isLt = accLast c (grid0.coords t) (ms0_0 t) (hs0_0 t) (ms0_1 t) (hs0_1 t) (ms0_2 t) (hs0_2 t) (ms0_3 t) (hs0_3 t) accM (Memref.isWhole_whole _) (not_first_of t h0) ((isLast_iff t).mpr h1) (iblk0 V c 0 t) (iblk0 V c 1 t) (iblk0 V c 2 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem accAt_mid (c : Dev nD) (t : Fin cfg0.N) (h0 : ¬t.val % 8 = 0) (h1 : ¬t.val % 8 = 7) :
    accAt V c t.val t.isLt = accMid c (grid0.coords t) (ms0_0 t) (hs0_0 t) (ms0_1 t) (hs0_1 t) (ms0_2 t) (hs0_2 t) (ms0_3 t) (hs0_3 t) accM (Memref.isWhole_whole _) (not_first_of t h0) (not_last_of t h1) (iblk0 V c 0 t) (iblk0 V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The output window's buffer after the body at position `t`: at a last pixel tile the stored block, over the
    accumulator of the position before; elsewhere a placeholder nothing reads (the window is idle there and is not
    written back). -/
def outAt (c : Dev nD) (t : Fin cfg0.N) : Vec F S256x1024 .f32 :=
  if h1 : t.val % 8 = 7 then
    outLast c (grid0.coords t) (ms0_0 t) (hs0_0 t) (ms0_1 t) (hs0_1 t) (ms0_2 t) (hs0_2 t) (ms0_3 t) (hs0_3 t) accM (Memref.isWhole_whole _) (not_first_of t (by omega)) ((isLast_iff t).mpr h1) (iblk0 V c 0 t) (iblk0 V c 1 t) (iblk0 V c 2 t)
      (accAt V c (t.val - 1) (Nat.lt_of_le_of_lt (Nat.sub_le _ _) t.isLt))
  else outV.read (Elt F) (outV.writes (Elt F) outV.junk [])

theorem outAt_last (c : Dev nD) (t : Fin cfg0.N) (h0 : ¬t.val % 8 = 0) (h1 : t.val % 8 = 7) :
    outAt V c t = outLast c (grid0.coords t) (ms0_0 t) (hs0_0 t) (ms0_1 t) (hs0_1 t) (ms0_2 t) (hs0_2 t) (ms0_3 t) (hs0_3 t) accM (Memref.isWhole_whole _) (not_first_of t h0) ((isLast_iff t).mpr h1) (iblk0 V c 0 t) (iblk0 V c 1 t) (iblk0 V c 2 t)
      (accAt V c (t.val - 1) (Nat.lt_of_le_of_lt (Nat.sub_le _ _) t.isLt)) := by
  unfold outAt; exact dif_pos h1

/-! ## The region's invariant -/

/-- Before position `n`: at the start whatever the launch hands over; afterwards the accumulator at what the position
    before left, the later kernels' staging buffers, the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

set_option maxHeartbeats 4800000 in
/-- The body at any position: the input buffers hold their blocks; the closed forms say which kind of point it is; the
    invariant hands over the accumulator at what the position before left (at anything at the very first position) and
    takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val % 8 = 0
  · have h1 : ¬t.val % 8 = 7 := by omega
    rw [Dat.leavesExact_idle (dat0 V c) 3 t (idle0_3 t (not_last_of t h1)) (noFlush0_3 t (not_last_of t h1))]
    rw [accAt_first V c t h0]
    unfold accFirst; (try dsimp only)
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply ((embedRunFirst c (grid0.coords t) _ _ _ _ _ _ _ _ _ _ ((isFirst_iff t).mpr h0) (not_last_of_first t h0) (iblk0 V c 0 t) (iblk0 V c 1 t)).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((embedRunFirst c (grid0.coords t) _ _ _ _ _ _ _ _ _ _ ((isFirst_iff t).mpr h0) (not_last_of_first t h0) (iblk0 V c 0 t) (iblk0 V c 1 t)).2 Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [live0_3 t ((isLast_iff t).mpr h1)], after0_3]
      rw [accAt_last V c t h0 h1, outAt_last V c t h0 h1]
      unfold accLast outLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((embedRunLast c (grid0.coords t) _ _ _ _ _ _ _ _ _ _ (not_first_of t h0) ((isLast_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_accLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_outLast c _ _ _ _ _ _ _ _ _ _ _ _ _ _ _ _ _)
    · rw [Dat.leavesExact_idle (dat0 V c) 3 t (idle0_3 t (not_last_of t h1)) (noFlush0_3 t (not_last_of t h1))]
      rw [accAt_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((embedRunMid c (grid0.coords t) _ _ _ _ _ _ _ _ _ _ (not_first_of t h0) (not_last_of t h1) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (cover_accMid c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives everything back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hoth⟩, Hg⟩
  isplitl [HS Hoth]
  · isplitl [HS]
    · iexists _; iexact HS
    iexact Hoth
  iexact Hg

end Cert.Kernel.Hand

end
-- ==== Proof.KbGate.lean ====
/- Region 1 of the program, the gate kernel `cc1__kernel_gate`, from the point of view of its body.

   The region is a pipeline over a static grid: at every grid point the pipeline hands the body one staging
   buffer per window, the body reads the 6 input buffers whole and overwrites the output buffer whole, and
   nothing else happens (no branch, no scratch memory, no DMA of the body's own). This file fixes what the
   TensorCore's buffers hold when the region is entered — the parameter `V` — and derives, for any such `V`:
   the block of each window at each point, the contents the body leaves in the output buffer as a function of
   the input blocks, the body's triple on arbitrary whole staging buffers, and from these the proof data of the
   pipeline together with the obligation the pipeline rule asks of the body at every point. -/
import proofs.«151928_j1992864825605_2_alg».proof.Proof.Gen.Kernel.Launch
import proofs.«151928_j1992864825605_2_alg».proof.Proof.Gen.Kernel.Skeleton
import proofs.«151928_j1992864825605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that the one store fills its buffer walks the long axes coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds on entry to the region
variable (V : (c : Dev nD) → (b : Ref sig .tc) → Buf (Elt F) ((c : Thread nD τ).loc b))

/-! ## Blocks -/

/-- The block of window `w` that grid point `t` works on: the window's array, as `V` has it, read through the
    block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input buffers hold their blocks when the body starts

An input window is never written by the body, its blocks are not cut at the array's edge and no point is idle for
it. For such a window the staging buffer the body is given holds the block of the current point: either the
pipeline has just fetched it, or it has not because the block index is the one of the point before, whose block
is still there. This holds for any proof data that take the window's array from `V` and say that the body leaves
the block in place; it is stated that way so that it can be used before the proof data below are defined. -/

theorem held1_0 {c : Dev nD} (dat : Dat τ (Elt F) Unit ℕ (UR sig nD τ) ℕ cfg1 c)
    (hA : dat.A 0 = V c (Pipeline.arrRef spec1 0)) (hkeep : ∀ t, dat.after 0 t = iblk1 V c 0 t)
    (t : Fin cfg1.N) (d) : dat.before 0 t d = iblk1 V c 0 t := by
  have hblk : ∀ s : Fin cfg1.N, dat.blockOf 0 s = iblk1 V c 0 s := fun s => by
    unfold Dat.blockOf iblk1; rw [hA]
  rw [dat.before_in_eq_fetched 0 rfl (fun _ => rfl) (fun _ _ _ => rfl) (fun s => by rw [hkeep s, hblk s]) t d]
  unfold Dat.fetched; rw [hblk t]; rfl

theorem held1_1 {c : Dev nD} (dat : Dat τ (Elt F) Unit ℕ (UR sig nD τ) ℕ cfg1 c)
    (hA : dat.A 1 = V c (Pipeline.arrRef spec1 1)) (hkeep : ∀ t, dat.after 1 t = iblk1 V c 1 t)
    (t : Fin cfg1.N) (d) : dat.before 1 t d = iblk1 V c 1 t := by
  have hblk : ∀ s : Fin cfg1.N, dat.blockOf 1 s = iblk1 V c 1 s := fun s => by
    unfold Dat.blockOf iblk1; rw [hA]
  rw [dat.before_in_eq_fetched 1 rfl (fun _ => rfl) (fun _ _ _ => rfl) (fun s => by rw [hkeep s, hblk s]) t d]
  unfold Dat.fetched; rw [hblk t]; rfl

theorem held1_2 {c : Dev nD} (dat : Dat τ (Elt F) Unit ℕ (UR sig nD τ) ℕ cfg1 c)
    (hA : dat.A 2 = V c (Pipeline.arrRef spec1 2)) (hkeep : ∀ t, dat.after 2 t = iblk1 V c 2 t)
    (t : Fin cfg1.N) (d) : dat.before 2 t d = iblk1 V c 2 t := by
  have hblk : ∀ s : Fin cfg1.N, dat.blockOf 2 s = iblk1 V c 2 s := fun s => by
    unfold Dat.blockOf iblk1; rw [hA]
  rw [dat.before_in_eq_fetched 2 rfl (fun _ => rfl) (fun _ _ _ => rfl) (fun s => by rw [hkeep s, hblk s]) t d]
  unfold Dat.fetched; rw [hblk t]; rfl

theorem held1_3 {c : Dev nD} (dat : Dat τ (Elt F) Unit ℕ (UR sig nD τ) ℕ cfg1 c)
    (hA : dat.A 3 = V c (Pipeline.arrRef spec1 3)) (hkeep : ∀ t, dat.after 3 t = iblk1 V c 3 t)
    (t : Fin cfg1.N) (d) : dat.before 3 t d = iblk1 V c 3 t := by
  have hblk : ∀ s : Fin cfg1.N, dat.blockOf 3 s = iblk1 V c 3 s := fun s => by
    unfold Dat.blockOf iblk1; rw [hA]
  rw [dat.before_in_eq_fetched 3 rfl (fun _ => rfl) (fun _ _ _ => rfl) (fun s => by rw [hkeep s, hblk s]) t d]
  unfold Dat.fetched; rw [hblk t]; rfl

theorem held1_4 {c : Dev nD} (dat : Dat τ (Elt F) Unit ℕ (UR sig nD τ) ℕ cfg1 c)
    (hA : dat.A 4 = V c (Pipeline.arrRef spec1 4)) (hkeep : ∀ t, dat.after 4 t = iblk1 V c 4 t)
    (t : Fin cfg1.N) (d) : dat.before 4 t d = iblk1 V c 4 t := by
  have hblk : ∀ s : Fin cfg1.N, dat.blockOf 4 s = iblk1 V c 4 s := fun s => by
    unfold Dat.blockOf iblk1; rw [hA]
  rw [dat.before_in_eq_fetched 4 rfl (fun _ => rfl) (fun _ _ _ => rfl) (fun s => by rw [hkeep s, hblk s]) t d]
  unfold Dat.fetched; rw [hblk t]; rfl

theorem held1_5 {c : Dev nD} (dat : Dat τ (Elt F) Unit ℕ (UR sig nD τ) ℕ cfg1 c)
    (hA : dat.A 5 = V c (Pipeline.arrRef spec1 5)) (hkeep : ∀ t, dat.after 5 t = iblk1 V c 5 t)
    (t : Fin cfg1.N) (d) : dat.before 5 t d = iblk1 V c 5 t := by
  have hblk : ∀ s : Fin cfg1.N, dat.blockOf 5 s = iblk1 V c 5 s := fun s => by
    unfold Dat.blockOf iblk1; rw [hA]
  rw [dat.before_in_eq_fetched 5 rfl (fun _ => rfl) (fun _ _ _ => rfl) (fun s => by rw [hkeep s, hblk s]) t d]
  unfold Dat.fetched; rw [hblk t]; rfl

/-! ## What the body writes

Each access of the body is to a whole buffer: the rectangle at offset zero of the buffer's own extent. -/

abbrev all1_S1x64x1024 : Rect S1x64x1024 := Rect.unit (s := S1x64x1024) ![0, 0, 0] S1x64x1024.size inb_S1x64x1024_S1x64x1024_0_0_0
abbrev all1_S1024x1024 : Rect S1024x1024 := Rect.unit (s := S1024x1024) ![0, 0] S1024x1024.size inb_S1024x1024_S1024x1024_0_0
abbrev all1_S64x64 : Rect S64x64 := Rect.unit (s := S64x64) ![0, 0] S64x64.size inb_S64x64_S64x64_0_0
abbrev all1_S1024x8 : Rect S1024x8 := Rect.unit (s := S1024x8) ![0, 0] S1024x8.size inb_S1024x8_S1024x8_0_0
abbrev all1_S8x1024 : Rect S8x1024 := Rect.unit (s := S8x1024) ![0, 0] S8x1024.size inb_S8x1024_S8x1024_0_0

/-- The contents of the output buffer (window 6) after the body, given the contents `x_w` of the input buffers:
    the body stores once, the payload `k1_pay1` of the loaded inputs, over the whole buffer; so the buffer reads as
    the canonical contents of that single piece. -/
def out1_6 (x0 : Vec F S1x64x1024 .f32) (x1 : Vec F S1024x1024 .bf16) (x2 : Vec F S1024x1024 .bf16) (x3 : Vec F S64x64 .bf16) (x4 : Vec F S1024x8 .bf16) (x5 : Vec F S8x1024 .bf16) : Vec F S1x64x1024 .f32 :=
  View.canon [⟨all1_S1x64x1024, k1_pay1 (View.ld x0 all1_S1x64x1024) (View.ld x1 all1_S1024x1024) (View.ld x2 all1_S1024x1024) (View.ld x4 all1_S1024x8) (View.ld x3 all1_S64x64) (View.ld x5 all1_S8x1024)⟩]

/-- The single store leaves no index of the output buffer unwritten: its rectangle is the one tile of a tiling
    of the buffer by tiles of the buffer's extent, which is checked by evaluation whatever the payload. -/
theorem filled1_6 (pay : all1_S1x64x1024.shape.Idx → Elt F .f32) (y : S1x64x1024.Idx) :
    ∃ pc ∈ ([⟨all1_S1x64x1024, pay⟩] : List (View.Piece (Elt F) S1x64x1024 .f32)), y ∈ pc.1.set :=
  View.cover_of_tiled [⟨all1_S1x64x1024, pay⟩] S1x64x1024.size (by rfl) y

/-! ## The body's triple -/

set_option maxHeartbeats 1000000 in
/-- On any whole staging buffers — the inputs' holding `x_w`, the output's holding anything — the body runs to a
    state where the inputs' are unchanged and the output's holds `out1_6` of the `x_w`. The printed function is
    rewritten to its sequence of memory operations over the named payload, and that sequence (7 whole-buffer
    loads, one of them of the output buffer and unused, then the store) is executed symbolically. -/
theorem sound_kernel1 (c : Dev nD) (E : Set ℕ) (i : grid1.Coords) (a0 : Memref sig .tc .vmem S1x64x1024 .f32) (w0 : a0.IsWhole) (a1 : Memref sig .tc .vmem S1024x1024 .bf16) (w1 : a1.IsWhole) (a2 : Memref sig .tc .vmem S1024x1024 .bf16) (w2 : a2.IsWhole) (a3 : Memref sig .tc .vmem S64x64 .bf16) (w3 : a3.IsWhole) (a4 : Memref sig .tc .vmem S1024x8 .bf16) (w4 : a4.IsWhole) (a5 : Memref sig .tc .vmem S8x1024 .bf16) (w5 : a5.IsWhole) (a6 : Memref sig .tc .vmem S1x64x1024 .f32) (w6 : a6.IsWhole)
    (x0 : Vec F S1x64x1024 .f32) (x1 : Vec F S1024x1024 .bf16) (x2 : Vec F S1024x1024 .bf16) (x3 : Vec F S64x64 .bf16) (x4 : Vec F S1024x8 .bf16) (x5 : Vec F S8x1024 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__kernel_gate i a0 w0 a1 w1 a2 w2 a3 w3 a4 w4 a5 w5 a6 w6) K := by
  simp only [cc1__kernel_gate_eq_skeleton]; unfold cc1__kernel_gate_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (filled1_6 _)

/-! ## The proof data of the pipeline -/

/-- For core `c`: every window's array is what `V` says; after the body at point `t` an input buffer still holds
    its block and the output buffer holds `out1_6` of the input blocks; the invariant carried from point to point
    is the one of a body that touches nothing but its staging buffers; the core owes nothing; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

-- the `after` field at each literal window (its `match` reduced by `dsimp`)
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

-- so, for these proof data, each input buffer holds its block when the body starts
theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d
theorem before1_3 (c : Dev nD) (t : Fin cfg1.N) (d) : (dat1 V c).before 3 t d = iblk1 V c 3 t :=
  held1_3 V (dat1 V c) (A_eq1 V c 3) (after1_3 V c) t d
theorem before1_4 (c : Dev nD) (t : Fin cfg1.N) (d) : (dat1 V c).before 4 t d = iblk1 V c 4 t :=
  held1_4 V (dat1 V c) (A_eq1 V c 4) (after1_4 V c) t d
theorem before1_5 (c : Dev nD) (t : Fin cfg1.N) (d) : (dat1 V c).before 5 t d = iblk1 V c 5 t :=
  held1_5 V (dat1 V c) (A_eq1 V c 5) (after1_5 V c) t d

/-! ## The obligation at a point -/

/-- What the pipeline gives the body at point `t`: the invariant, the core's debts, and each window's current
    staging buffer at what it then holds. -/
def given1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it wants back: the same at the next point, each buffer at what the body leaves in it. -/
def back1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- At every point the body, called on the current staging buffers, takes `given1` to `back1`: the input buffers
    hold their blocks, so the body's triple applies with the `x_w` the blocks; the invariant and the debts are the
    same at `t` and `t + 1` and are carried across untouched. -/
theorem sound_body1 (c : Dev nD) (t : Fin cfg1.N) :
    given1 V c t ⊢ wp frame (wpE (defs₀ (F := F)) Variants.none c none) Set.univ (bodyAt1 t) (fun _ => back1 V c t) := by
  unfold given1 back1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation in the form the pipeline rule states it: a separating conjunction over all windows, which for
    7 windows is the 7-fold product above. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbOut.lean ====
/- Region 2 of the program, the output projection kernel `cc2__kernel_out`, from the point of view of its body.

   The region is a pipeline over a static grid: at every grid point the pipeline hands the body one staging
   buffer per window, the body reads the 3 input buffers whole and overwrites the output buffer whole, and
   nothing else happens (no branch, no scratch memory, no DMA of the body's own). This file fixes what the
   TensorCore's buffers hold when the region is entered — the parameter `V` — and derives, for any such `V`:
   the block of each window at each point, the contents the body leaves in the output buffer as a function of
   the input blocks, the body's triple on arbitrary whole staging buffers, and from these the proof data of the
   pipeline together with the obligation the pipeline rule asks of the body at every point. -/
import proofs.«151928_j1992864825605_2_alg».proof.Proof.Gen.Kernel.Launch
import proofs.«151928_j1992864825605_2_alg».proof.Proof.Gen.Kernel.Skeleton
import proofs.«151928_j1992864825605_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that the one store fills its buffer walks the long axes coordinate by coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds on entry to the region
variable (V : (c : Dev nD) → (b : Ref sig .tc) → Buf (Elt F) ((c : Thread nD τ).loc b))

/-! ## Blocks -/

/-- The block of window `w` that grid point `t` works on: the window's array, as `V` has it, read through the
    block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input buffers hold their blocks when the body starts

An input window is never written by the body, its blocks are not cut at the array's edge and no point is idle for
it. For such a window the staging buffer the body is given holds the block of the current point: either the
pipeline has just fetched it, or it has not because the block index is the one of the point before, whose block
is still there. This holds for any proof data that take the window's array from `V` and say that the body leaves
the block in place; it is stated that way so that it can be used before the proof data below are defined. -/

theorem held2_0 {c : Dev nD} (dat : Dat τ (Elt F) Unit ℕ (UR sig nD τ) ℕ cfg2 c)
    (hA : dat.A 0 = V c (Pipeline.arrRef spec2 0)) (hkeep : ∀ t, dat.after 0 t = iblk2 V c 0 t)
    (t : Fin cfg2.N) (d) : dat.before 0 t d = iblk2 V c 0 t := by
  have hblk : ∀ s : Fin cfg2.N, dat.blockOf 0 s = iblk2 V c 0 s := fun s => by
    unfold Dat.blockOf iblk2; rw [hA]
  rw [dat.before_in_eq_fetched 0 rfl (fun _ => rfl) (fun _ _ _ => rfl) (fun s => by rw [hkeep s, hblk s]) t d]
  unfold Dat.fetched; rw [hblk t]; rfl

theorem held2_1 {c : Dev nD} (dat : Dat τ (Elt F) Unit ℕ (UR sig nD τ) ℕ cfg2 c)
    (hA : dat.A 1 = V c (Pipeline.arrRef spec2 1)) (hkeep : ∀ t, dat.after 1 t = iblk2 V c 1 t)
    (t : Fin cfg2.N) (d) : dat.before 1 t d = iblk2 V c 1 t := by
  have hblk : ∀ s : Fin cfg2.N, dat.blockOf 1 s = iblk2 V c 1 s := fun s => by
    unfold Dat.blockOf iblk2; rw [hA]
  rw [dat.before_in_eq_fetched 1 rfl (fun _ => rfl) (fun _ _ _ => rfl) (fun s => by rw [hkeep s, hblk s]) t d]
  unfold Dat.fetched; rw [hblk t]; rfl

theorem held2_2 {c : Dev nD} (dat : Dat τ (Elt F) Unit ℕ (UR sig nD τ) ℕ cfg2 c)
    (hA : dat.A 2 = V c (Pipeline.arrRef spec2 2)) (hkeep : ∀ t, dat.after 2 t = iblk2 V c 2 t)
    (t : Fin cfg2.N) (d) : dat.before 2 t d = iblk2 V c 2 t := by
  have hblk : ∀ s : Fin cfg2.N, dat.blockOf 2 s = iblk2 V c 2 s := fun s => by
    unfold Dat.blockOf iblk2; rw [hA]
  rw [dat.before_in_eq_fetched 2 rfl (fun _ => rfl) (fun _ _ _ => rfl) (fun s => by rw [hkeep s, hblk s]) t d]
  unfold Dat.fetched; rw [hblk t]; rfl

/-! ## What the body writes

Each access of the body is to a whole buffer: the rectangle at offset zero of the buffer's own extent. -/

abbrev all2_S256x1024 : Rect S256x1024 := Rect.unit (s := S256x1024) ![0, 0] S256x1024.size inb_S256x1024_S256x1024_0_0
abbrev all2_S4096x1024 : Rect S4096x1024 := Rect.unit (s := S4096x1024) ![0, 0] S4096x1024.size inb_S4096x1024_S4096x1024_0_0
abbrev all2_S1x4096 : Rect S1x4096 := Rect.unit (s := S1x4096) ![0, 0] S1x4096.size inb_S1x4096_S1x4096_0_0
abbrev all2_S256x4096 : Rect S256x4096 := Rect.unit (s := S256x4096) ![0, 0] S256x4096.size inb_S256x4096_S256x4096_0_0

/-- The contents of the output buffer (window 3) after the body, given the contents `x_w` of the input buffers:
    the body stores once, the payload `k2_pay1` of the loaded inputs, over the whole buffer; so the buffer reads as
    the canonical contents of that single piece. -/
def out2_3 (x0 : Vec F S256x1024 .f32) (x1 : Vec F S4096x1024 .bf16) (x2 : Vec F S1x4096 .f32) : Vec F S256x4096 .f32 :=
  View.canon [⟨all2_S256x4096, k2_pay1 (View.ld x0 all2_S256x1024) (View.ld x1 all2_S4096x1024) (View.ld x2 all2_S1x4096)⟩]

/-- The single store leaves no index of the output buffer unwritten: its rectangle is the one tile of a tiling
    of the buffer by tiles of the buffer's extent, which is checked by evaluation whatever the payload. -/
theorem filled2_3 (pay : all2_S256x4096.shape.Idx → Elt F .f32) (y : S256x4096.Idx) :
    ∃ pc ∈ ([⟨all2_S256x4096, pay⟩] : List (View.Piece (Elt F) S256x4096 .f32)), y ∈ pc.1.set :=
  View.cover_of_tiled [⟨all2_S256x4096, pay⟩] S256x4096.size (by rfl) y

/-! ## The body's triple -/

set_option maxHeartbeats 1000000 in
/-- On any whole staging buffers — the inputs' holding `x_w`, the output's holding anything — the body runs to a
    state where the inputs' are unchanged and the output's holds `out2_3` of the `x_w`. The printed function is
    rewritten to its sequence of memory operations over the named payload, and that sequence (4 whole-buffer
    loads, one of them of the output buffer and unused, then the store) is executed symbolically. -/
theorem sound_kernel2 (c : Dev nD) (E : Set ℕ) (i : grid2.Coords) (a0 : Memref sig .tc .vmem S256x1024 .f32) (w0 : a0.IsWhole) (a1 : Memref sig .tc .vmem S4096x1024 .bf16) (w1 : a1.IsWhole) (a2 : Memref sig .tc .vmem S1x4096 .f32) (w2 : a2.IsWhole) (a3 : Memref sig .tc .vmem S256x4096 .f32) (w3 : a3.IsWhole)
    (x0 : Vec F S256x1024 .f32) (x1 : Vec F S4096x1024 .bf16) (x2 : Vec F S1x4096 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__kernel_out i a0 w0 a1 w1 a2 w2 a3 w3) K := by
  simp only [cc2__kernel_out_eq_skeleton]; unfold cc2__kernel_out_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (filled2_3 _)

/-! ## The proof data of the pipeline -/

/-- For core `c`: every window's array is what `V` says; after the body at point `t` an input buffer still holds
    its block and the output buffer holds `out2_3` of the input blocks; the invariant carried from point to point
    is the one of a body that touches nothing but its staging buffers; the core owes nothing; shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

-- the `after` field at each literal window (its `match` reduced by `dsimp`)
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

-- so, for these proof data, each input buffer holds its block when the body starts
theorem before2_0 (c : Dev nD) (t : Fin cfg2.N) (d) : (dat2 V c).before 0 t d = iblk2 V c 0 t :=
  held2_0 V (dat2 V c) (A_eq2 V c 0) (after2_0 V c) t d
theorem before2_1 (c : Dev nD) (t : Fin cfg2.N) (d) : (dat2 V c).before 1 t d = iblk2 V c 1 t :=
  held2_1 V (dat2 V c) (A_eq2 V c 1) (after2_1 V c) t d
theorem before2_2 (c : Dev nD) (t : Fin cfg2.N) (d) : (dat2 V c).before 2 t d = iblk2 V c 2 t :=
  held2_2 V (dat2 V c) (A_eq2 V c 2) (after2_2 V c) t d

/-! ## The obligation at a point -/

/-- What the pipeline gives the body at point `t`: the invariant, the core's debts, and each window's current
    staging buffer at what it then holds. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it wants back: the same at the next point, each buffer at what the body leaves in it. -/
def back2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the body, called on the current staging buffers, takes `given2` to `back2`: the input buffers
    hold their blocks, so the body's triple applies with the `x_w` the blocks; the invariant and the debts are the
    same at `t` and `t + 1` and are carried across untouched. -/
theorem sound_body2 (c : Dev nD) (t : Fin cfg2.N) :
    given2 V c t ⊢ wp frame (wpE (defs₀ (F := F)) Variants.none c none) Set.univ (bodyAt2 t) (fun _ => back2 V c t) := by
  unfold given2 back2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation in the form the pipeline rule states it: a separating conjunction over all windows, which for
    4 windows is the 4-fold product above. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KbRun.lean ====
/-
  The whole program's run: nine segments — three stretches of host operations, the embedding kernel, a reshape, the
  gating kernel, a reshape, the output kernel, a reshape — composed in order.

  The buffer contents at each boundary are a fold from the launch memory (`W0` … `W9`): a host stretch applies its
  operations, a kernel region replaces its windows' arrays by what the pipeline leaves there. Every execution
  terminates, and at the end every buffer that outlives the kernels holds `W9`; read at an argument array the fold
  walks back to the launch memory (no operation and no kernel writes an argument), which is the frame claim.
-/
import proofs.«151928_j1992864825605_2_alg».proof.Proof.KbEmbed
import proofs.«151928_j1992864825605_2_alg».proof.Proof.KbGate
import proofs.«151928_j1992864825605_2_alg».proof.Proof.KbOut
import proofs.«151928_j1992864825605_2_alg».proof.Proof.Gen.Kernel.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- What the embedding kernel is entered with. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- When region 0 is left: its windows' arrays at what the pipeline leaves (an input as entered, the output with its
    written-back blocks), every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- What the gating kernel is entered with. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- When region 1 is left: its windows' arrays at what the pipeline leaves (an input as entered, the output with its
    written-back blocks), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- What the output kernel is entered with. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- When region 2 is left: its windows' arrays at what the pipeline leaves (an input as entered, the output with its
    written-back blocks), every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- The contents at the return. -/
abbrev W9 : Dev nD → Valuation τ sig (Elt F) := fun c => StableHlo.after hostOps3 (W8 m c)

/-! ## No operation and no kernel writes an argument -/

theorem W9_main_arg0 (c : Dev nD) : W9 m c (Proc.devRef .tc main_arg0) = m ((c : Thread nD τ).loc main_arg0) :=
  (StableHlo.after_of_writes_sub hostOps3 _ hostOps3_writes (r := main_arg0) (by decide)).trans <|
  (W8_of_ne m c main_arg0 (by decide)).trans <|
  (StableHlo.after_of_writes_sub hostOps2 _ hostOps2_writes (r := main_arg0) (by decide)).trans <|
  (W6_of_ne m c main_arg0 (by decide)).trans <|
  (StableHlo.after_of_writes_sub hostOps1 _ hostOps1_writes (r := main_arg0) (by decide)).trans <|
  (W4_of_ne m c main_arg0 (by decide)).trans <|
  (StableHlo.after_of_writes_sub hostOps0_2 _ hostOps0_2_writes (r := main_arg0) (by decide)).trans <|
  (StableHlo.after_of_writes_sub hostOps0_1 _ hostOps0_1_writes (r := main_arg0) (by decide)).trans <|
  (StableHlo.after_of_writes_sub hostOps0 _ hostOps0_writes (r := main_arg0) (by decide)).trans rfl
theorem W9_main_arg1 (c : Dev nD) : W9 m c (Proc.devRef .tc main_arg1) = m ((c : Thread nD τ).loc main_arg1) :=
  (StableHlo.after_of_writes_sub hostOps3 _ hostOps3_writes (r := main_arg1) (by decide)).trans <|
  (W8_of_ne m c main_arg1 (by decide)).trans <|
  (StableHlo.after_of_writes_sub hostOps2 _ hostOps2_writes (r := main_arg1) (by decide)).trans <|
  (W6_of_ne m c main_arg1 (by decide)).trans <|
  (StableHlo.after_of_writes_sub hostOps1 _ hostOps1_writes (r := main_arg1) (by decide)).trans <|
  (W4_of_ne m c main_arg1 (by decide)).trans <|
  (StableHlo.after_of_writes_sub hostOps0_2 _ hostOps0_2_writes (r := main_arg1) (by decide)).trans <|
  (StableHlo.after_of_writes_sub hostOps0_1 _ hostOps0_1_writes (r := main_arg1) (by decide)).trans <|
  (StableHlo.after_of_writes_sub hostOps0 _ hostOps0_writes (r := main_arg1) (by decide)).trans rfl
theorem W9_main_arg2 (c : Dev nD) : W9 m c (Proc.devRef .tc main_arg2) = m ((c : Thread nD τ).loc main_arg2) :=
  (StableHlo.after_of_writes_sub hostOps3 _ hostOps3_writes (r := main_arg2) (by decide)).trans <|
  (W8_of_ne m c main_arg2 (by decide)).trans <|
  (StableHlo.after_of_writes_sub hostOps2 _ hostOps2_writes (r := main_arg2) (by decide)).trans <|
  (W6_of_ne m c main_arg2 (by decide)).trans <|
  (StableHlo.after_of_writes_sub hostOps1 _ hostOps1_writes (r := main_arg2) (by decide)).trans <|
  (W4_of_ne m c main_arg2 (by decide)).trans <|
  (StableHlo.after_of_writes_sub hostOps0_2 _ hostOps0_2_writes (r := main_arg2) (by decide)).trans <|
  (StableHlo.after_of_writes_sub hostOps0_1 _ hostOps0_1_writes (r := main_arg2) (by decide)).trans <|
  (StableHlo.after_of_writes_sub hostOps0 _ hostOps0_writes (r := main_arg2) (by decide)).trans rfl
theorem W9_main_arg3 (c : Dev nD) : W9 m c (Proc.devRef .tc main_arg3) = m ((c : Thread nD τ).loc main_arg3) :=
  (StableHlo.after_of_writes_sub hostOps3 _ hostOps3_writes (r := main_arg3) (by decide)).trans <|
  (W8_of_ne m c main_arg3 (by decide)).trans <|
  (StableHlo.after_of_writes_sub hostOps2 _ hostOps2_writes (r := main_arg3) (by decide)).trans <|
  (W6_of_ne m c main_arg3 (by decide)).trans <|
  (StableHlo.after_of_writes_sub hostOps1 _ hostOps1_writes (r := main_arg3) (by decide)).trans <|
  (W4_of_ne m c main_arg3 (by decide)).trans <|
  (StableHlo.after_of_writes_sub hostOps0_2 _ hostOps0_2_writes (r := main_arg3) (by decide)).trans <|
  (StableHlo.after_of_writes_sub hostOps0_1 _ hostOps0_1_writes (r := main_arg3) (by decide)).trans <|
  (StableHlo.after_of_writes_sub hostOps0 _ hostOps0_writes (r := main_arg3) (by decide)).trans rfl
theorem W9_main_arg4 (c : Dev nD) : W9 m c (Proc.devRef .tc main_arg4) = m ((c : Thread nD τ).loc main_arg4) :=
  (StableHlo.after_of_writes_sub hostOps3 _ hostOps3_writes (r := main_arg4) (by decide)).trans <|
  (W8_of_ne m c main_arg4 (by decide)).trans <|
  (StableHlo.after_of_writes_sub hostOps2 _ hostOps2_writes (r := main_arg4) (by decide)).trans <|
  (W6_of_ne m c main_arg4 (by decide)).trans <|
  (StableHlo.after_of_writes_sub hostOps1 _ hostOps1_writes (r := main_arg4) (by decide)).trans <|
  (W4_of_ne m c main_arg4 (by decide)).trans <|
  (StableHlo.after_of_writes_sub hostOps0_2 _ hostOps0_2_writes (r := main_arg4) (by decide)).trans <|
  (StableHlo.after_of_writes_sub hostOps0_1 _ hostOps0_1_writes (r := main_arg4) (by decide)).trans <|
  (StableHlo.after_of_writes_sub hostOps0 _ hostOps0_writes (r := main_arg4) (by decide)).trans rfl
theorem W9_main_arg5 (c : Dev nD) : W9 m c (Proc.devRef .tc main_arg5) = m ((c : Thread nD τ).loc main_arg5) :=
  (StableHlo.after_of_writes_sub hostOps3 _ hostOps3_writes (r := main_arg5) (by decide)).trans <|
  (W8_of_ne m c main_arg5 (by decide)).trans <|
  (StableHlo.after_of_writes_sub hostOps2 _ hostOps2_writes (r := main_arg5) (by decide)).trans <|
  (W6_of_ne m c main_arg5 (by decide)).trans <|
  (StableHlo.after_of_writes_sub hostOps1 _ hostOps1_writes (r := main_arg5) (by decide)).trans <|
  (W4_of_ne m c main_arg5 (by decide)).trans <|
  (StableHlo.after_of_writes_sub hostOps0_2 _ hostOps0_2_writes (r := main_arg5) (by decide)).trans <|
  (StableHlo.after_of_writes_sub hostOps0_1 _ hostOps0_1_writes (r := main_arg5) (by decide)).trans <|
  (StableHlo.after_of_writes_sub hostOps0 _ hostOps0_writes (r := main_arg5) (by decide)).trans rfl
theorem W9_main_arg6 (c : Dev nD) : W9 m c (Proc.devRef .tc main_arg6) = m ((c : Thread nD τ).loc main_arg6) :=
  (StableHlo.after_of_writes_sub hostOps3 _ hostOps3_writes (r := main_arg6) (by decide)).trans <|
  (W8_of_ne m c main_arg6 (by decide)).trans <|
  (StableHlo.after_of_writes_sub hostOps2 _ hostOps2_writes (r := main_arg6) (by decide)).trans <|
  (W6_of_ne m c main_arg6 (by decide)).trans <|
  (StableHlo.after_of_writes_sub hostOps1 _ hostOps1_writes (r := main_arg6) (by decide)).trans <|
  (W4_of_ne m c main_arg6 (by decide)).trans <|
  (StableHlo.after_of_writes_sub hostOps0_2 _ hostOps0_2_writes (r := main_arg6) (by decide)).trans <|
  (StableHlo.after_of_writes_sub hostOps0_1 _ hostOps0_1_writes (r := main_arg6) (by decide)).trans <|
  (StableHlo.after_of_writes_sub hostOps0 _ hostOps0_writes (r := main_arg6) (by decide)).trans rfl
theorem W9_main_arg7 (c : Dev nD) : W9 m c (Proc.devRef .tc main_arg7) = m ((c : Thread nD τ).loc main_arg7) :=
  (StableHlo.after_of_writes_sub hostOps3 _ hostOps3_writes (r := main_arg7) (by decide)).trans <|
  (W8_of_ne m c main_arg7 (by decide)).trans <|
  (StableHlo.after_of_writes_sub hostOps2 _ hostOps2_writes (r := main_arg7) (by decide)).trans <|
  (W6_of_ne m c main_arg7 (by decide)).trans <|
  (StableHlo.after_of_writes_sub hostOps1 _ hostOps1_writes (r := main_arg7) (by decide)).trans <|
  (W4_of_ne m c main_arg7 (by decide)).trans <|
  (StableHlo.after_of_writes_sub hostOps0_2 _ hostOps0_2_writes (r := main_arg7) (by decide)).trans <|
  (StableHlo.after_of_writes_sub hostOps0_1 _ hostOps0_1_writes (r := main_arg7) (by decide)).trans <|
  (StableHlo.after_of_writes_sub hostOps0 _ hostOps0_writes (r := main_arg7) (by decide)).trans rfl
theorem W9_main_arg8 (c : Dev nD) : W9 m c (Proc.devRef .tc main_arg8) = m ((c : Thread nD τ).loc main_arg8) :=
  (StableHlo.after_of_writes_sub hostOps3 _ hostOps3_writes (r := main_arg8) (by decide)).trans <|
  (W8_of_ne m c main_arg8 (by decide)).trans <|
  (StableHlo.after_of_writes_sub hostOps2 _ hostOps2_writes (r := main_arg8) (by decide)).trans <|
  (W6_of_ne m c main_arg8 (by decide)).trans <|
  (StableHlo.after_of_writes_sub hostOps1 _ hostOps1_writes (r := main_arg8) (by decide)).trans <|
  (W4_of_ne m c main_arg8 (by decide)).trans <|
  (StableHlo.after_of_writes_sub hostOps0_2 _ hostOps0_2_writes (r := main_arg8) (by decide)).trans <|
  (StableHlo.after_of_writes_sub hostOps0_1 _ hostOps0_1_writes (r := main_arg8) (by decide)).trans <|
  (StableHlo.after_of_writes_sub hostOps0 _ hostOps0_writes (r := main_arg8) (by decide)).trans rfl

/-! ## The proof data of the three pipelines and the thread state -/

/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register. -/
abbrev Tn (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 as a segment: entered with every unscoped buffer at `W3`, left with them at `W4`. Its windows'
    arrays are split out of the unscoped buffers at entry and put back at their final contents at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec0 c : sProp 𝕄) from by
      unfold Pipeline.ΦA
      iintro ⟨Hp, -, Hr⟩
      isplitl [Hr]; · iexact Hr
      iexact Hp).trans (hin0 (V3 m) c)
  hout c := by
    rw [Pipeline.ownSems0_none]
    exact (hout0 (V3 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its windows'
    arrays are split out of the unscoped buffers at entry and put back at their final contents at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its windows'
    arrays are split out of the unscoped buffers at entry and put back at their final contents at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)) ]

theorem main_run (c : Dev nD) : main (F := F) c = Pipeline.Seg.run (segs m) := (main_chain c).trans (by chain_rfl)

variable (ρ : Dev nD → PrngReg)

set_option backward.isDefEq.respectTransparency.types false in
/-- From any memory with every counter at zero, every weakly fair execution of the program terminates, nothing
    faulting, and every buffer that outlives the kernels ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W9 m c) ∗ R c)
        ⊢ iprop(Tn m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The same run read at the result buffer and at the nine argument arrays: the result at the last boundary's
    contents, every argument as launched. -/
theorem run_result : θ_run defs (onTc (τ := τ) (main (F := F))) ⟨m, fun _ => 0, ρ⟩ (fun r => ∀ c : Dev nD,
      r.2.mem ((c.tc : Thread nD τ).loc main_v33) = W9 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v33 (by decide)),
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c)⟩) (run_all m ρ)

/-- The frame claim: the nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Hand

end
-- ==== Proof.KiEmbedDefs.lean ====
/-
  The embedding kernel (the first of the three): a 4 × 8 grid, row tile `i` by pixel tile `k`. At `k = 0` the
  accumulator (a scratch buffer kept from one grid point to the next) is cleared; at every point the product of the
  point's row tile of the batch with the point's pixel tile of the embedding is added to it; at `k = 7` the accumulator
  plus the bias tile is stored into the output block, which is written back only there.

  Here: each window's block at a point, the two branch conditions in closed form over the linear position
  (`k = 0` ⇔ position ≡ 0, `k = 7` ⇔ position ≡ 7 modulo 8), and where the output window is idle.
-/
import proofs.«151928_j1992864825605_2_alg».proof.Proof.Gen.KernelIdeal.Launch
import proofs.«151928_j1992864825605_2_alg».proof.Proof.Gen.KernelIdeal.Skeleton
import proofs.«151928_j1992864825605_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid position `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every position, whether the block was fetched there
    or is still the one fetched earlier (its index has not moved since). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two branch conditions -/

/-- "This is the first pixel tile" (`k = 0`), as the body computes it from the grid coordinates. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 8 = 0 :=
  (by decide +kernel : ∀ t : Fin grid0.N, isFirst (grid0.coords t) ↔ t.val % 8 = 0)
/-- "This is the last pixel tile" (`k = 7`). -/
abbrev isLast (i : grid0.Coords) : Prop := k0_cond2 i = 1#1
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last pixel tile nothing is stored into the output block and it is not written back. -/
theorem idle0_3 : ∀ t : Fin cfg0.N, ¬isLast (grid0.coords t) → cfg0.idle 3 (grid0.coords t) = true := by decide +kernel
theorem noFlush0_3 : ∀ t : Fin cfg0.N, ¬isLast (grid0.coords t) → (cfg0.win 3).flush t = false := by decide +kernel
theorem live0_3 : ∀ t : Fin cfg0.N, isLast (grid0.coords t) → cfg0.idle 3 (grid0.coords t) = false := by decide +kernel

/-! ## The staging memrefs and the accumulator -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
/-- The accumulator: a whole buffer of the kernel's own. -/
abbrev accM : Memref sig .tc .vmem S256x1024 .f32 := Memref.whole cc0_scratch0
abbrev accV : View sig .tc .vmem S256x1024 .f32 := (accM).view
/-- One staging buffer of the output window, through which its contents are stated. -/
abbrev outV : View sig .tc .vmem S256x1024 .f32 := (Memref.whole cc0_stg3_0 : Memref sig .tc .vmem S256x1024 .f32).view

/-- The staging buffers of the two later kernels: scoped buffers this kernel never touches, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- What the region's invariant holds besides the windows: the accumulator at some contents, the later kernels' staging
    buffers, and the generator register. -/
theorem PhiA0_eq (c : Dev nD) :
    (Pipeline.ΦA spec0 c : sProp 𝕄)
      = iprop(iprop((∃ d, owns (c : Thread nD τ) accM fullShare d) ∗ others0 c) ∗ (∃ r, prngReg c r)) := by
  unfold Pipeline.ΦA; rw [scopedRest0_eq]; simp only [accM, owns_whole, others0]; try rfl

end Cert.KernelIdeal.Hand

end
-- ==== Proof.KiEmbedFirst.lean ====
/-
  The embedding kernel's body at the first pixel tile of a row tile: the accumulator is cleared, then the point's product is added to it.
-/
import proofs.«151928_j1992864825605_2_alg».proof.Proof.KiEmbedDefs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point, from the two input blocks `x0`, `x1` and the accumulator at anything, the body runs to its end
    leaving the input buffers as they were and the accumulator with the pieces `LS` written — the list the run finds. -/
noncomputable def embedRunFirst (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : isFirst i) (hc1 : ¬isLast i)
    (x0 : Vec F S256x2048 .f32) (x1 : Vec F S1024x2048 .bf16) :
    { LS : List (View.Piece (Elt F) S256x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__kernel_embed i arg2 harg2 arg3 harg3 arg4 harg4 arg5 harg5 arg6 harg6) K } := by
  refine ⟨?_, fun E K => ?run⟩
  case run =>
    simp only [cc0__kernel_embed_eq_skeleton]; unfold cc0__kernel_embed_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.KiEmbedMid.lean ====
/-
  The embedding kernel's body at a grid point that is neither the first nor the last pixel tile: the point's product is added to the accumulator, nothing else is stored.
-/
import proofs.«151928_j1992864825605_2_alg».proof.Proof.KiEmbedDefs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point, from the two input blocks `x0`, `x1` and the accumulator at `xs`, the body runs to its end leaving
    the input buffers as they were and the accumulator with the pieces `LS` written — the list the run itself finds. -/
noncomputable def embedRunMid (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬isFirst i) (hc1 : ¬isLast i)
    (x0 : Vec F S256x2048 .f32) (x1 : Vec F S1024x2048 .bf16) (xs : Vec F S256x1024 .f32) :
    { LS : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__kernel_embed i arg2 harg2 arg3 harg3 arg4 harg4 arg5 harg5 arg6 harg6) K } := by
  refine ⟨?_, fun E K => ?run⟩
  case run =>
    simp only [cc0__kernel_embed_eq_skeleton]; unfold cc0__kernel_embed_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

end Cert.KernelIdeal.Hand

end
-- ==== Proof.KiEmbedLast.lean ====
/-
  The embedding kernel's body at the last pixel tile of a row tile: the point's product is added to the accumulator, and the accumulator plus the bias tile is stored into the output block.
-/
import proofs.«151928_j1992864825605_2_alg».proof.Proof.KiEmbedDefs

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At such a point, from the three input blocks `x0`, `x1`, `x2`, the output buffer at anything and the accumulator
    at `xs`, the body runs to its end leaving the input buffers as they were, the output buffer with the pieces `L3`
    written and the accumulator with `LS` — the lists the run finds. -/
noncomputable def embedRunLast (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (hc0 : ¬isFirst i) (hc1 : isLast i)
    (x0 : Vec F S256x2048 .f32) (x1 : Vec F S1024x2048 .bf16) (x2 : Vec F S256x1024 .f32) (xs : Vec F S256x1024 .f32) :
    Σ' (L3 : List (View.Piece (Elt F) S256x1024 .f32)), { LS : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__kernel_embed i arg2 harg2 arg3 harg3 arg4 harg4 arg5 harg5 arg6 harg6) K } := by
  refine ⟨?_, ?_, fun E K => ?run⟩
  case run =>
    simp only [cc0__kernel_embed_eq_skeleton]; unfold cc0__kernel_embed_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Hand

end
-- ==== Proof.KiEmbed.lean ====
/-
  The embedding kernel over its whole grid.

  The accumulator's contents after grid position `n` (`accAt`), by recursion on the position: at the first pixel tile
  of a row tile what the clearing-then-adding body leaves, elsewhere what the adding body leaves over the contents of
  the position before. The output block after a last pixel tile (`outAt`) is what that body stores there over the
  accumulator of the position before; at the other positions the output window is idle and its buffer is handed
  back as found.

  From these: the region's invariant (the accumulator at `accAt` of the position before, the later kernels' staging
  buffers and the generator register untouched), the pipeline's proof data, and the obligation that the body,
  started at any position with the buffers the pipeline hands it, ends with what the proof data say.
-/
import proofs.«151928_j1992864825605_2_alg».proof.Proof.KiEmbedFirst
import proofs.«151928_j1992864825605_2_alg».proof.Proof.KiEmbedMid
import proofs.«151928_j1992864825605_2_alg».proof.Proof.KiEmbedLast

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

section Pieces
variable (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole)

/-- The pieces the clearing-then-adding body writes into the accumulator tile it, so they cover it. -/
theorem cover_accFirst (hc0 : isFirst i) (hc1 : ¬isLast i) (x0 : Vec F S256x2048 .f32) (x1 : Vec F S1024x2048 .bf16) (y : S256x1024.Idx) :
    ∃ pc ∈ (embedRunFirst c i arg2 harg2 arg3 harg3 arg4 harg4 arg5 harg5 arg6 harg6 hc0 hc1 x0 x1).1, y ∈ pc.1.set :=
  View.cover_of_tiledL (embedRunFirst c i arg2 harg2 arg3 harg3 arg4 harg4 arg5 harg5 arg6 harg6 hc0 hc1 x0 x1).1 S256x1024.size (by sl_kernel_rfl) y
/-- The accumulator after a first pixel tile: those pieces read back. -/
def accFirst (hc0 : isFirst i) (hc1 : ¬isLast i) (x0 : Vec F S256x2048 .f32) (x1 : Vec F S1024x2048 .bf16) : Vec F S256x1024 .f32 :=
  accV.read (Elt F) (accV.writes (Elt F) accV.junk (embedRunFirst c i arg2 harg2 arg3 harg3 arg4 harg4 arg5 harg5 arg6 harg6 hc0 hc1 x0 x1).1)

theorem cover_accMid (hc0 : ¬isFirst i) (hc1 : ¬isLast i) (x0 : Vec F S256x2048 .f32) (x1 : Vec F S1024x2048 .bf16) (xs : Vec F S256x1024 .f32) (y : S256x1024.Idx) :
    ∃ pc ∈ (embedRunMid c i arg2 harg2 arg3 harg3 arg4 harg4 arg5 harg5 arg6 harg6 hc0 hc1 x0 x1 xs).1, y ∈ pc.1.set :=
  View.cover_of_tiledL (embedRunMid c i arg2 harg2 arg3 harg3 arg4 harg4 arg5 harg5 arg6 harg6 hc0 hc1 x0 x1 xs).1 S256x1024.size (by sl_kernel_rfl) y
/-- The accumulator after a middle pixel tile, over the contents `xs` it had before. -/
def accMid (hc0 : ¬isFirst i) (hc1 : ¬isLast i) (x0 : Vec F S256x2048 .f32) (x1 : Vec F S1024x2048 .bf16) (xs : Vec F S256x1024 .f32) : Vec F S256x1024 .f32 :=
  accV.read (Elt F) (accV.writes (Elt F) accV.junk (embedRunMid c i arg2 harg2 arg3 harg3 arg4 harg4 arg5 harg5 arg6 harg6 hc0 hc1 x0 x1 xs).1)

theorem cover_accLast (hc0 : ¬isFirst i) (hc1 : isLast i) (x0 : Vec F S256x2048 .f32) (x1 : Vec F S1024x2048 .bf16) (x2 xs : Vec F S256x1024 .f32) (y : S256x1024.Idx) :
    ∃ pc ∈ (embedRunLast c i arg2 harg2 arg3 harg3 arg4 harg4 arg5 harg5 arg6 harg6 hc0 hc1 x0 x1 x2 xs).2.1, y ∈ pc.1.set :=
  View.cover_of_tiledL (embedRunLast c i arg2 harg2 arg3 harg3 arg4 harg4 arg5 harg5 arg6 harg6 hc0 hc1 x0 x1 x2 xs).2.1 S256x1024.size (by sl_kernel_rfl) y
/-- The accumulator after a last pixel tile. -/
def accLast (hc0 : ¬isFirst i) (hc1 : isLast i) (x0 : Vec F S256x2048 .f32) (x1 : Vec F S1024x2048 .bf16) (x2 xs : Vec F S256x1024 .f32) : Vec F S256x1024 .f32 :=
  accV.read (Elt F) (accV.writes (Elt F) accV.junk (embedRunLast c i arg2 harg2 arg3 harg3 arg4 harg4 arg5 harg5 arg6 harg6 hc0 hc1 x0 x1 x2 xs).2.1)

theorem cover_outLast (hc0 : ¬isFirst i) (hc1 : isLast i) (x0 : Vec F S256x2048 .f32) (x1 : Vec F S1024x2048 .bf16) (x2 xs : Vec F S256x1024 .f32) (y : S256x1024.Idx) :
    ∃ pc ∈ (embedRunLast c i arg2 harg2 arg3 harg3 arg4 harg4 arg5 harg5 arg6 harg6 hc0 hc1 x0 x1 x2 xs).1, y ∈ pc.1.set :=
  View.cover_of_tiledL (embedRunLast c i arg2 harg2 arg3 harg3 arg4 harg4 arg5 harg5 arg6 harg6 hc0 hc1 x0 x1 x2 xs).1 S256x1024.size (by sl_kernel_rfl) y
/-- The output block after a last pixel tile. -/
def outLast (hc0 : ¬isFirst i) (hc1 : isLast i) (x0 : Vec F S256x2048 .f32) (x1 : Vec F S1024x2048 .bf16) (x2 xs : Vec F S256x1024 .f32) : Vec F S256x1024 .f32 :=
  outV.read (Elt F) (outV.writes (Elt F) outV.junk (embedRunLast c i arg2 harg2 arg3 harg3 arg4 harg4 arg5 harg5 arg6 harg6 hc0 hc1 x0 x1 x2 xs).1)

end Pieces

/-! ## The accumulator and the output block, position by position -/

theorem not_last_of_first (t : Fin cfg0.N) (h0 : t.val % 8 = 0) : ¬isLast (grid0.coords t) :=
  fun h => by have h7 := (isLast_iff t).mp h; omega
theorem not_first_of (t : Fin cfg0.N) (h0 : ¬t.val % 8 = 0) : ¬isFirst (grid0.coords t) :=
  fun h => h0 ((isFirst_iff t).mp h)
theorem not_last_of (t : Fin cfg0.N) (h1 : ¬t.val % 8 = 7) : ¬isLast (grid0.coords t) :=
  fun h => h1 ((isLast_iff t).mp h)

/-- The accumulator's contents after the body at position `n`. -/
def accAt (c : Dev nD) : (n : ℕ) → n < cfg0.N → Vec F S256x1024 .f32
  | 0, hn => accFirst c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) accM (Memref.isWhole_whole _) ((isFirst_iff ⟨0, hn⟩).mpr (Nat.zero_mod _)) (not_last_of_first ⟨0, hn⟩ (Nat.zero_mod _)) (iblk0 V c 0 ⟨0, hn⟩) (iblk0 V c 1 ⟨0, hn⟩)
  | n + 1, hn =>
    if h0 : (n + 1) % 8 = 0 then
      accFirst c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) ((isFirst_iff ⟨n + 1, hn⟩).mpr h0) (not_last_of_first ⟨n + 1, hn⟩ h0) (iblk0 V c 0 ⟨n + 1, hn⟩) (iblk0 V c 1 ⟨n + 1, hn⟩)
    else if h1 : (n + 1) % 8 = 7 then
      accLast c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (not_first_of ⟨n + 1, hn⟩ h0) ((isLast_iff ⟨n + 1, hn⟩).mpr h1) (iblk0 V c 0 ⟨n + 1, hn⟩) (iblk0 V c 1 ⟨n + 1, hn⟩) (iblk0 V c 2 ⟨n + 1, hn⟩) (accAt c n (Nat.lt_of_succ_lt hn))
    else
      accMid c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) accM (Memref.isWhole_whole _) (not_first_of ⟨n + 1, hn⟩ h0) (not_last_of ⟨n + 1, hn⟩ h1) (iblk0 V c 0 ⟨n + 1, hn⟩) (iblk0 V c 1 ⟨n + 1, hn⟩) (accAt c n (Nat.lt_of_succ_lt hn))

theorem accAt_first (c : Dev nD) (t : Fin cfg0.N) (h0 : t.val % 8 = 0) :
    accAt V c t.val t.isLt = accFirst c (grid0.coords t) (ms0_0 t) (hs0_0 t) (ms0_1 t) (hs0_1 t) (ms0_2 t) (hs0_2 t) (ms0_3 t) (hs0_3 t) accM (Memref.isWhole_whole _) ((isFirst_iff t).mpr h0) (not_last_of_first t h0) (iblk0 V c 0 t) (iblk0 V c 1 t) := by
  obtain ⟨n, hn⟩ := t
  cases n with
  | zero => exact rfl
  | succ n => exact (dif_pos h0).trans rfl

theorem accAt_last (c : Dev nD) (t : Fin cfg0.N) (h0 : ¬t.val % 8 = 0) (h1 : t.val % 8 = 7) :
    accAt V c t.val t.isLt = accLast c (grid0.coords t) (ms0_0 t) (hs0_0 t) (ms0_1 t) (hs0_1 t) (ms0_2 t) (hs0_2 t) (ms0_3 t) (hs0_3 t) accM (Memref.isWhole_whole _) (not_first_of t h0) ((isLast_iff t).mpr h1) (iblk0 V c 0 t) (iblk0 V c 1 t) (iblk0 V c 2 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem accAt_mid (c : Dev nD) (t : Fin cfg0.N) (h0 : ¬t.val % 8 = 0) (h1 : ¬t.val % 8 = 7) :
    accAt V c t.val t.isLt = accMid c (grid0.coords t) (ms0_0 t) (hs0_0 t) (ms0_1 t) (hs0_1 t) (ms0_2 t) (hs0_2 t) (ms0_3 t) (hs0_3 t) accM (Memref.isWhole_whole _) (not_first_of t h0) (not_last_of t h1) (iblk0 V c 0 t) (iblk0 V c 1 t)
      (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- The output window's buffer after the body at position `t`: at a last pixel tile the stored block, over the
    accumulator of the position before; elsewhere a placeholder nothing reads (the window is idle there and is not
    written back). -/
def outAt (c : Dev nD) (t : Fin cfg0.N) : Vec F S256x1024 .f32 :=
  if h1 : t.val % 8 = 7 then
    outLast c (grid0.coords t) (ms0_0 t) (hs0_0 t) (ms0_1 t) (hs0_1 t) (ms0_2 t) (hs0_2 t) (ms0_3 t) (hs0_3 t) accM (Memref.isWhole_whole _) (not_first_of t (by omega)) ((isLast_iff t).mpr h1) (iblk0 V c 0 t) (iblk0 V c 1 t) (iblk0 V c 2 t)
      (accAt V c (t.val - 1) (Nat.lt_of_le_of_lt (Nat.sub_le _ _) t.isLt))
  else outV.read (Elt F) (outV.writes (Elt F) outV.junk [])

theorem outAt_last (c : Dev nD) (t : Fin cfg0.N) (h0 : ¬t.val % 8 = 0) (h1 : t.val % 8 = 7) :
    outAt V c t = outLast c (grid0.coords t) (ms0_0 t) (hs0_0 t) (ms0_1 t) (hs0_1 t) (ms0_2 t) (hs0_2 t) (ms0_3 t) (hs0_3 t) accM (Memref.isWhole_whole _) (not_first_of t h0) ((isLast_iff t).mpr h1) (iblk0 V c 0 t) (iblk0 V c 1 t) (iblk0 V c 2 t)
      (accAt V c (t.val - 1) (Nat.lt_of_le_of_lt (Nat.sub_le _ _) t.isLt)) := by
  unfold outAt; exact dif_pos h1

/-! ## The region's invariant -/

/-- Before position `n`: at the start whatever the launch hands over; afterwards the accumulator at what the position
    before left, the later kernels' staging buffers, the generator register. -/
def PhiS (c : Dev nD) : (n : ℕ) → n ≤ cfg0.N → sProp 𝕄
  | 0, _ => Pipeline.ΦA spec0 c
  | n + 1, hn => iprop(iprop(owns (c : Thread nD τ) accM fullShare (accAt V c n hn) ∗ others0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare (accAt V c n hn) ∗ others0 c) ∗ (∃ r, prngReg c r)) := rfl
theorem PhiS_pos (c : Dev nD) (n : ℕ) (h : n ≤ cfg0.N) (hz : n ≠ 0) :
    PhiS V c n h = iprop(iprop(owns (c : Thread nD τ) accM fullShare (accAt V c (n - 1) (by omega)) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (iblk0 V c 2 t) := by
  unfold Dat.leavesExact; rw [live0_2 t, after0_2]

set_option maxHeartbeats 4800000 in
/-- The body at any position: the input buffers hold their blocks; the closed forms say which kind of point it is; the
    invariant hands over the accumulator at what the position before left (at anything at the very first position) and
    takes it back at this position's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  have hN : t.val < 32 := lt_of_lt_of_eq t.isLt (show cfg0.N = 32 from N_0)
  by_cases h0 : t.val % 8 = 0
  · have h1 : ¬t.val % 8 = 7 := by omega
    rw [Dat.leavesExact_idle (dat0 V c) 3 t (idle0_3 t (not_last_of t h1)) (noFlush0_3 t (not_last_of t h1))]
    rw [accAt_first V c t h0]
    unfold accFirst; (try dsimp only)
    by_cases hz : t.val = 0
    · rw [PhiS_castSucc V c t, PhiS_zero V c _ _ hz, PhiA0_eq]
      iintro ⟨⟨⟨HS, Hoth⟩, Hg⟩, Ho, ⟨%d0, H0⟩, ⟨%d1, H1⟩, ⟨%d2, H2⟩, ⟨%d3, H3⟩⟩
      iapply ((embedRunFirst c (grid0.coords t) _ _ _ _ _ _ _ _ _ _ ((isFirst_iff t).mpr h0) (not_last_of_first t h0) (iblk0 V c 0 t) (iblk0 V c 1 t)).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((embedRunFirst c (grid0.coords t) _ _ _ _ _ _ _ _ _ _ ((isFirst_iff t).mpr h0) (not_last_of_first t h0) (iblk0 V c 0 t) (iblk0 V c 1 t)).2 Set.univ _)
      isplitl [H0]; · iexact H0
      isplitl [H1]; · iexact H1
      isplitl [HS]; · iexists _; iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (cover_accFirst c _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [live0_3 t ((isLast_iff t).mpr h1)], after0_3]
      rw [accAt_last V c t h0 h1, outAt_last V c t h0 h1]
      unfold accLast outLast; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((embedRunLast c (grid0.coords t) _ _ _ _ _ _ _ _ _ _ (not_first_of t h0) ((isLast_iff t).mpr h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hoth Hg]
      · isplitl [HS Hoth]
        · isplitl [HS]
          · unfold owns; iexists _; isplitr
            swap; · iexact HS
            ipureintro; exact View.read_writes_of_cover _ _ _ _ _ (cover_accLast c _ _ _ _ _ _ _ _ _ _ _ _ _ _ _ _ _)
          iexact Hoth
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_outLast c _ _ _ _ _ _ _ _ _ _ _ _ _ _ _ _ _)
    · rw [Dat.leavesExact_idle (dat0 V c) 3 t (idle0_3 t (not_last_of t h1)) (noFlush0_3 t (not_last_of t h1))]
      rw [accAt_mid V c t h0 h1]
      unfold accMid; (try dsimp only)
      rw [PhiS_castSucc V c t, PhiS_pos V c _ _ hz]
      iintro ⟨⟨⟨HS, Hoth⟩, Hg⟩, Ho, ⟨%d0, H0⟩, ⟨%d1, H1⟩, ⟨%d2, H2⟩, ⟨%d3, H3⟩⟩
      iapply ((embedRunMid c (grid0.coords t) _ _ _ _ _ _ _ _ _ _ (not_first_of t h0) (not_last_of t h1) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS Hoth Hg]
      · isplitl [HS Hoth]
        · isplitl [HS]
          · unfold owns; iexists _; isplitr
            swap; · iexact HS
            ipureintro; exact View.read_writes_of_cover _ _ _ _ _ (cover_accMid c _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the region is the invariant before the first position. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last position the invariant gives everything back, the accumulator's contents forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.KiGate.lean ====
/- Region 1 of the program, the gate kernel `cc1__kernel_gate`, from the point of view of its body.

   The region is a pipeline over a static grid: at every grid point the pipeline hands the body one staging
   buffer per window, the body reads the 6 input buffers whole and overwrites the output buffer whole, and
   nothing else happens (no branch, no scratch memory, no DMA of the body's own). This file fixes what the
   TensorCore's buffers hold when the region is entered — the parameter `V` — and derives, for any such `V`:
   the block of each window at each point, the contents the body leaves in the output buffer as a function of
   the input blocks, the body's triple on arbitrary whole staging buffers, and from these the proof data of the
   pipeline together with the obligation the pipeline rule asks of the body at every point. -/
import proofs.«151928_j1992864825605_2_alg».proof.Proof.Gen.KernelIdeal.Launch
import proofs.«151928_j1992864825605_2_alg».proof.Proof.Gen.KernelIdeal.Skeleton
import proofs.«151928_j1992864825605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that the one store fills its buffer walks the long axes coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds on entry to the region
variable (V : (c : Dev nD) → (b : Ref sig .tc) → Buf (Elt F) ((c : Thread nD τ).loc b))

/-! ## Blocks -/

/-- The block of window `w` that grid point `t` works on: the window's array, as `V` has it, read through the
    block's view. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The input buffers hold their blocks when the body starts

An input window is never written by the body, its blocks are not cut at the array's edge and no point is idle for
it. For such a window the staging buffer the body is given holds the block of the current point: either the
pipeline has just fetched it, or it has not because the block index is the one of the point before, whose block
is still there. This holds for any proof data that take the window's array from `V` and say that the body leaves
the block in place; it is stated that way so that it can be used before the proof data below are defined. -/

theorem held1_0 {c : Dev nD} (dat : Dat τ (Elt F) Unit ℕ (UR sig nD τ) ℕ cfg1 c)
    (hA : dat.A 0 = V c (Pipeline.arrRef spec1 0)) (hkeep : ∀ t, dat.after 0 t = iblk1 V c 0 t)
    (t : Fin cfg1.N) (d) : dat.before 0 t d = iblk1 V c 0 t := by
  have hblk : ∀ s : Fin cfg1.N, dat.blockOf 0 s = iblk1 V c 0 s := fun s => by
    unfold Dat.blockOf iblk1; rw [hA]
  rw [dat.before_in_eq_fetched 0 rfl (fun _ => rfl) (fun _ _ _ => rfl) (fun s => by rw [hkeep s, hblk s]) t d]
  unfold Dat.fetched; rw [hblk t]; rfl

theorem held1_1 {c : Dev nD} (dat : Dat τ (Elt F) Unit ℕ (UR sig nD τ) ℕ cfg1 c)
    (hA : dat.A 1 = V c (Pipeline.arrRef spec1 1)) (hkeep : ∀ t, dat.after 1 t = iblk1 V c 1 t)
    (t : Fin cfg1.N) (d) : dat.before 1 t d = iblk1 V c 1 t := by
  have hblk : ∀ s : Fin cfg1.N, dat.blockOf 1 s = iblk1 V c 1 s := fun s => by
    unfold Dat.blockOf iblk1; rw [hA]
  rw [dat.before_in_eq_fetched 1 rfl (fun _ => rfl) (fun _ _ _ => rfl) (fun s => by rw [hkeep s, hblk s]) t d]
  unfold Dat.fetched; rw [hblk t]; rfl

theorem held1_2 {c : Dev nD} (dat : Dat τ (Elt F) Unit ℕ (UR sig nD τ) ℕ cfg1 c)
    (hA : dat.A 2 = V c (Pipeline.arrRef spec1 2)) (hkeep : ∀ t, dat.after 2 t = iblk1 V c 2 t)
    (t : Fin cfg1.N) (d) : dat.before 2 t d = iblk1 V c 2 t := by
  have hblk : ∀ s : Fin cfg1.N, dat.blockOf 2 s = iblk1 V c 2 s := fun s => by
    unfold Dat.blockOf iblk1; rw [hA]
  rw [dat.before_in_eq_fetched 2 rfl (fun _ => rfl) (fun _ _ _ => rfl) (fun s => by rw [hkeep s, hblk s]) t d]
  unfold Dat.fetched; rw [hblk t]; rfl

theorem held1_3 {c : Dev nD} (dat : Dat τ (Elt F) Unit ℕ (UR sig nD τ) ℕ cfg1 c)
    (hA : dat.A 3 = V c (Pipeline.arrRef spec1 3)) (hkeep : ∀ t, dat.after 3 t = iblk1 V c 3 t)
    (t : Fin cfg1.N) (d) : dat.before 3 t d = iblk1 V c 3 t := by
  have hblk : ∀ s : Fin cfg1.N, dat.blockOf 3 s = iblk1 V c 3 s := fun s => by
    unfold Dat.blockOf iblk1; rw [hA]
  rw [dat.before_in_eq_fetched 3 rfl (fun _ => rfl) (fun _ _ _ => rfl) (fun s => by rw [hkeep s, hblk s]) t d]
  unfold Dat.fetched; rw [hblk t]; rfl

theorem held1_4 {c : Dev nD} (dat : Dat τ (Elt F) Unit ℕ (UR sig nD τ) ℕ cfg1 c)
    (hA : dat.A 4 = V c (Pipeline.arrRef spec1 4)) (hkeep : ∀ t, dat.after 4 t = iblk1 V c 4 t)
    (t : Fin cfg1.N) (d) : dat.before 4 t d = iblk1 V c 4 t := by
  have hblk : ∀ s : Fin cfg1.N, dat.blockOf 4 s = iblk1 V c 4 s := fun s => by
    unfold Dat.blockOf iblk1; rw [hA]
  rw [dat.before_in_eq_fetched 4 rfl (fun _ => rfl) (fun _ _ _ => rfl) (fun s => by rw [hkeep s, hblk s]) t d]
  unfold Dat.fetched; rw [hblk t]; rfl

theorem held1_5 {c : Dev nD} (dat : Dat τ (Elt F) Unit ℕ (UR sig nD τ) ℕ cfg1 c)
    (hA : dat.A 5 = V c (Pipeline.arrRef spec1 5)) (hkeep : ∀ t, dat.after 5 t = iblk1 V c 5 t)
    (t : Fin cfg1.N) (d) : dat.before 5 t d = iblk1 V c 5 t := by
  have hblk : ∀ s : Fin cfg1.N, dat.blockOf 5 s = iblk1 V c 5 s := fun s => by
    unfold Dat.blockOf iblk1; rw [hA]
  rw [dat.before_in_eq_fetched 5 rfl (fun _ => rfl) (fun _ _ _ => rfl) (fun s => by rw [hkeep s, hblk s]) t d]
  unfold Dat.fetched; rw [hblk t]; rfl

/-! ## What the body writes

Each access of the body is to a whole buffer: the rectangle at offset zero of the buffer's own extent. -/

abbrev all1_S1x64x1024 : Rect S1x64x1024 := Rect.unit (s := S1x64x1024) ![0, 0, 0] S1x64x1024.size inb_S1x64x1024_S1x64x1024_0_0_0
abbrev all1_S1024x1024 : Rect S1024x1024 := Rect.unit (s := S1024x1024) ![0, 0] S1024x1024.size inb_S1024x1024_S1024x1024_0_0
abbrev all1_S64x64 : Rect S64x64 := Rect.unit (s := S64x64) ![0, 0] S64x64.size inb_S64x64_S64x64_0_0
abbrev all1_S1024x8 : Rect S1024x8 := Rect.unit (s := S1024x8) ![0, 0] S1024x8.size inb_S1024x8_S1024x8_0_0
abbrev all1_S8x1024 : Rect S8x1024 := Rect.unit (s := S8x1024) ![0, 0] S8x1024.size inb_S8x1024_S8x1024_0_0

/-- The contents of the output buffer (window 6) after the body, given the contents `x_w` of the input buffers:
    the body stores once, the payload `k1_pay1` of the loaded inputs, over the whole buffer; so the buffer reads as
    the canonical contents of that single piece. -/
def out1_6 (x0 : Vec F S1x64x1024 .f32) (x1 : Vec F S1024x1024 .bf16) (x2 : Vec F S1024x1024 .bf16) (x3 : Vec F S64x64 .bf16) (x4 : Vec F S1024x8 .bf16) (x5 : Vec F S8x1024 .bf16) : Vec F S1x64x1024 .f32 :=
  View.canon [⟨all1_S1x64x1024, k1_pay1 (View.ld x0 all1_S1x64x1024) (View.ld x1 all1_S1024x1024) (View.ld x2 all1_S1024x1024) (View.ld x4 all1_S1024x8) (View.ld x3 all1_S64x64) (View.ld x5 all1_S8x1024)⟩]

/-- The single store leaves no index of the output buffer unwritten: its rectangle is the one tile of a tiling
    of the buffer by tiles of the buffer's extent, which is checked by evaluation whatever the payload. -/
theorem filled1_6 (pay : all1_S1x64x1024.shape.Idx → Elt F .f32) (y : S1x64x1024.Idx) :
    ∃ pc ∈ ([⟨all1_S1x64x1024, pay⟩] : List (View.Piece (Elt F) S1x64x1024 .f32)), y ∈ pc.1.set :=
  View.cover_of_tiled [⟨all1_S1x64x1024, pay⟩] S1x64x1024.size (by rfl) y

/-! ## The body's triple -/

set_option maxHeartbeats 1000000 in
/-- On any whole staging buffers — the inputs' holding `x_w`, the output's holding anything — the body runs to a
    state where the inputs' are unchanged and the output's holds `out1_6` of the `x_w`. The printed function is
    rewritten to its sequence of memory operations over the named payload, and that sequence (7 whole-buffer
    loads, one of them of the output buffer and unused, then the store) is executed symbolically. -/
theorem sound_kernel1 (c : Dev nD) (E : Set ℕ) (i : grid1.Coords) (a0 : Memref sig .tc .vmem S1x64x1024 .f32) (w0 : a0.IsWhole) (a1 : Memref sig .tc .vmem S1024x1024 .bf16) (w1 : a1.IsWhole) (a2 : Memref sig .tc .vmem S1024x1024 .bf16) (w2 : a2.IsWhole) (a3 : Memref sig .tc .vmem S64x64 .bf16) (w3 : a3.IsWhole) (a4 : Memref sig .tc .vmem S1024x8 .bf16) (w4 : a4.IsWhole) (a5 : Memref sig .tc .vmem S8x1024 .bf16) (w5 : a5.IsWhole) (a6 : Memref sig .tc .vmem S1x64x1024 .f32) (w6 : a6.IsWhole)
    (x0 : Vec F S1x64x1024 .f32) (x1 : Vec F S1024x1024 .bf16) (x2 : Vec F S1024x1024 .bf16) (x3 : Vec F S64x64 .bf16) (x4 : Vec F S1024x8 .bf16) (x5 : Vec F S8x1024 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out1_6 x0 x1 x2 x3 x4 x5)) -∗ K ⟨⟩))
      ⊢ wp frame (wpE (defs₀ (F := F)) Variants.none c none) E (cc1__kernel_gate i a0 w0 a1 w1 a2 w2 a3 w3 a4 w4 a5 w5 a6 w6) K := by
  simp only [cc1__kernel_gate_eq_skeleton]; unfold cc1__kernel_gate_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (filled1_6 _)

/-! ## The proof data of the pipeline -/

/-- For core `c`: every window's array is what `V` says; after the body at point `t` an input buffer still holds
    its block and the output buffer holds `out1_6` of the input blocks; the invariant carried from point to point
    is the one of a body that touches nothing but its staging buffers; the core owes nothing; shares are full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

-- the `after` field at each literal window (its `match` reduced by `dsimp`)
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

-- so, for these proof data, each input buffer holds its block when the body starts
theorem before1_0 (c : Dev nD) (t : Fin cfg1.N) (d) : (dat1 V c).before 0 t d = iblk1 V c 0 t :=
  held1_0 V (dat1 V c) (A_eq1 V c 0) (after1_0 V c) t d
theorem before1_1 (c : Dev nD) (t : Fin cfg1.N) (d) : (dat1 V c).before 1 t d = iblk1 V c 1 t :=
  held1_1 V (dat1 V c) (A_eq1 V c 1) (after1_1 V c) t d
theorem before1_2 (c : Dev nD) (t : Fin cfg1.N) (d) : (dat1 V c).before 2 t d = iblk1 V c 2 t :=
  held1_2 V (dat1 V c) (A_eq1 V c 2) (after1_2 V c) t d
theorem before1_3 (c : Dev nD) (t : Fin cfg1.N) (d) : (dat1 V c).before 3 t d = iblk1 V c 3 t :=
  held1_3 V (dat1 V c) (A_eq1 V c 3) (after1_3 V c) t d
theorem before1_4 (c : Dev nD) (t : Fin cfg1.N) (d) : (dat1 V c).before 4 t d = iblk1 V c 4 t :=
  held1_4 V (dat1 V c) (A_eq1 V c 4) (after1_4 V c) t d
theorem before1_5 (c : Dev nD) (t : Fin cfg1.N) (d) : (dat1 V c).before 5 t d = iblk1 V c 5 t :=
  held1_5 V (dat1 V c) (A_eq1 V c 5) (after1_5 V c) t d

/-! ## The obligation at a point -/

/-- What the pipeline gives the body at point `t`: the invariant, the core's debts, and each window's current
    staging buffer at what it then holds. -/
def given1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it wants back: the same at the next point, each buffer at what the body leaves in it. -/
def back1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- At every point the body, called on the current staging buffers, takes `given1` to `back1`: the input buffers
    hold their blocks, so the body's triple applies with the `x_w` the blocks; the invariant and the debts are the
    same at `t` and `t + 1` and are carried across untouched. -/
theorem sound_body1 (c : Dev nD) (t : Fin cfg1.N) :
    given1 V c t ⊢ wp frame (wpE (defs₀ (F := F)) Variants.none c none) Set.univ (bodyAt1 t) (fun _ => back1 V c t) := by
  unfold given1 back1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation in the form the pipeline rule states it: a separating conjunction over all windows, which for
    7 windows is the 7-fold product above. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiOut.lean ====
/- Region 2 of the program, the output projection kernel `cc2__kernel_out`, from the point of view of its body.

   The region is a pipeline over a static grid: at every grid point the pipeline hands the body one staging
   buffer per window, the body reads the 3 input buffers whole and overwrites the output buffer whole, and
   nothing else happens (no branch, no scratch memory, no DMA of the body's own). This file fixes what the
   TensorCore's buffers hold when the region is entered — the parameter `V` — and derives, for any such `V`:
   the block of each window at each point, the contents the body leaves in the output buffer as a function of
   the input blocks, the body's triple on arbitrary whole staging buffers, and from these the proof data of the
   pipeline together with the obligation the pipeline rule asks of the body at every point. -/
import proofs.«151928_j1992864825605_2_alg».proof.Proof.Gen.KernelIdeal.Launch
import proofs.«151928_j1992864825605_2_alg».proof.Proof.Gen.KernelIdeal.Skeleton
import proofs.«151928_j1992864825605_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- deciding that the one store fills its buffer walks the long axes coordinate by coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what each TensorCore buffer holds on entry to the region
variable (V : (c : Dev nD) → (b : Ref sig .tc) → Buf (Elt F) ((c : Thread nD τ).loc b))

/-! ## Blocks -/

/-- The block of window `w` that grid point `t` works on: the window's array, as `V` has it, read through the
    block's view. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The input buffers hold their blocks when the body starts

An input window is never written by the body, its blocks are not cut at the array's edge and no point is idle for
it. For such a window the staging buffer the body is given holds the block of the current point: either the
pipeline has just fetched it, or it has not because the block index is the one of the point before, whose block
is still there. This holds for any proof data that take the window's array from `V` and say that the body leaves
the block in place; it is stated that way so that it can be used before the proof data below are defined. -/

theorem held2_0 {c : Dev nD} (dat : Dat τ (Elt F) Unit ℕ (UR sig nD τ) ℕ cfg2 c)
    (hA : dat.A 0 = V c (Pipeline.arrRef spec2 0)) (hkeep : ∀ t, dat.after 0 t = iblk2 V c 0 t)
    (t : Fin cfg2.N) (d) : dat.before 0 t d = iblk2 V c 0 t := by
  have hblk : ∀ s : Fin cfg2.N, dat.blockOf 0 s = iblk2 V c 0 s := fun s => by
    unfold Dat.blockOf iblk2; rw [hA]
  rw [dat.before_in_eq_fetched 0 rfl (fun _ => rfl) (fun _ _ _ => rfl) (fun s => by rw [hkeep s, hblk s]) t d]
  unfold Dat.fetched; rw [hblk t]; rfl

theorem held2_1 {c : Dev nD} (dat : Dat τ (Elt F) Unit ℕ (UR sig nD τ) ℕ cfg2 c)
    (hA : dat.A 1 = V c (Pipeline.arrRef spec2 1)) (hkeep : ∀ t, dat.after 1 t = iblk2 V c 1 t)
    (t : Fin cfg2.N) (d) : dat.before 1 t d = iblk2 V c 1 t := by
  have hblk : ∀ s : Fin cfg2.N, dat.blockOf 1 s = iblk2 V c 1 s := fun s => by
    unfold Dat.blockOf iblk2; rw [hA]
  rw [dat.before_in_eq_fetched 1 rfl (fun _ => rfl) (fun _ _ _ => rfl) (fun s => by rw [hkeep s, hblk s]) t d]
  unfold Dat.fetched; rw [hblk t]; rfl

theorem held2_2 {c : Dev nD} (dat : Dat τ (Elt F) Unit ℕ (UR sig nD τ) ℕ cfg2 c)
    (hA : dat.A 2 = V c (Pipeline.arrRef spec2 2)) (hkeep : ∀ t, dat.after 2 t = iblk2 V c 2 t)
    (t : Fin cfg2.N) (d) : dat.before 2 t d = iblk2 V c 2 t := by
  have hblk : ∀ s : Fin cfg2.N, dat.blockOf 2 s = iblk2 V c 2 s := fun s => by
    unfold Dat.blockOf iblk2; rw [hA]
  rw [dat.before_in_eq_fetched 2 rfl (fun _ => rfl) (fun _ _ _ => rfl) (fun s => by rw [hkeep s, hblk s]) t d]
  unfold Dat.fetched; rw [hblk t]; rfl

/-! ## What the body writes

Each access of the body is to a whole buffer: the rectangle at offset zero of the buffer's own extent. -/

abbrev all2_S256x1024 : Rect S256x1024 := Rect.unit (s := S256x1024) ![0, 0] S256x1024.size inb_S256x1024_S256x1024_0_0
abbrev all2_S4096x1024 : Rect S4096x1024 := Rect.unit (s := S4096x1024) ![0, 0] S4096x1024.size inb_S4096x1024_S4096x1024_0_0
abbrev all2_S1x4096 : Rect S1x4096 := Rect.unit (s := S1x4096) ![0, 0] S1x4096.size inb_S1x4096_S1x4096_0_0
abbrev all2_S256x4096 : Rect S256x4096 := Rect.unit (s := S256x4096) ![0, 0] S256x4096.size inb_S256x4096_S256x4096_0_0

/-- The contents of the output buffer (window 3) after the body, given the contents `x_w` of the input buffers:
    the body stores once, the payload `k2_pay1` of the loaded inputs, over the whole buffer; so the buffer reads as
    the canonical contents of that single piece. -/
def out2_3 (x0 : Vec F S256x1024 .f32) (x1 : Vec F S4096x1024 .bf16) (x2 : Vec F S1x4096 .f32) : Vec F S256x4096 .f32 :=
  View.canon [⟨all2_S256x4096, k2_pay1 (View.ld x0 all2_S256x1024) (View.ld x1 all2_S4096x1024) (View.ld x2 all2_S1x4096)⟩]

/-- The single store leaves no index of the output buffer unwritten: its rectangle is the one tile of a tiling
    of the buffer by tiles of the buffer's extent, which is checked by evaluation whatever the payload. -/
theorem filled2_3 (pay : all2_S256x4096.shape.Idx → Elt F .f32) (y : S256x4096.Idx) :
    ∃ pc ∈ ([⟨all2_S256x4096, pay⟩] : List (View.Piece (Elt F) S256x4096 .f32)), y ∈ pc.1.set :=
  View.cover_of_tiled [⟨all2_S256x4096, pay⟩] S256x4096.size (by rfl) y

/-! ## The body's triple -/

set_option maxHeartbeats 1000000 in
/-- On any whole staging buffers — the inputs' holding `x_w`, the output's holding anything — the body runs to a
    state where the inputs' are unchanged and the output's holds `out2_3` of the `x_w`. The printed function is
    rewritten to its sequence of memory operations over the named payload, and that sequence (4 whole-buffer
    loads, one of them of the output buffer and unused, then the store) is executed symbolically. -/
theorem sound_kernel2 (c : Dev nD) (E : Set ℕ) (i : grid2.Coords) (a0 : Memref sig .tc .vmem S256x1024 .f32) (w0 : a0.IsWhole) (a1 : Memref sig .tc .vmem S4096x1024 .bf16) (w1 : a1.IsWhole) (a2 : Memref sig .tc .vmem S1x4096 .f32) (w2 : a2.IsWhole) (a3 : Memref sig .tc .vmem S256x4096 .f32) (w3 : a3.IsWhole)
    (x0 : Vec F S256x1024 .f32) (x1 : Vec F S4096x1024 .bf16) (x2 : Vec F S1x4096 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out2_3 x0 x1 x2)) -∗ K ⟨⟩))
      ⊢ wp frame (wpE (defs₀ (F := F)) Variants.none c none) E (cc2__kernel_out i a0 w0 a1 w1 a2 w2 a3 w3) K := by
  simp only [cc2__kernel_out_eq_skeleton]; unfold cc2__kernel_out_skel
  unfold owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (filled2_3 _)

/-! ## The proof data of the pipeline -/

/-- For core `c`: every window's array is what `V` says; after the body at point `t` an input buffer still holds
    its block and the output buffer holds `out2_3` of the input blocks; the invariant carried from point to point
    is the one of a body that touches nothing but its staging buffers; the core owes nothing; shares are full. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

-- the `after` field at each literal window (its `match` reduced by `dsimp`)
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

-- so, for these proof data, each input buffer holds its block when the body starts
theorem before2_0 (c : Dev nD) (t : Fin cfg2.N) (d) : (dat2 V c).before 0 t d = iblk2 V c 0 t :=
  held2_0 V (dat2 V c) (A_eq2 V c 0) (after2_0 V c) t d
theorem before2_1 (c : Dev nD) (t : Fin cfg2.N) (d) : (dat2 V c).before 1 t d = iblk2 V c 1 t :=
  held2_1 V (dat2 V c) (A_eq2 V c 1) (after2_1 V c) t d
theorem before2_2 (c : Dev nD) (t : Fin cfg2.N) (d) : (dat2 V c).before 2 t d = iblk2 V c 2 t :=
  held2_2 V (dat2 V c) (A_eq2 V c 2) (after2_2 V c) t d

/-! ## The obligation at a point -/

/-- What the pipeline gives the body at point `t`: the invariant, the core's debts, and each window's current
    staging buffer at what it then holds. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it wants back: the same at the next point, each buffer at what the body leaves in it. -/
def back2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- At every point the body, called on the current staging buffers, takes `given2` to `back2`: the input buffers
    hold their blocks, so the body's triple applies with the `x_w` the blocks; the invariant and the debts are the
    same at `t` and `t + 1` and are carried across untouched. -/
theorem sound_body2 (c : Dev nD) (t : Fin cfg2.N) :
    given2 V c t ⊢ wp frame (wpE (defs₀ (F := F)) Variants.none c none) Set.univ (bodyAt2 t) (fun _ => back2 V c t) := by
  unfold given2 back2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation in the form the pipeline rule states it: a separating conjunction over all windows, which for
    4 windows is the 4-fold product above. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The whole program's run: nine segments — three stretches of host operations, the embedding kernel, a reshape, the
  gating kernel, a reshape, the output kernel, a reshape — composed in order.

  The buffer contents at each boundary are a fold from the launch memory (`W0` … `W9`): a host stretch applies its
  operations, a kernel region replaces its windows' arrays by what the pipeline leaves there. Every execution
  terminates, and at the end every buffer that outlives the kernels holds `W9`; read at an argument array the fold
  walks back to the launch memory (no operation and no kernel writes an argument), which is the frame claim.
-/
import proofs.«151928_j1992864825605_2_alg».proof.Proof.KiEmbed
import proofs.«151928_j1992864825605_2_alg».proof.Proof.KiGate
import proofs.«151928_j1992864825605_2_alg».proof.Proof.KiOut
import proofs.«151928_j1992864825605_2_alg».proof.Proof.Gen.KernelIdeal.Regions

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
/-- What the embedding kernel is entered with. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b

/-- When region 0 is left: its windows' arrays at what the pipeline leaves (an input as entered, the output with its
    written-back blocks), every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)

/-- What the gating kernel is entered with. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b

/-- When region 1 is left: its windows' arrays at what the pipeline leaves (an input as entered, the output with its
    written-back blocks), every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)

/-- What the output kernel is entered with. -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b

/-- When region 2 is left: its windows' arrays at what the pipeline leaves (an input as entered, the output with its
    written-back blocks), every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)

/-- The contents at the return. -/
abbrev W9 : Dev nD → Valuation τ sig (Elt F) := fun c => StableHlo.after hostOps3 (W8 m c)

/-! ## No operation and no kernel writes an argument -/

theorem W9_main_arg0 (c : Dev nD) : W9 m c (Proc.devRef .tc main_arg0) = m ((c : Thread nD τ).loc main_arg0) :=
  (StableHlo.after_of_writes_sub hostOps3 _ hostOps3_writes (r := main_arg0) (by decide)).trans <|
  (W8_of_ne m c main_arg0 (by decide)).trans <|
  (StableHlo.after_of_writes_sub hostOps2 _ hostOps2_writes (r := main_arg0) (by decide)).trans <|
  (W6_of_ne m c main_arg0 (by decide)).trans <|
  (StableHlo.after_of_writes_sub hostOps1 _ hostOps1_writes (r := main_arg0) (by decide)).trans <|
  (W4_of_ne m c main_arg0 (by decide)).trans <|
  (StableHlo.after_of_writes_sub hostOps0_2 _ hostOps0_2_writes (r := main_arg0) (by decide)).trans <|
  (StableHlo.after_of_writes_sub hostOps0_1 _ hostOps0_1_writes (r := main_arg0) (by decide)).trans <|
  (StableHlo.after_of_writes_sub hostOps0 _ hostOps0_writes (r := main_arg0) (by decide)).trans rfl
theorem W9_main_arg1 (c : Dev nD) : W9 m c (Proc.devRef .tc main_arg1) = m ((c : Thread nD τ).loc main_arg1) :=
  (StableHlo.after_of_writes_sub hostOps3 _ hostOps3_writes (r := main_arg1) (by decide)).trans <|
  (W8_of_ne m c main_arg1 (by decide)).trans <|
  (StableHlo.after_of_writes_sub hostOps2 _ hostOps2_writes (r := main_arg1) (by decide)).trans <|
  (W6_of_ne m c main_arg1 (by decide)).trans <|
  (StableHlo.after_of_writes_sub hostOps1 _ hostOps1_writes (r := main_arg1) (by decide)).trans <|
  (W4_of_ne m c main_arg1 (by decide)).trans <|
  (StableHlo.after_of_writes_sub hostOps0_2 _ hostOps0_2_writes (r := main_arg1) (by decide)).trans <|
  (StableHlo.after_of_writes_sub hostOps0_1 _ hostOps0_1_writes (r := main_arg1) (by decide)).trans <|
  (StableHlo.after_of_writes_sub hostOps0 _ hostOps0_writes (r := main_arg1) (by decide)).trans rfl
theorem W9_main_arg2 (c : Dev nD) : W9 m c (Proc.devRef .tc main_arg2) = m ((c : Thread nD τ).loc main_arg2) :=
  (StableHlo.after_of_writes_sub hostOps3 _ hostOps3_writes (r := main_arg2) (by decide)).trans <|
  (W8_of_ne m c main_arg2 (by decide)).trans <|
  (StableHlo.after_of_writes_sub hostOps2 _ hostOps2_writes (r := main_arg2) (by decide)).trans <|
  (W6_of_ne m c main_arg2 (by decide)).trans <|
  (StableHlo.after_of_writes_sub hostOps1 _ hostOps1_writes (r := main_arg2) (by decide)).trans <|
  (W4_of_ne m c main_arg2 (by decide)).trans <|
  (StableHlo.after_of_writes_sub hostOps0_2 _ hostOps0_2_writes (r := main_arg2) (by decide)).trans <|
  (StableHlo.after_of_writes_sub hostOps0_1 _ hostOps0_1_writes (r := main_arg2) (by decide)).trans <|
  (StableHlo.after_of_writes_sub hostOps0 _ hostOps0_writes (r := main_arg2) (by decide)).trans rfl
theorem W9_main_arg3 (c : Dev nD) : W9 m c (Proc.devRef .tc main_arg3) = m ((c : Thread nD τ).loc main_arg3) :=
  (StableHlo.after_of_writes_sub hostOps3 _ hostOps3_writes (r := main_arg3) (by decide)).trans <|
  (W8_of_ne m c main_arg3 (by decide)).trans <|
  (StableHlo.after_of_writes_sub hostOps2 _ hostOps2_writes (r := main_arg3) (by decide)).trans <|
  (W6_of_ne m c main_arg3 (by decide)).trans <|
  (StableHlo.after_of_writes_sub hostOps1 _ hostOps1_writes (r := main_arg3) (by decide)).trans <|
  (W4_of_ne m c main_arg3 (by decide)).trans <|
  (StableHlo.after_of_writes_sub hostOps0_2 _ hostOps0_2_writes (r := main_arg3) (by decide)).trans <|
  (StableHlo.after_of_writes_sub hostOps0_1 _ hostOps0_1_writes (r := main_arg3) (by decide)).trans <|
  (StableHlo.after_of_writes_sub hostOps0 _ hostOps0_writes (r := main_arg3) (by decide)).trans rfl
theorem W9_main_arg4 (c : Dev nD) : W9 m c (Proc.devRef .tc main_arg4) = m ((c : Thread nD τ).loc main_arg4) :=
  (StableHlo.after_of_writes_sub hostOps3 _ hostOps3_writes (r := main_arg4) (by decide)).trans <|
  (W8_of_ne m c main_arg4 (by decide)).trans <|
  (StableHlo.after_of_writes_sub hostOps2 _ hostOps2_writes (r := main_arg4) (by decide)).trans <|
  (W6_of_ne m c main_arg4 (by decide)).trans <|
  (StableHlo.after_of_writes_sub hostOps1 _ hostOps1_writes (r := main_arg4) (by decide)).trans <|
  (W4_of_ne m c main_arg4 (by decide)).trans <|
  (StableHlo.after_of_writes_sub hostOps0_2 _ hostOps0_2_writes (r := main_arg4) (by decide)).trans <|
  (StableHlo.after_of_writes_sub hostOps0_1 _ hostOps0_1_writes (r := main_arg4) (by decide)).trans <|
  (StableHlo.after_of_writes_sub hostOps0 _ hostOps0_writes (r := main_arg4) (by decide)).trans rfl
theorem W9_main_arg5 (c : Dev nD) : W9 m c (Proc.devRef .tc main_arg5) = m ((c : Thread nD τ).loc main_arg5) :=
  (StableHlo.after_of_writes_sub hostOps3 _ hostOps3_writes (r := main_arg5) (by decide)).trans <|
  (W8_of_ne m c main_arg5 (by decide)).trans <|
  (StableHlo.after_of_writes_sub hostOps2 _ hostOps2_writes (r := main_arg5) (by decide)).trans <|
  (W6_of_ne m c main_arg5 (by decide)).trans <|
  (StableHlo.after_of_writes_sub hostOps1 _ hostOps1_writes (r := main_arg5) (by decide)).trans <|
  (W4_of_ne m c main_arg5 (by decide)).trans <|
  (StableHlo.after_of_writes_sub hostOps0_2 _ hostOps0_2_writes (r := main_arg5) (by decide)).trans <|
  (StableHlo.after_of_writes_sub hostOps0_1 _ hostOps0_1_writes (r := main_arg5) (by decide)).trans <|
  (StableHlo.after_of_writes_sub hostOps0 _ hostOps0_writes (r := main_arg5) (by decide)).trans rfl
theorem W9_main_arg6 (c : Dev nD) : W9 m c (Proc.devRef .tc main_arg6) = m ((c : Thread nD τ).loc main_arg6) :=
  (StableHlo.after_of_writes_sub hostOps3 _ hostOps3_writes (r := main_arg6) (by decide)).trans <|
  (W8_of_ne m c main_arg6 (by decide)).trans <|
  (StableHlo.after_of_writes_sub hostOps2 _ hostOps2_writes (r := main_arg6) (by decide)).trans <|
  (W6_of_ne m c main_arg6 (by decide)).trans <|
  (StableHlo.after_of_writes_sub hostOps1 _ hostOps1_writes (r := main_arg6) (by decide)).trans <|
  (W4_of_ne m c main_arg6 (by decide)).trans <|
  (StableHlo.after_of_writes_sub hostOps0_2 _ hostOps0_2_writes (r := main_arg6) (by decide)).trans <|
  (StableHlo.after_of_writes_sub hostOps0_1 _ hostOps0_1_writes (r := main_arg6) (by decide)).trans <|
  (StableHlo.after_of_writes_sub hostOps0 _ hostOps0_writes (r := main_arg6) (by decide)).trans rfl
theorem W9_main_arg7 (c : Dev nD) : W9 m c (Proc.devRef .tc main_arg7) = m ((c : Thread nD τ).loc main_arg7) :=
  (StableHlo.after_of_writes_sub hostOps3 _ hostOps3_writes (r := main_arg7) (by decide)).trans <|
  (W8_of_ne m c main_arg7 (by decide)).trans <|
  (StableHlo.after_of_writes_sub hostOps2 _ hostOps2_writes (r := main_arg7) (by decide)).trans <|
  (W6_of_ne m c main_arg7 (by decide)).trans <|
  (StableHlo.after_of_writes_sub hostOps1 _ hostOps1_writes (r := main_arg7) (by decide)).trans <|
  (W4_of_ne m c main_arg7 (by decide)).trans <|
  (StableHlo.after_of_writes_sub hostOps0_2 _ hostOps0_2_writes (r := main_arg7) (by decide)).trans <|
  (StableHlo.after_of_writes_sub hostOps0_1 _ hostOps0_1_writes (r := main_arg7) (by decide)).trans <|
  (StableHlo.after_of_writes_sub hostOps0 _ hostOps0_writes (r := main_arg7) (by decide)).trans rfl
theorem W9_main_arg8 (c : Dev nD) : W9 m c (Proc.devRef .tc main_arg8) = m ((c : Thread nD τ).loc main_arg8) :=
  (StableHlo.after_of_writes_sub hostOps3 _ hostOps3_writes (r := main_arg8) (by decide)).trans <|
  (W8_of_ne m c main_arg8 (by decide)).trans <|
  (StableHlo.after_of_writes_sub hostOps2 _ hostOps2_writes (r := main_arg8) (by decide)).trans <|
  (W6_of_ne m c main_arg8 (by decide)).trans <|
  (StableHlo.after_of_writes_sub hostOps1 _ hostOps1_writes (r := main_arg8) (by decide)).trans <|
  (W4_of_ne m c main_arg8 (by decide)).trans <|
  (StableHlo.after_of_writes_sub hostOps0_2 _ hostOps0_2_writes (r := main_arg8) (by decide)).trans <|
  (StableHlo.after_of_writes_sub hostOps0_1 _ hostOps0_1_writes (r := main_arg8) (by decide)).trans <|
  (StableHlo.after_of_writes_sub hostOps0 _ hostOps0_writes (r := main_arg8) (by decide)).trans rfl

/-! ## The proof data of the three pipelines and the thread state -/

/-- Each pipeline's proof data at the contents its region is entered with. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator register. -/
abbrev Tn (c : Dev nD) : sProp 𝕄 := iprop(StableHlo.held (c : Thread nD τ) (Pipeline.ucRefs τ sig) (W9 m c) ∗ ∃ r, prngReg c r)

/-! ## The regions as segments -/

set_option backward.isDefEq.respectTransparency.types false in
/-- Region 0 as a segment: entered with every unscoped buffer at `W3`, left with them at `W4`. Its windows'
    arrays are split out of the unscoped buffers at entry and put back at their final contents at exit; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec0 c : sProp 𝕄) from by
      unfold Pipeline.ΦA
      iintro ⟨Hp, -, Hr⟩
      isplitl [Hr]; · iexact Hr
      iexact Hp).trans (hin0 (V3 m) c)
  hout c := by
    rw [Pipeline.ownSems0_none]
    exact (hout0 (V3 m) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `W5`, left with them at `W6`. Its windows'
    arrays are split out of the unscoped buffers at entry and put back at their final contents at exit; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `W7`, left with them at `W8`. Its windows'
    arrays are split out of the unscoped buffers at entry and put back at their final contents at exit; the generator
    register goes into the region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    rw [show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)) ]

theorem main_run (c : Dev nD) : main (F := F) c = Pipeline.Seg.run (segs m) := (main_chain c).trans (by chain_rfl)

variable (ρ : Dev nD → PrngReg)

set_option backward.isDefEq.respectTransparency.types false in
/-- From any memory with every counter at zero, every weakly fair execution of the program terminates, nothing
    faulting, and every buffer that outlives the kernels ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tn m)
    (hch := ⟨fun _ => .rfl, fun _ => .rfl, fun _ => .rfl, fun _ => .rfl, fun _ => .rfl, fun _ => .rfl, fun _ => .rfl, fun _ => .rfl, fun _ => .rfl, fun c => show iprop(StableHlo.held (c : Thread nD τ) (Pipeline.ucRefs τ sig) (W9 m c) ∗ R c)
        ⊢ iprop(Tn m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

/-- The same run read at the result buffer and at the nine argument arrays: the result at the last boundary's
    contents, every argument as launched. -/
theorem run_result : θ_run defs (onTc (τ := τ) (main (F := F))) ⟨m, fun _ => 0, ρ⟩ (fun r => ∀ c : Dev nD,
      r.2.mem ((c.tc : Thread nD τ).loc main_v33) = W9 m c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v33 (by decide)),
      (h c _ (mem_uc main_arg0 (by decide))).trans (W9_main_arg0 m c),
      (h c _ (mem_uc main_arg1 (by decide))).trans (W9_main_arg1 m c),
      (h c _ (mem_uc main_arg2 (by decide))).trans (W9_main_arg2 m c),
      (h c _ (mem_uc main_arg3 (by decide))).trans (W9_main_arg3 m c),
      (h c _ (mem_uc main_arg4 (by decide))).trans (W9_main_arg4 m c),
      (h c _ (mem_uc main_arg5 (by decide))).trans (W9_main_arg5 m c),
      (h c _ (mem_uc main_arg6 (by decide))).trans (W9_main_arg6 m c),
      (h c _ (mem_uc main_arg7 (by decide))).trans (W9_main_arg7 m c),
      (h c _ (mem_uc main_arg8 (by decide))).trans (W9_main_arg8 m c)⟩) (run_all m ρ)

/-- The frame claim: the nine argument arrays end as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.PayloadAt.lean ====
/-
  The kernels' stored values read entry by entry, at the ideal values (a float an extended real, every operation
  exact, a change of format the identity).

  Each of the three kernels stores vectors computed from the blocks it has loaded. This file reads each such vector
  at one entry (p, d): the first kernel's accumulator is zeroed, grows by one pixel tile's partial product
  Σ_q x[p, q] · w[d, q] and at the end gets the bias table added; the second kernel's block is the gate
  Σ_h logistic(Σ_c' Wk[c, c'] · (Σ_e q[c', e] · m[e, h])) · mᵀ[h, d] times the value v[c, d], where q and v are the
  products of the loaded rows with the two projections; the third kernel's is the product with the output map plus
  the output bias. A product of two arrays read at an entry is the sum over the shared coordinate of the products
  of the entries: stated once for a product with the second factor transposed and once for a plain product, then
  for each of the six products the kernels make.
-/
import proofs.«151928_j1992864825605_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- A product with the second factor transposed: an m×k array times the transpose of an n×k array, accumulated
    into zero, read at entry (a, b), is the sum over the shared k coordinates of the products of the entries. -/
theorem matmul_abt_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims _ _ _) prec A B
        (constant (F := Ideal) ⟨2, ![m, n]⟩ .f32 0x00000000#32) (ix2 a b)
      = ∑ c : Fin k, A (ix2 a c) * B (ix2 b c) := by
  set_option maxHeartbeats 400000 in
  rw [Ideal.matmul_constant_zero_apply,
    ← Equiv.sum_comp (contrEquiv1 (⟨[1], [1], [0], [0], [], [], w⟩ : DotDims _ _ _) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

/-- A plain product: an m×k array times a k×n array, accumulated into zero, read at entry (a, b). -/
theorem matmul_ab_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims _ _ _) prec A B
        (constant (F := Ideal) ⟨2, ![m, n]⟩ .f32 0x00000000#32) (ix2 a b)
      = ∑ c : Fin k, A (ix2 a c) * B (ix2 c b) := by
  set_option maxHeartbeats 400000 in
  rw [Ideal.matmul_constant_zero_apply,
    ← Equiv.sum_comp (contrEquiv1 (⟨[1], [0], [0], [1], [], [], w⟩ : DotDims _ _ _) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-! ## The six products of the kernels, each read at an entry -/

/-- Pixel tile times embedding tile (transposed): entry (p, d) sums over the tile's 2048 pixels. -/
theorem dot_embed_apply (A : FVec Ideal S256x2048 .bf16) (B : FVec Ideal S1024x2048 .bf16) (p : Fin 256) (d : Fin 1024) :
    matmul dot_S256x2048_S1024x2048_S256x1024_1_1_0_0_n_n none A B (constant (F := Ideal) S256x1024 .f32 0x00000000#32) (ix2 p d)
      = ∑ q : Fin 2048, A (ix2 p q) * B (ix2 d q) :=
  matmul_abt_apply dot_S256x2048_S1024x2048_S256x1024_1_1_0_0_n_n_wf none A B p d

/-- Embedded rows times a projection (transposed): entry (c, e) sums over the 1024 lanes. -/
theorem dot_proj_apply (A : FVec Ideal S64x1024 .bf16) (B : FVec Ideal S1024x1024 .bf16) (c : Fin 64) (e : Fin 1024) :
    matmul dot_S64x1024_S1024x1024_S64x1024_1_1_0_0_n_n none A B (constant (F := Ideal) S64x1024 .f32 0x00000000#32) (ix2 c e)
      = ∑ d : Fin 1024, A (ix2 c d) * B (ix2 e d) :=
  matmul_abt_apply dot_S64x1024_S1024x1024_S64x1024_1_1_0_0_n_n_wf none A B c e

/-- Queries times the averaging matrix: entry (c, h) sums over the 1024 lanes. -/
theorem dot_mean_apply (A : FVec Ideal S64x1024 .bf16) (B : FVec Ideal S1024x8 .bf16) (c : Fin 64) (h : Fin 8) :
    matmul dot_S64x1024_S1024x8_S64x8_1_0_0_1_n_n none A B (constant (F := Ideal) S64x8 .f32 0x00000000#32) (ix2 c h)
      = ∑ e : Fin 1024, A (ix2 c e) * B (ix2 e h) :=
  matmul_ab_apply dot_S64x1024_S1024x8_S64x8_1_0_0_1_n_n_wf none A B c h

/-- The channel mixer times the head means: entry (c, h) sums over the 64 channels. -/
theorem dot_mix_apply (A : FVec Ideal S64x64 .bf16) (B : FVec Ideal S64x8 .bf16) (c : Fin 64) (h : Fin 8) :
    matmul dot_S64x64_S64x8_S64x8_1_0_0_1_n_n none A B (constant (F := Ideal) S64x8 .f32 0x00000000#32) (ix2 c h)
      = ∑ c' : Fin 64, A (ix2 c c') * B (ix2 c' h) :=
  matmul_ab_apply dot_S64x64_S64x8_S64x8_1_0_0_1_n_n_wf none A B c h

/-- The gates times the spreading matrix: entry (c, d) sums over the 8 heads. -/
theorem dot_spread_apply (A : FVec Ideal S64x8 .bf16) (B : FVec Ideal S8x1024 .bf16) (c : Fin 64) (d : Fin 1024) :
    matmul dot_S64x8_S8x1024_S64x1024_1_0_0_1_n_n none A B (constant (F := Ideal) S64x1024 .f32 0x00000000#32) (ix2 c d)
      = ∑ h : Fin 8, A (ix2 c h) * B (ix2 h d) :=
  matmul_ab_apply dot_S64x8_S8x1024_S64x1024_1_0_0_1_n_n_wf none A B c d

/-- Gated rows times the output map (transposed): entry (p, q) sums over the 1024 lanes. -/
theorem dot_out_apply (A : FVec Ideal S256x1024 .bf16) (B : FVec Ideal S4096x1024 .bf16) (p : Fin 256) (q : Fin 4096) :
    matmul dot_S256x1024_S4096x1024_S256x4096_1_1_0_0_n_n none A B (constant (F := Ideal) S256x4096 .f32 0x00000000#32) (ix2 p q)
      = ∑ d : Fin 1024, A (ix2 p d) * B (ix2 q d) :=
  matmul_abt_apply dot_S256x1024_S4096x1024_S256x4096_1_1_0_0_n_n_wf none A B p q

/-! ## The payloads at an entry -/

/-- The first kernel's reset value is zero everywhere. -/
theorem k0_pay1_at (p : Fin 256) (d : Fin 1024) : k0_pay1 (F := Ideal) (ix2 p d) = 0 := by
  unfold k0_pay1
  simp only [shapeCast_self]
  exact Ideal.ofBits_zero_f32

/-- The first kernel's step: the accumulator plus the tile's partial sum. -/
theorem k0_pay2_at (v3 : Vec Ideal S256x2048 .f32) (v6 : Vec Ideal S1024x2048 .bf16) (v8 : Vec Ideal S256x1024 .f32)
    (p : Fin 256) (d : Fin 1024) :
    k0_pay2 v3 v6 v8 (ix2 p d) = v8 (ix2 p d) + ∑ q : Fin 2048, v3 (ix2 p q) * v6 (ix2 d q) := by
  unfold k0_pay2
  simp only [shapeCast_self]
  rw [addf_apply, dot_embed_apply]
  rfl

/-- The first kernel's last step adds the bias table. -/
theorem k0_pay3_at (v17 v18 : Vec Ideal S256x1024 .f32) (p : Fin 256) (d : Fin 1024) :
    k0_pay3 v17 v18 (ix2 p d) = v17 (ix2 p d) + v18 (ix2 p d) := by
  unfold k0_pay3
  simp only [shapeCast_self]
  rfl

/-- The third kernel: the product with the output map plus the output bias. -/
theorem k2_pay1_at (v0 : Vec Ideal S256x1024 .f32) (v3 : Vec Ideal S4096x1024 .bf16) (v6 : Vec Ideal S1x4096 .f32)
    (p : Fin 256) (q : Fin 4096) :
    k2_pay1 v0 v3 v6 (ix2 p q) = (∑ d : Fin 1024, v0 (ix2 p d) * v3 (ix2 q d)) + v6 (ix2 (0 : Fin 1) q) := by
  unfold k2_pay1
  simp only [shapeCast_self]
  rw [addf_apply, dot_out_apply, broadcastTo_1b_ab_apply]
  rfl

/-- The logistic function of a vector at an entry is the logistic function of the entry. -/
theorem logistic_at {s : Shape} {φ : FTy} (x : FVec Ideal s φ) (i : s.Idx) : logistic x i = Ideal.logistic (x i) := rfl

/-- The second kernel: the gate of channel c spread over lane d — the logistic function of the channel mixer applied
    to the queries' head means, times the spreading matrix — times the value at (c, d). The loaded block of rows
    carries a leading unit axis, which the two products drop and the store puts back. -/
theorem k1_pay1_at (v0 : Vec Ideal S1x64x1024 .f32) (v3 v5 : Vec Ideal S1024x1024 .bf16) (v9 : Vec Ideal S1024x8 .bf16)
    (v13 : Vec Ideal S64x64 .bf16) (v18 : Vec Ideal S8x1024 .bf16) (c : Fin 64) (d : Fin 1024) :
    k1_pay1 v0 v3 v5 v9 v13 v18 (ix3 (0 : Fin 1) c d)
      = (∑ h : Fin 8, Ideal.logistic (∑ c' : Fin 64, v13 (ix2 c c')
            * (∑ e : Fin 1024, (∑ d' : Fin 1024, v0 (ix3 (0 : Fin 1) c' d') * v3 (ix2 e d')) * v9 (ix2 e h))) * v18 (ix2 h d))
        * (∑ d' : Fin 1024, v0 (ix3 (0 : Fin 1) c d') * v5 (ix2 d d')) := by
  unfold k1_pay1
  simp only [shapeCast_self]
  rw [shapeCast_ab_1ab_apply, mulf_apply, dot_spread_apply, dot_proj_apply]
  refine congrArg₂ (· * ·) (Finset.sum_congr rfl fun h _ => ?_) (Finset.sum_congr rfl fun d' _ => ?_)
  · rw [truncf_apply, logistic_at, dot_mix_apply]
    refine congrArg (fun t => Ideal.logistic t * v18 (ix2 h d)) (Finset.sum_congr rfl fun c' _ => ?_)
    rw [truncf_apply, dot_mean_apply]
    refine congrArg (v13 (ix2 c c') * ·) (Finset.sum_congr rfl fun e _ => ?_)
    rw [truncf_apply, dot_proj_apply]
    refine congrArg (· * v9 (ix2 e h)) (Finset.sum_congr rfl fun d' _ => ?_)
    rw [truncf_apply, shapeCast_1ab_ab_apply]
  · rw [truncf_apply, shapeCast_1ab_ab_apply]

end Cert.KernelIdeal.Hand

end
-- ==== Proof.KiGateValue.lean ====
/- The gate's region (pipeline 1), read as a function on whole arrays, at the ideal values.

   The pipeline walks a grid of 16 points, one per batch entry. At point t it reads slab t of the activations
   (64 rows of 1024) and five small matrices that it keeps whole in their buffers, and writes slab t of the result:
   with q = x · Wqᵀ and v = x · Wvᵀ the two projections of the slab,
       out[c', d] = (Σ_h logistic(Σ_c'' Wk[c', c''] · Σ_e q[c'', e] · M[e, h]) · Mt[h, d]) · v[c', d].
   Entry (b, c', d) of the result is written by point b alone and depends on slab b of the activations only, so the
   result array ends as one function of the six input arrays. This file proves that: what each point writes back is
   its slab of the function, the sixteen slabs tile the result, hence the array ends equal to the function. -/
import proofs.«151928_j1992864825605_2_alg».proof.Proof.KiGate
import proofs.«151928_j1992864825605_2_alg».proof.Proof.PayloadAt
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole-buffer access, as the constant zero function (two and three axes). -/
theorem zeros1_2 : (![0, 0] : Fin 2 → Nat) = fun _ => 0 := funext fun a => by fin_cases a <;> rfl
theorem zeros1_3 : (![0, 0, 0] : Fin 3 → Nat) = fun _ => 0 := funext fun a => by fin_cases a <;> rfl

/-! ## The function on whole arrays -/

/-- From the activations `X` (16 × 64 × 1024), the two projection matrices `Wq`, `Wv`, the mixing matrix `Wk`, the
    pooling matrix `M` and the spreading matrix `Mt`: the gated values. -/
def gateWhole (X : S16x64x1024.Idx → EReal) (Wq Wv : S1024x1024.Idx → EReal) (Wk : S64x64.Idx → EReal)
    (M : S1024x8.Idx → EReal) (Mt : S8x1024.Idx → EReal) : S16x64x1024.Idx → EReal :=
  fun i => (∑ h : Fin 8, Ideal.logistic (∑ c'' : Fin 64, Wk (ix2 (i 1 : Fin 64) c'')
        * (∑ e : Fin 1024, (∑ d' : Fin 1024, X (ix3 (i 0 : Fin 16) c'' d') * Wq (ix2 e d')) * M (ix2 e h))) * Mt (ix2 h (i 2 : Fin 1024)))
      * (∑ d' : Fin 1024, X (ix3 (i 0 : Fin 16) (i 1 : Fin 64) d') * Wv (ix2 (i 2 : Fin 1024) d'))

theorem gateWhole_apply (X : S16x64x1024.Idx → EReal) (Wq Wv : S1024x1024.Idx → EReal) (Wk : S64x64.Idx → EReal)
    (M : S1024x8.Idx → EReal) (Mt : S8x1024.Idx → EReal) (b : Fin 16) (c' : Fin 64) (d : Fin 1024) :
    gateWhole X Wq Wv Wk M Mt (ix3 b c' d)
      = (∑ h : Fin 8, Ideal.logistic (∑ c'' : Fin 64, Wk (ix2 c' c'')
            * (∑ e : Fin 1024, (∑ d' : Fin 1024, X (ix3 b c'' d') * Wq (ix2 e d')) * M (ix2 e h))) * Mt (ix2 h d))
        * (∑ d' : Fin 1024, X (ix3 b c' d') * Wv (ix2 d d')) := rfl

/-! ## One point, on buffers of the literal shapes -/

/-- What the body leaves in the output buffer, at entry (0, c', d): the single whole-buffer store leaves its payload,
    the whole-buffer loads read the input buffers as they are, and the payload at an entry is the gated value. -/
theorem out1_6_at (x0 : Vec Ideal S1x64x1024 .f32) (x1 x2 : Vec Ideal S1024x1024 .bf16) (x3 : Vec Ideal S64x64 .bf16)
    (x4 : Vec Ideal S1024x8 .bf16) (x5 : Vec Ideal S8x1024 .bf16) (c' : Fin 64) (d : Fin 1024) :
    out1_6 x0 x1 x2 x3 x4 x5 (ix3 (0 : Fin 1) c' d)
      = (∑ h : Fin 8, Ideal.logistic (∑ c'' : Fin 64, x3 (ix2 c' c'')
            * (∑ e : Fin 1024, (∑ d' : Fin 1024, x0 (ix3 (0 : Fin 1) c'' d') * x1 (ix2 e d')) * x4 (ix2 e h))) * x5 (ix2 h d))
        * (∑ d' : Fin 1024, x0 (ix3 (0 : Fin 1) c' d') * x2 (ix2 d d')) := by
  unfold out1_6
  rw [View.canon_unit_zero zeros1_3]
  simp only [View.ld_unit_zero (S := S1x64x1024) zeros1_3, View.ld_unit_zero (S := S1024x1024) zeros1_2,
    View.ld_unit_zero (S := S64x64) zeros1_2, View.ld_unit_zero (S := S1024x8) zeros1_2, View.ld_unit_zero (S := S8x1024) zeros1_2]
  exact k1_pay1_at x0 x1 x2 x4 x3 x5 c' d

/-- If the first buffer holds slab `b` of `X` and the other five hold the five matrices, the output buffer ends
    holding slab `b` of the whole-array function. -/
theorem slabValue1 (x0 : Vec Ideal S1x64x1024 .f32) (x1 x2 : Vec Ideal S1024x1024 .bf16) (x3 : Vec Ideal S64x64 .bf16)
    (x4 : Vec Ideal S1024x8 .bf16) (x5 : Vec Ideal S8x1024 .bf16)
    (X : S16x64x1024.Idx → EReal) (Wq Wv : S1024x1024.Idx → EReal) (Wk : S64x64.Idx → EReal)
    (M : S1024x8.Idx → EReal) (Mt : S8x1024.Idx → EReal) (b : Fin 16)
    (h0 : ∀ (c'' : Fin 64) (d' : Fin 1024), x0 (ix3 (0 : Fin 1) c'' d') = X (ix3 b c'' d'))
    (h1 : x1 = Wq) (h2 : x2 = Wv) (h3 : x3 = Wk) (h4 : x4 = M) (h5 : x5 = Mt) (c' : Fin 64) (d : Fin 1024) :
    out1_6 x0 x1 x2 x3 x4 x5 (ix3 (0 : Fin 1) c' d) = gateWhole X Wq Wv Wk M Mt (ix3 b c' d) := by
  subst h1 h2 h3 h4 h5
  rw [out1_6_at, gateWhole_apply]
  simp only [h0]

/-! ## The block indices over the grid -/

/-- At every point the activations' and the result's block index along the batch axis is the point itself, below 16,
    and every other block index of every window is zero. Decided over the sixteen points. -/
theorem blockIdx1 : ∀ t : Fin cfg1.N,
    win1_0.index t (0 : Fin 3) = win1_6.index t (0 : Fin 3) ∧ win1_0.index t (1 : Fin 3) = 0 ∧ win1_0.index t (2 : Fin 3) = 0
    ∧ win1_6.index t (0 : Fin 3) ≤ 15 ∧ win1_6.index t (1 : Fin 3) = 0 ∧ win1_6.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Every one of the 16 result slabs belongs to some point. -/
theorem blockOnto1 : ∀ q0 : Fin 16, ∃ t : Fin cfg1.N, win1_6.index t = ![q0.val, 0, 0] :=
  (by decide +kernel : ∀ q0 : Fin 16, ∃ t : Fin grid1.N, win1_6.index t = ![q0.val, 0, 0])

/-! ## The input blocks as entries of the arrays

An entry of a block sits in the array at block index × block extent + its coordinate in the block, axis by axis. -/

/-- Entry (0, c'', d') of the activations' block at `t` is entry (b, c'', d') of the array, `b` the result's slab. -/
theorem iblk1_0_at (c : Dev nD) (t : Fin cfg1.N) (c'' : Fin 64) (d' : Fin 1024) (b : Fin 16)
    (hb : b.val = win1_6.index t (0 : Fin 3)) :
    (iblk1 V c 0 t : Vec Ideal S1x64x1024 .f32) (ix3 (0 : Fin 1) c'' d') = (V c main_v29 : S16x64x1024.Idx → EReal) (ix3 b c'' d') := by
  obtain ⟨e0, e1, e2, -⟩ := blockIdx1 t
  unfold iblk1
  rw [View.read_apply]
  show (V c main_v29 : S16x64x1024.Idx → EReal) _ = _
  refine congrArg _ ?_
  funext a; apply Fin.ext
  match a with
  | ⟨0, _⟩ => show win1_0.index t (0 : Fin 3) * 1 + 1 * 0 = b.val; omega
  | ⟨1, _⟩ => show win1_0.index t (1 : Fin 3) * 64 + 1 * c''.val = c''.val; omega
  | ⟨2, _⟩ => show win1_0.index t (2 : Fin 3) * 1024 + 1 * d'.val = d'.val; omega

/-- The query weights' block is the whole array at every point. -/
theorem iblk1_1_eq (c : Dev nD) (t : Fin cfg1.N) :
    (iblk1 V c 1 t : Vec Ideal S1024x1024 .bf16) = (V c main_v2 : S1024x1024.Idx → EReal) := by
  obtain ⟨-, -, -, -, -, -, z0, z1, -, -, -, -, -, -, -, -⟩ := blockIdx1 t
  funext y
  unfold iblk1
  rw [View.read_apply]
  show (V c main_v2 : S1024x1024.Idx → EReal) _ = _
  refine congrArg _ ?_
  funext a; apply Fin.ext
  match a with
  | ⟨0, _⟩ => show win1_1.index t (0 : Fin 2) * 1024 + 1 * (y 0).val = (y 0).val; omega
  | ⟨1, _⟩ => show win1_1.index t (1 : Fin 2) * 1024 + 1 * (y 1).val = (y 1).val; omega

/-- The value weights' block is the whole array at every point. -/
theorem iblk1_2_eq (c : Dev nD) (t : Fin cfg1.N) :
    (iblk1 V c 2 t : Vec Ideal S1024x1024 .bf16) = (V c main_v3 : S1024x1024.Idx → EReal) := by
  obtain ⟨-, -, -, -, -, -, -, -, z0, z1, -, -, -, -, -, -⟩ := blockIdx1 t
  funext y
  unfold iblk1
  rw [View.read_apply]
  show (V c main_v3 : S1024x1024.Idx → EReal) _ = _
  refine congrArg _ ?_
  funext a; apply Fin.ext
  match a with
  | ⟨0, _⟩ => show win1_2.index t (0 : Fin 2) * 1024 + 1 * (y 0).val = (y 0).val; omega
  | ⟨1, _⟩ => show win1_2.index t (1 : Fin 2) * 1024 + 1 * (y 1).val = (y 1).val; omega

/-- The mixing matrix' block is the whole array at every point. -/
theorem iblk1_3_eq (c : Dev nD) (t : Fin cfg1.N) :
    (iblk1 V c 3 t : Vec Ideal S64x64 .bf16) = (V c main_v4 : S64x64.Idx → EReal) := by
  obtain ⟨-, -, -, -, -, -, -, -, -, -, z0, z1, -, -, -, -⟩ := blockIdx1 t
  funext y
  unfold iblk1
  rw [View.read_apply]
  show (V c main_v4 : S64x64.Idx → EReal) _ = _
  refine congrArg _ ?_
  funext a; apply Fin.ext
  match a with
  | ⟨0, _⟩ => show win1_3.index t (0 : Fin 2) * 64 + 1 * (y 0).val = (y 0).val; omega
  | ⟨1, _⟩ => show win1_3.index t (1 : Fin 2) * 64 + 1 * (y 1).val = (y 1).val; omega

/-- The pooling matrix' block is the whole array at every point. -/
theorem iblk1_4_eq (c : Dev nD) (t : Fin cfg1.N) :
    (iblk1 V c 4 t : Vec Ideal S1024x8 .bf16) = (V c main_v25 : S1024x8.Idx → EReal) := by
  obtain ⟨-, -, -, -, -, -, -, -, -, -, -, -, z0, z1, -, -⟩ := blockIdx1 t
  funext y
  unfold iblk1
  rw [View.read_apply]
  show (V c main_v25 : S1024x8.Idx → EReal) _ = _
  refine congrArg _ ?_
  funext a; apply Fin.ext
  match a with
  | ⟨0, _⟩ => show win1_4.index t (0 : Fin 2) * 1024 + 1 * (y 0).val = (y 0).val; omega
  | ⟨1, _⟩ => show win1_4.index t (1 : Fin 2) * 8 + 1 * (y 1).val = (y 1).val; omega

/-- The spreading matrix' block is the whole array at every point. -/
theorem iblk1_5_eq (c : Dev nD) (t : Fin cfg1.N) :
    (iblk1 V c 5 t : Vec Ideal S8x1024 .bf16) = (V c main_v27 : S8x1024.Idx → EReal) := by
  obtain ⟨-, -, -, -, -, -, -, -, -, -, -, -, -, -, z0, z1⟩ := blockIdx1 t
  funext y
  unfold iblk1
  rw [View.read_apply]
  show (V c main_v27 : S8x1024.Idx → EReal) _ = _
  refine congrArg _ ?_
  funext a; apply Fin.ext
  match a with
  | ⟨0, _⟩ => show win1_5.index t (0 : Fin 2) * 8 + 1 * (y 0).val = (y 0).val; omega
  | ⟨1, _⟩ => show win1_5.index t (1 : Fin 2) * 1024 + 1 * (y 1).val = (y 1).val; omega

/-! ## What a point writes back -/

/-- What the body leaves at point `t`, at an entry of the output block, is the whole-array function at the entry's
    place in the result. -/
theorem blockOfWhole1 (c : Dev nD) (t : Fin cfg1.N) (y : S1x64x1024.Idx) :
    out1_6 (iblk1 V c 0 t) (iblk1 V c 1 t) (iblk1 V c 2 t) (iblk1 V c 3 t) (iblk1 V c 4 t) (iblk1 V c 5 t) y
      = gateWhole (V c main_v29) (V c main_v2) (V c main_v3) (V c main_v4) (V c main_v25) (V c main_v27)
          (((cfg1.win 6).blk t).view.emb y) := by
  obtain ⟨z, c', d, rfl⟩ : ∃ (z : Fin 1) (c' : Fin 64) (d : Fin 1024), y = ix3 z c' d := ⟨y 0, y 1, y 2, eq_ix3 y⟩
  obtain rfl : z = 0 := Subsingleton.elim _ _
  obtain ⟨-, -, -, hb, f1, f2, -⟩ := blockIdx1 t
  refine (slabValue1 (iblk1 V c 0 t) (iblk1 V c 1 t) (iblk1 V c 2 t) (iblk1 V c 3 t) (iblk1 V c 4 t) (iblk1 V c 5 t)
    (V c main_v29) (V c main_v2) (V c main_v3) (V c main_v4) (V c main_v25) (V c main_v27)
    ⟨win1_6.index t (0 : Fin 3), by omega⟩
    (fun c'' d' => iblk1_0_at V c t c'' d' _ rfl)
    (iblk1_1_eq V c t) (iblk1_2_eq V c t) (iblk1_3_eq V c t) (iblk1_4_eq V c t) (iblk1_5_eq V c t) c' d).trans ?_
  refine congrArg _ ?_
  funext a; apply Fin.ext
  match a with
  | ⟨0, _⟩ => show win1_6.index t (0 : Fin 3) = win1_6.index t (0 : Fin 3) * 1 + 1 * 0; omega
  | ⟨1, _⟩ => show c'.val = win1_6.index t (1 : Fin 3) * 64 + 1 * c'.val; omega
  | ⟨2, _⟩ => show d.val = win1_6.index t (2 : Fin 3) * 1024 + 1 * d.val; omega

/-- What point `t` writes back to the result is block `t` of the whole-array function. -/
theorem flushed1_eq (c : Dev nD) (t : Fin cfg1.N) :
    (dat1 (F := Ideal) V c).flushed 6 t
      = ((cfg1.win 6).blk t).view.read (Elt Ideal)
          (gateWhole (V c main_v29) (V c main_v2) (V c main_v3) (V c main_v4) (V c main_v25) (V c main_v27)) := by
  show (cfg1.win 6).cut (grid1.coords t) ((dat1 V c).after 6 t) = _
  rw [after1_6]
  funext j
  rw [View.read_apply]
  exact blockOfWhole1 V c t j

/-! ## The blocks tile the result -/

/-- An entry of the result is in point `t`'s block iff on each axis its coordinate lies in the block's range. -/
theorem mem_blk1 (t : Fin cfg1.N) (i : S16x64x1024.Idx) :
    i ∈ ((cfg1.win 6).blk t).view.set ↔ ∀ a : Fin 3, win1_6.index t a * S1x64x1024.size a ≤ (i a).val ∧ (i a).val < win1_6.index t a * S1x64x1024.size a + S1x64x1024.size a := by
  show i ∈ ((View.whole main_v30).slice (win1_6.rect t)).set ↔ _
  rw [View.set_slice_whole, Rect.mem_set_unit]
  exact Iff.rfl

/-- Entry (b, c', d) lies in slab b, which some point owns and writes back. -/
theorem covered1 (i : S16x64x1024.Idx) : ∃ t : Fin cfg1.N, (cfg1.win 6).flush t = true ∧ i ∈ ((cfg1.win 6).blk t).view.set := by
  have hi0 : (i 0).val < 16 := (i 0).isLt
  have hi1 : (i 1).val < 64 := (i 1).isLt
  have hi2 : (i 2).val < 1024 := (i 2).isLt
  obtain ⟨t, ht⟩ := blockOnto1 ⟨(i 0).val, hi0⟩
  have q0 : win1_6.index t (0 : Fin 3) = (i 0).val := congrFun ht 0
  have q1 : win1_6.index t (1 : Fin 3) = 0 := congrFun ht 1
  have q2 : win1_6.index t (2 : Fin 3) = 0 := congrFun ht 2
  refine ⟨t, flush1_6 t, ?_⟩
  rw [mem_blk1]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 64 ≤ (i 1).val ∧ (i 1).val < win1_6.index t (1 : Fin 3) * 64 + 64; omega
  | ⟨2, _⟩ => show win1_6.index t (2 : Fin 3) * 1024 ≤ (i 2).val ∧ (i 2).val < win1_6.index t (2 : Fin 3) * 1024 + 1024; omega

/-! ## The result array after the region -/

/-- After the last point the result array is the whole-array function of the six input arrays as the region found them. -/
theorem final1 (c : Dev nD) : (dat1 (F := Ideal) V c).arrAt 6 cfg1.N
    = gateWhole (V c main_v29) (V c main_v2) (V c main_v3) (V c main_v4) (V c main_v25) (V c main_v27) :=
  (dat1 (F := Ideal) V c).arrAt_eq_of_cover 6 _ (fun t _ => flushed1_eq V c t) covered1

/-- Entry by entry (`gateWhole_apply` opens the right-hand side to the sums). -/
theorem out1_array (c : Dev nD) (b : Fin 16) (c' : Fin 64) (d : Fin 1024) :
    (dat1 (F := Ideal) V c).arrAt 6 cfg1.N (ix3 b c' d)
      = gateWhole (V c main_v29) (V c main_v2) (V c main_v3) (V c main_v4) (V c main_v25) (V c main_v27) (ix3 b c' d) := by
  rw [final1]

end Cert.KernelIdeal.Hand

end
-- ==== Proof.KiOutValue.lean ====
/- The output projection's region (pipeline 2), read as a function on whole arrays, at the ideal values.

   The pipeline walks a 4 × 4 grid. At a point whose output block is block (mm, nn) of the 1024 × 16384 result it
   reads row block mm of the activations (256 rows of 1024), row block nn of the weights (4096 rows of 1024) and
   column block nn of the bias row, and writes the product with the transposed weights plus the bias into the
   output block. Entry (m, n) of the result therefore only ever receives
       Σ_d x[m, d] · w[n, d] + b[0, n]
   whichever point writes it, and the sixteen output blocks tile the result. This file proves exactly that: what
   each point writes back is the corresponding block of this one whole-array function, every entry lies in some
   point's block, hence the array ends equal to the function. -/
import proofs.«151928_j1992864825605_2_alg».proof.Proof.KiOut
import proofs.«151928_j1992864825605_2_alg».proof.Proof.PayloadAt
import Idealize.ShloMosaic.Lib.Pipeline.Value
import Idealize.ShloMosaic.Lib.ValueIdx
import Idealize.ShloMosaic.Lib.Tactic

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole-buffer access, as the constant zero function. -/
theorem zeros2 : (![0, 0] : Fin 2 → Nat) = fun _ => 0 := funext fun a => by fin_cases a <;> rfl

/-! ## The function on whole arrays -/

/-- Activations `X` (1024 × 1024) times the transpose of the weights `Wt` (16384 × 1024), plus the bias row `b`. -/
def projWhole (X : S1024x1024.Idx → EReal) (Wt : S16384x1024.Idx → EReal) (b : S1x16384.Idx → EReal) : S1024x16384.Idx → EReal :=
  fun i => (∑ d : Fin 1024, X (ix2 (i 0 : Fin 1024) d) * Wt (ix2 (i 1 : Fin 16384) d)) + b (ix2 (0 : Fin 1) (i 1 : Fin 16384))

theorem projWhole_apply (X : S1024x1024.Idx → EReal) (Wt : S16384x1024.Idx → EReal) (b : S1x16384.Idx → EReal)
    (m : Fin 1024) (n : Fin 16384) :
    projWhole X Wt b (ix2 m n) = (∑ d : Fin 1024, X (ix2 m d) * Wt (ix2 n d)) + b (ix2 (0 : Fin 1) n) := rfl

/-! ## One point, on buffers of the literal shapes -/

/-- What the body leaves in the output buffer, at entry (p, q): the single whole-buffer store leaves its payload, the
    whole-buffer loads read the input buffers as they are, and the payload at an entry is the row-by-row product plus
    the bias. -/
theorem out2_3_at (x0 : Vec Ideal S256x1024 .f32) (x1 : Vec Ideal S4096x1024 .bf16) (x2 : Vec Ideal S1x4096 .f32) (p : Fin 256) (q : Fin 4096) :
    out2_3 x0 x1 x2 (ix2 p q) = (∑ d : Fin 1024, x0 (ix2 p d) * x1 (ix2 q d)) + x2 (ix2 (0 : Fin 1) q) := by
  unfold out2_3
  rw [View.canon_unit_zero zeros2]
  simp only [View.ld_unit_zero (S := S256x1024) zeros2, View.ld_unit_zero (S := S4096x1024) zeros2, View.ld_unit_zero (S := S1x4096) zeros2]
  exact k2_pay1_at x0 x1 x2 p q

/-! ## The block indices over the grid -/

/-- At every point: the activations' block row is the output's block row, the weights' block row and the bias's
    block column are the output's block column, the remaining block indices are zero, and the output's block
    indices are below 4. Decided over the sixteen points. -/
theorem blockIdx2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) ≤ 3 ∧ win2_3.index t (1 : Fin 2) ≤ 3 :=
  (by decide +kernel : ∀ t : Fin grid2.N, _)

/-- Every one of the 4 × 4 output blocks belongs to some point. -/
theorem blockOnto2 : ∀ (q0 q1 : Fin 4), ∃ t : Fin cfg2.N, win2_3.index t = ![q0.val, q1.val] :=
  (by decide +kernel : ∀ (q0 q1 : Fin 4), ∃ t : Fin grid2.N, win2_3.index t = ![q0.val, q1.val])

/-! ## The input blocks as entries of the arrays

An entry of a block sits in the array at block index × block extent + its coordinate in the block, axis by axis. -/

/-- Row `p` of the activations' block at `t` is row `r` of the array, `r` = output block row × 256 + `p`. -/
theorem iblk2_0_at (c : Dev nD) (t : Fin cfg2.N) (p : Fin 256) (d : Fin 1024) (r : Fin 1024)
    (hr : r.val = win2_3.index t (0 : Fin 2) * 256 + p.val) :
    (iblk2 V c 0 t : Vec Ideal S256x1024 .f32) (ix2 p d) = (V c main_v31 : S1024x1024.Idx → EReal) (ix2 r d) := by
  obtain ⟨e00, e01, -⟩ := blockIdx2 t
  unfold iblk2
  rw [View.read_apply]
  show (V c main_v31 : S1024x1024.Idx → EReal) _ = _
  refine congrArg _ ?_
  funext a; apply Fin.ext
  match a with
  | ⟨0, _⟩ => show win2_0.index t (0 : Fin 2) * 256 + 1 * p.val = r.val; omega
  | ⟨1, _⟩ => show win2_0.index t (1 : Fin 2) * 1024 + 1 * d.val = d.val; omega

/-- Row `q` of the weights' block at `t` is row `s` of the array, `s` = output block column × 4096 + `q`. -/
theorem iblk2_1_at (c : Dev nD) (t : Fin cfg2.N) (q : Fin 4096) (d : Fin 1024) (s : Fin 16384)
    (hs : s.val = win2_3.index t (1 : Fin 2) * 4096 + q.val) :
    (iblk2 V c 1 t : Vec Ideal S4096x1024 .bf16) (ix2 q d) = (V c main_v5 : S16384x1024.Idx → EReal) (ix2 s d) := by
  obtain ⟨-, -, e10, e11, -⟩ := blockIdx2 t
  unfold iblk2
  rw [View.read_apply]
  show (V c main_v5 : S16384x1024.Idx → EReal) _ = _
  refine congrArg _ ?_
  funext a; apply Fin.ext
  match a with
  | ⟨0, _⟩ => show win2_1.index t (0 : Fin 2) * 4096 + 1 * q.val = s.val; omega
  | ⟨1, _⟩ => show win2_1.index t (1 : Fin 2) * 1024 + 1 * d.val = d.val; omega

/-- Column `q` of the bias's block at `t` is column `s` of the bias row, the same `s`. -/
theorem iblk2_2_at (c : Dev nD) (t : Fin cfg2.N) (q : Fin 4096) (s : Fin 16384)
    (hs : s.val = win2_3.index t (1 : Fin 2) * 4096 + q.val) :
    (iblk2 V c 2 t : Vec Ideal S1x4096 .f32) (ix2 (0 : Fin 1) q) = (V c main_v13 : S1x16384.Idx → EReal) (ix2 (0 : Fin 1) s) := by
  obtain ⟨-, -, -, -, e20, e21, -⟩ := blockIdx2 t
  unfold iblk2
  rw [View.read_apply]
  show (V c main_v13 : S1x16384.Idx → EReal) _ = _
  refine congrArg _ ?_
  funext a; apply Fin.ext
  match a with
  | ⟨0, _⟩ => show win2_2.index t (0 : Fin 2) * 1 + 1 * 0 = 0; omega
  | ⟨1, _⟩ => show win2_2.index t (1 : Fin 2) * 4096 + 1 * q.val = s.val; omega

/-! ## What a point writes back -/

/-- Entry (p, q) of what the body leaves at point `t` is the whole-array function at (r, s), for the row `r` and
    column `s` of the result that the entry occupies. -/
theorem blockValue2 (c : Dev nD) (t : Fin cfg2.N) (p : Fin 256) (q : Fin 4096) (r : Fin 1024) (s : Fin 16384)
    (hr : r.val = win2_3.index t (0 : Fin 2) * 256 + p.val) (hs : s.val = win2_3.index t (1 : Fin 2) * 4096 + q.val) :
    out2_3 (iblk2 V c 0 t) (iblk2 V c 1 t) (iblk2 V c 2 t) (ix2 p q)
      = projWhole (V c main_v31) (V c main_v5) (V c main_v13) (ix2 r s) := by
  refine (out2_3_at (iblk2 V c 0 t) (iblk2 V c 1 t) (iblk2 V c 2 t) p q).trans ?_
  unfold projWhole
  refine congrArg₂ (· + ·) (Finset.sum_congr rfl fun d _ => congrArg₂ (· * ·) ?_ ?_) ?_
  · exact iblk2_0_at V c t p d r hr
  · exact iblk2_1_at V c t q d s hs
  · exact iblk2_2_at V c t q s hs

/-- The same with the place in the result given by the output block's own embedding. -/
theorem blockOfWhole2 (c : Dev nD) (t : Fin cfg2.N) (y : S256x4096.Idx) :
    out2_3 (iblk2 V c 0 t) (iblk2 V c 1 t) (iblk2 V c 2 t) y
      = projWhole (V c main_v31) (V c main_v5) (V c main_v13) (((cfg2.win 3).blk t).view.emb y) := by
  obtain ⟨p, q, rfl⟩ : ∃ (p : Fin 256) (q : Fin 4096), y = ix2 p q := ⟨y 0, y 1, eq_ix2 y⟩
  obtain ⟨-, -, -, -, -, -, hm, hn⟩ := blockIdx2 t
  have hp : p.val < 256 := p.isLt
  have hq : q.val < 4096 := q.isLt
  refine (blockValue2 V c t p q ⟨win2_3.index t (0 : Fin 2) * 256 + p.val, by omega⟩
    ⟨win2_3.index t (1 : Fin 2) * 4096 + q.val, by omega⟩ rfl rfl).trans ?_
  refine congrArg _ ?_
  funext a; apply Fin.ext
  match a with
  | ⟨0, _⟩ => show win2_3.index t (0 : Fin 2) * 256 + p.val = win2_3.index t (0 : Fin 2) * 256 + 1 * p.val; omega
  | ⟨1, _⟩ => show win2_3.index t (1 : Fin 2) * 4096 + q.val = win2_3.index t (1 : Fin 2) * 4096 + 1 * q.val; omega

/-- What point `t` writes back to the result is block `t` of the whole-array function. -/
theorem flushed2_eq (c : Dev nD) (t : Fin cfg2.N) :
    (dat2 (F := Ideal) V c).flushed 3 t
      = ((cfg2.win 3).blk t).view.read (Elt Ideal) (projWhole (V c main_v31) (V c main_v5) (V c main_v13)) := by
  show (cfg2.win 3).cut (grid2.coords t) ((dat2 V c).after 3 t) = _
  rw [after2_3]
  funext j
  rw [View.read_apply]
  exact blockOfWhole2 V c t j

/-! ## The blocks tile the result -/

/-- An entry of the result is in point `t`'s block iff on each axis its coordinate lies in the block's range. -/
theorem mem_blk2 (t : Fin cfg2.N) (i : S1024x16384.Idx) :
    i ∈ ((cfg2.win 3).blk t).view.set ↔ ∀ a : Fin 2, win2_3.index t a * S256x4096.size a ≤ (i a).val ∧ (i a).val < win2_3.index t a * S256x4096.size a + S256x4096.size a := by
  show i ∈ ((View.whole main_v32).slice (win2_3.rect t)).set ↔ _
  rw [View.set_slice_whole, Rect.mem_set_unit]
  exact Iff.rfl

/-- Entry (m, n) lies in the block (m / 256, n / 4096), which some point owns and writes back. -/
theorem covered2 (i : S1024x16384.Idx) : ∃ t : Fin cfg2.N, (cfg2.win 3).flush t = true ∧ i ∈ ((cfg2.win 3).blk t).view.set := by
  have hi0 : (i 0).val < 1024 := (i 0).isLt
  have hi1 : (i 1).val < 16384 := (i 1).isLt
  obtain ⟨t, ht⟩ := blockOnto2 ⟨(i 0).val / 256, by omega⟩ ⟨(i 1).val / 4096, by omega⟩
  have q0 : win2_3.index t (0 : Fin 2) = (i 0).val / 256 := congrFun ht 0
  have q1 : win2_3.index t (1 : Fin 2) = (i 1).val / 4096 := congrFun ht 1
  refine ⟨t, flush2_3 t, ?_⟩
  rw [mem_blk2]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 4096 ≤ (i 1).val ∧ (i 1).val < win2_3.index t (1 : Fin 2) * 4096 + 4096; omega

/-! ## The result array after the region -/

/-- After the last point the result array is the whole-array function of the three input arrays as the region found them. -/
theorem final2 (c : Dev nD) : (dat2 (F := Ideal) V c).arrAt 3 cfg2.N = projWhole (V c main_v31) (V c main_v5) (V c main_v13) :=
  (dat2 (F := Ideal) V c).arrAt_eq_of_cover 3 _ (fun t _ => flushed2_eq V c t) covered2

/-- Entry by entry (`projWhole_apply` opens the right-hand side to the sum). -/
theorem out2_array (c : Dev nD) (m : Fin 1024) (n : Fin 16384) :
    (dat2 (F := Ideal) V c).arrAt 3 cfg2.N (ix2 m n) = projWhole (V c main_v31) (V c main_v5) (V c main_v13) (ix2 m n) := by
  rw [final2]

end Cert.KernelIdeal.Hand

end
-- ==== Proof.LibFlatten.lean ====
/-
  Re-indexing between a two-dimensional block and its row-major flattening. Entry (i, j) of an [a, b] block sits at
  position b * i + j of the flattened array of a * b entries; the map is a bijection, so a supremum or a sum over
  all positions is the supremum or the sum over all (i, j). The two blocks that occur together here, [1250, 128]
  and [10000, 16], flatten to the same 160000 positions, and the arithmetic that passes from one layout to the
  other is stated on the positions' values.
-/
import Mathlib

open scoped BigOperators

namespace Cert.LibFlatten

/-- The row-major position of entry (i, j) of an [a, b] block, among n = a * b positions: b * i + j. -/
def flat {a b n : ℕ} (h : a * b = n) (i : Fin a) (j : Fin b) : Fin n :=
  ⟨b * i.val + j.val, by
    have hi := i.isLt
    have hj := j.isLt
    have h1 : b * i.val + j.val < b * (i.val + 1) := by rw [Nat.mul_add, Nat.mul_one]; omega
    have h2 : b * (i.val + 1) ≤ b * a := Nat.mul_le_mul_left b hi
    have h3 : b * a = n := by rw [Nat.mul_comm]; exact h
    omega⟩

/-- The position's value is b * i + j. -/
@[simp] theorem flat_val {a b n : ℕ} (h : a * b = n) (i : Fin a) (j : Fin b) : (flat h i j).val = b * i.val + j.val := rfl

/-- The row of a position: (b * i + j) / b = i. -/
theorem flat_div {a b n : ℕ} (h : a * b = n) (i : Fin a) (j : Fin b) : (flat h i j).val / b = i.val := by
  have hj := j.isLt
  rw [flat_val, Nat.mul_add_div (by omega), Nat.div_eq_of_lt hj, Nat.add_zero]

/-- The column of a position: (b * i + j) % b = j. -/
theorem flat_mod {a b n : ℕ} (h : a * b = n) (i : Fin a) (j : Fin b) : (flat h i j).val % b = j.val := by
  rw [flat_val, Nat.mul_add_mod, Nat.mod_eq_of_lt j.isLt]

/-- Entries of an [a, b] block and positions of its flattening correspond one to one. -/
def flatEquiv {a b n : ℕ} (h : a * b = n) : Fin a × Fin b ≃ Fin n :=
  finProdFinEquiv.trans (finCongr h)

/-- The correspondence sends (i, j) to position b * i + j. -/
theorem flatEquiv_apply {a b n : ℕ} (h : a * b = n) (ij : Fin a × Fin b) : flatEquiv h ij = flat h ij.1 ij.2 := by
  apply Fin.ext
  simp [flatEquiv, flat, finProdFinEquiv]
  omega

/-- A supremum over all positions is the supremum over all entries (i, j), as one family over the pairs. -/
theorem sup_flat {α : Type*} [SemilatticeSup α] [OrderBot α] {a b n : ℕ} (h : a * b = n) (f : Fin n → α) :
    Finset.univ.sup (fun ij : Fin a × Fin b => f (flat h ij.1 ij.2)) = Finset.univ.sup f := by
  have e : (fun ij : Fin a × Fin b => f (flat h ij.1 ij.2)) = f ∘ (flatEquiv h).toEmbedding :=
    funext fun ij => by simp [flatEquiv_apply]
  rw [e, ← Finset.sup_map, Finset.map_univ_equiv]

/-- A supremum over all positions is the supremum over the rows of the suprema within each row. -/
theorem sup_sup_flat {α : Type*} [SemilatticeSup α] [OrderBot α] {a b n : ℕ} (h : a * b = n) (f : Fin n → α) :
    Finset.univ.sup (fun i : Fin a => Finset.univ.sup (fun j : Fin b => f (flat h i j))) = Finset.univ.sup f := by
  rw [← sup_flat h f, ← Finset.univ_product_univ, Finset.sup_product_left]

/-- A sum over all positions is the sum over all entries (i, j), as one family over the pairs. -/
theorem sum_flat {M : Type*} [AddCommMonoid M] {a b n : ℕ} (h : a * b = n) (f : Fin n → M) :
    ∑ ij : Fin a × Fin b, f (flat h ij.1 ij.2) = ∑ k : Fin n, f k := by
  rw [← Equiv.sum_comp (flatEquiv h) f]
  exact Finset.sum_congr rfl fun ij _ => by rw [flatEquiv_apply]

/-- A sum over all positions is the sum over the rows of the sums within each row. -/
theorem sum_sum_flat {M : Type*} [AddCommMonoid M] {a b n : ℕ} (h : a * b = n) (f : Fin n → M) :
    ∑ i : Fin a, ∑ j : Fin b, f (flat h i j) = ∑ k : Fin n, f k := by
  rw [← sum_flat h f, Fintype.sum_prod_type]

/-! ## The two blocks of 160000 entries -/

/-- The position of entry (i, j) of the [1250, 128] block: 128 * i + j. -/
abbrev flatIdx (i : Fin 1250) (j : Fin 128) : Fin 160000 := flat (a := 1250) (b := 128) (n := 160000) (by norm_num) i j

/-- The position of entry (p, q) of the [10000, 16] block: 16 * p + q. -/
abbrev rowIdx (p : Fin 10000) (q : Fin 16) : Fin 160000 := flat (a := 10000) (b := 16) (n := 160000) (by norm_num) p q

theorem flatIdx_val (i : Fin 1250) (j : Fin 128) : (flatIdx i j).val = 128 * i.val + j.val := rfl
theorem rowIdx_val (p : Fin 10000) (q : Fin 16) : (rowIdx p q).val = 16 * p.val + q.val := rfl

/-- Supremum over all 160000 positions, by the [1250, 128] layout. -/
theorem sup_flatIdx {α : Type*} [SemilatticeSup α] [OrderBot α] (f : Fin 160000 → α) :
    Finset.univ.sup (fun ij : Fin 1250 × Fin 128 => f (flatIdx ij.1 ij.2)) = Finset.univ.sup f := sup_flat _ f

/-- Sum over all 160000 positions, by the [1250, 128] layout. -/
theorem sum_flatIdx {M : Type*} [AddCommMonoid M] (f : Fin 160000 → M) :
    ∑ ij : Fin 1250 × Fin 128, f (flatIdx ij.1 ij.2) = ∑ k : Fin 160000, f k := sum_flat _ f

/-- Supremum over all 160000 positions, by the [10000, 16] layout. -/
theorem sup_rowIdx {α : Type*} [SemilatticeSup α] [OrderBot α] (f : Fin 160000 → α) :
    Finset.univ.sup (fun pq : Fin 10000 × Fin 16 => f (rowIdx pq.1 pq.2)) = Finset.univ.sup f := sup_flat _ f

/-- Sum over all 160000 positions, by the [10000, 16] layout. -/
theorem sum_rowIdx {M : Type*} [AddCommMonoid M] (f : Fin 160000 → M) :
    ∑ pq : Fin 10000 × Fin 16, f (rowIdx pq.1 pq.2) = ∑ k : Fin 160000, f k := sum_flat _ f

/-- A position of the [1250, 128] layout read in the [10000, 16] layout: its row n / 16 and column n % 16 are in
    range and give the position back. -/
theorem flatIdx_as_row (i : Fin 1250) (j : Fin 128) :
    (128 * i.val + j.val) / 16 < 10000 ∧ (128 * i.val + j.val) % 16 < 16
      ∧ 16 * ((128 * i.val + j.val) / 16) + (128 * i.val + j.val) % 16 = 128 * i.val + j.val := by
  have hi := i.isLt
  have hj := j.isLt
  omega

/-- A position of the [10000, 16] layout read in the [1250, 128] layout and back: its row n / 128 and column
    n % 128 are in range, and n / 16, n % 16 are the entry's own coordinates. -/
theorem rowIdx_as_flat (p : Fin 10000) (q : Fin 16) :
    (16 * p.val + q.val) / 128 < 1250 ∧ (16 * p.val + q.val) % 128 < 128
      ∧ (16 * p.val + q.val) / 16 = p.val ∧ (16 * p.val + q.val) % 16 = q.val
      ∧ 128 * ((16 * p.val + q.val) / 128) + (16 * p.val + q.val) % 128 = 16 * p.val + q.val := by
  have hp := p.isLt
  have hq := q.isLt
  omega

/-- Every position is the position of its own row n / 16 and column n % 16 in the [10000, 16] layout. -/
theorem rowIdx_div_mod (n : Fin 160000) :
    rowIdx ⟨n.val / 16, by have := n.isLt; omega⟩ ⟨n.val % 16, by omega⟩ = n := by
  apply Fin.ext
  show 16 * (n.val / 16) + n.val % 16 = n.val
  omega

/-- Every position is the position of its own row n / 128 and column n % 128 in the [1250, 128] layout. -/
theorem flatIdx_div_mod (n : Fin 160000) :
    flatIdx ⟨n.val / 128, by have := n.isLt; omega⟩ ⟨n.val % 128, by omega⟩ = n := by
  apply Fin.ext
  show 128 * (n.val / 128) + n.val % 128 = n.val
  omega

end Cert.LibFlatten
-- ==== Proof.Spec.lean ====
/-
  The two computations as functions of the argument arrays, entry by entry, over the extended reals.

  The arguments: an image batch `X` flattened to rows `64 b + c` (sample `b`, channel `c`) and pixel columns, the
  embedding `We`, `be`, the positional table `pos`, the projections `Wq`, `Wv`, the channel mixer `Wk`, and the
  output map `Wo`, `bo`.

  One side (`r…`): embed every row (`rXe`), project to queries and values, average each of the 8 heads' 128 query
  lanes (`rQm`), mix the channels and squash (`rK`: 1 / (1 + e^(-z))), scale each value lane by its head's gate
  (`rOut`), map back to pixels (`rFin`).

  The other side (`k…`): the same embedding summed tile by tile along the pixels (8 tiles of 2048) with the two bias
  tables added first to each other; the head average as a product with the indicator matrix of the heads divided
  by 128 (`kQm`); the gate spread back over the 1024 lanes as a product with the transposed indicator (`kKf`).
-/
import Mathlib
import Idealize.ShloMosaic.PureOps.Ideal
import proofs.«151928_j1992864825605_2_alg».proof.Proof.LibFlatten

noncomputable section

namespace Cert.Spec

open Idealize.ShloMosaic
open Cert.LibFlatten (flat)

/-- Row `64 b + c` of the flattened batch. -/
abbrev rc (b : Fin 16) (c : Fin 64) : Fin 1024 := flat (by norm_num : 16 * 64 = 1024) b c
/-- Pixel `2048 k + p`: position `p` of pixel tile `k`. -/
abbrev px (k : Fin 8) (p : Fin 2048) : Fin 16384 := flat (by norm_num : 8 * 2048 = 16384) k p
/-- Lane `128 h + j`: lane `j` of head `h`. -/
abbrev hd (h : Fin 8) (j : Fin 128) : Fin 1024 := flat (by norm_num : 8 * 128 = 1024) h j
/-- Pixel `128 y + x` of the image. -/
abbrev pix (y x : Fin 128) : Fin 16384 := flat (by norm_num : 128 * 128 = 16384) y x
/-- The head a lane belongs to. -/
def hOf (d : Fin 1024) : Fin 8 := ⟨d.val / 128, by have := d.isLt; omega⟩

/-- The argument arrays. -/
structure Args where
  X : Fin 1024 → Fin 16384 → EReal
  We : Fin 1024 → Fin 16384 → EReal
  be : Fin 1024 → EReal
  pos : Fin 64 → Fin 1024 → EReal
  Wq : Fin 1024 → Fin 1024 → EReal
  Wk : Fin 64 → Fin 64 → EReal
  Wv : Fin 1024 → Fin 1024 → EReal
  Wo : Fin 16384 → Fin 1024 → EReal
  bo : Fin 16384 → EReal

/-- Every entry of every argument is a real number. -/
structure Args.Real (a : Args) : Prop where
  X : ∀ m p, ∃ r : ℝ, a.X m p = (r : EReal)
  We : ∀ d p, ∃ r : ℝ, a.We d p = (r : EReal)
  be : ∀ d, ∃ r : ℝ, a.be d = (r : EReal)
  pos : ∀ c d, ∃ r : ℝ, a.pos c d = (r : EReal)
  Wq : ∀ e d, ∃ r : ℝ, a.Wq e d = (r : EReal)
  Wk : ∀ f c, ∃ r : ℝ, a.Wk f c = (r : EReal)
  Wv : ∀ e d, ∃ r : ℝ, a.Wv e d = (r : EReal)
  Wo : ∀ p d, ∃ r : ℝ, a.Wo p d = (r : EReal)
  bo : ∀ p, ∃ r : ℝ, a.bo p = (r : EReal)

variable (a : Args)

/-! ## One side: whole sums, the mean as a quotient -/

def rXe (b : Fin 16) (c : Fin 64) (d : Fin 1024) : EReal :=
  ((∑ p : Fin 16384, a.X (rc b c) p * a.We d p) + a.be d) + a.pos c d
def rQ (b : Fin 16) (c : Fin 64) (e : Fin 1024) : EReal := ∑ d : Fin 1024, rXe a b c d * a.Wq e d
def rV (b : Fin 16) (c : Fin 64) (e : Fin 1024) : EReal := ∑ d : Fin 1024, rXe a b c d * a.Wv e d
def rQm (b : Fin 16) (h : Fin 8) (c : Fin 64) : EReal := Ideal.div (0 + ∑ j : Fin 128, rQ a b c (hd h j)) 128
def rZ (b : Fin 16) (h : Fin 8) (f : Fin 64) : EReal := ∑ c : Fin 64, rQm a b h c * a.Wk f c
def rK (b : Fin 16) (h : Fin 8) (f : Fin 64) : EReal := Ideal.div 1 (1 + Ideal.exp (-(rZ a b h f)))
def rOut (b : Fin 16) (c : Fin 64) (d : Fin 1024) : EReal := rK a b (hOf d) c * rV a b c d
def rFin (b : Fin 16) (c : Fin 64) (p : Fin 16384) : EReal := (∑ d : Fin 1024, rOut a b c d * a.Wo p d) + a.bo p

/-! ## The other side: tile sums, the mean and the spreading as products with the heads' indicator -/

/-- The heads' indicator: 1 where lane `e` belongs to head `h`, else 0. -/
def mask (e : Fin 1024) (h : Fin 8) : EReal := if e.val / 128 = h.val then 1 else 0

def kXe (b : Fin 16) (c : Fin 64) (d : Fin 1024) : EReal :=
  (∑ k : Fin 8, ∑ p : Fin 2048, a.X (rc b c) (px k p) * a.We d (px k p)) + (a.pos c d + a.be d)
def kQ (b : Fin 16) (c : Fin 64) (e : Fin 1024) : EReal := ∑ d : Fin 1024, kXe a b c d * a.Wq e d
def kV (b : Fin 16) (c : Fin 64) (e : Fin 1024) : EReal := ∑ d : Fin 1024, kXe a b c d * a.Wv e d
def kQm (b : Fin 16) (c : Fin 64) (h : Fin 8) : EReal := ∑ e : Fin 1024, kQ a b c e * Ideal.div (mask e h) 128
def kZ (b : Fin 16) (f : Fin 64) (h : Fin 8) : EReal := ∑ c : Fin 64, a.Wk f c * kQm a b c h
def kK (b : Fin 16) (f : Fin 64) (h : Fin 8) : EReal := Ideal.logistic (kZ a b f h)
def kKf (b : Fin 16) (c : Fin 64) (d : Fin 1024) : EReal := ∑ h : Fin 8, kK a b c h * mask d h
def kOut (b : Fin 16) (c : Fin 64) (d : Fin 1024) : EReal := kKf a b c d * kV a b c d
def kFin (b : Fin 16) (c : Fin 64) (p : Fin 16384) : EReal := (∑ d : Fin 1024, kOut a b c d * a.Wo p d) + a.bo p

end Cert.Spec

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.KiEmbedValue.lean ====
/-
  The embedding kernel's result array.

  The grid has 4 row tiles of 256 rows by 8 pixel tiles of 2048 pixels; position 8 i + k is pixel tile k of row tile
  i. The accumulator is cleared at k = 0 and grows at every position by the position's share
  Σ_q x[256 i + p, 2048 k + q] · w[d, 2048 k + q] of entry (p, d); at k = 7 the output block gets the accumulator plus
  the bias block and is written back.

  First, what each kind of position leaves in the accumulator and in the output block, as values: the body only loads
  and stores whole buffers, so a buffer ends at its last store's value and a load after a store reads that value.
  Then the blocks as entries of the arrays (a block's entry (p, q) at block index (i, k) is the array's entry
  (256 i + p, 2048 k + q)). Then the accumulator along a row tile: it starts at the first tile's share and adds one
  share per position, so after the eighth it is the sum of the eight shares — addition on the extended reals is
  commutative and associative, and nothing else is used. Last, the array: row r is written back once, by the last
  position of row tile r / 256, so the array ends holding the eight shares plus the bias at every entry.
-/
import proofs.«151928_j1992864825605_2_alg».proof.Proof.KiEmbed
import proofs.«151928_j1992864825605_2_alg».proof.Proof.PayloadAt
import proofs.«151928_j1992864825605_2_alg».proof.Proof.Spec
import proofs.«151928_j1992864825605_2_alg».proof.Proof.LibBlockSum
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer load or store, however they are spelt. -/
theorem zeroOff : (![0, 0] : Fin 2 → Nat) = fun _ => 0 := funext fun a => by fin_cases a <;> rfl

/-! ## What each kind of point leaves, as values

The body loads and stores whole buffers only, so each buffer it writes ends at the value of its last store, and a
load after a store reads that store's value. -/

section Pieces
variable (c : Dev nD) (i : grid0.Coords) (arg2 : Memref sig .tc .vmem S256x2048 .f32) (harg2 : arg2.IsWhole) (arg3 : Memref sig .tc .vmem S1024x2048 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole)

/-- At a first pixel tile the accumulator is cleared and the tile's product added to the cleared value. -/
theorem accFirst_eq (hc0 : isFirst i) (hc1 : ¬isLast i) (x0 : Vec F S256x2048 .f32) (x1 : Vec F S1024x2048 .bf16) :
    accFirst c i arg2 harg2 arg3 harg3 arg4 harg4 arg5 harg5 arg6 harg6 hc0 hc1 x0 x1 = k0_pay2 x0 x1 k0_pay1 := by
  unfold accFirst
  rw [View.read_writes_eq_canon _ _ _ (cover_accFirst c i arg2 harg2 arg3 harg3 arg4 harg4 arg5 harg5 arg6 harg6 hc0 hc1 x0 x1)]
  unfold embedRunFirst
  dsimp only
  sl_unfold_words
  rw [View.canon_cons_unit_zero (S := S256x1024) zeroOff, View.readCov_unit_zero (S := S256x1024) _ zeroOff]
  simp only [View.readAt_eq_ld, harg2.read_unread, harg3.read_unread,
    View.ld_unit_zero (S := S256x2048) zeroOff, View.ld_unit_zero (S := S1024x2048) zeroOff]

/-- At a middle pixel tile the tile's product is added to what the accumulator held. -/
theorem accMid_eq (hc0 : ¬isFirst i) (hc1 : ¬isLast i) (x0 : Vec F S256x2048 .f32) (x1 : Vec F S1024x2048 .bf16) (xs : Vec F S256x1024 .f32) :
    accMid c i arg2 harg2 arg3 harg3 arg4 harg4 arg5 harg5 arg6 harg6 hc0 hc1 x0 x1 xs = k0_pay2 x0 x1 xs := by
  unfold accMid
  rw [View.read_writes_eq_canon _ _ _ (cover_accMid c i arg2 harg2 arg3 harg3 arg4 harg4 arg5 harg5 arg6 harg6 hc0 hc1 x0 x1 xs)]
  unfold embedRunMid
  dsimp only
  rw [View.canon_unit_zero zeroOff]
  simp only [View.readAt_eq_ld, harg2.read_unread, harg3.read_unread, harg6.read_unread,
    View.ld_unit_zero (S := S256x2048) zeroOff, View.ld_unit_zero (S := S1024x2048) zeroOff,
    View.ld_unit_zero (S := S256x1024) zeroOff]

/-- At a last pixel tile the accumulator grows in the same way. -/
theorem accLast_eq (hc0 : ¬isFirst i) (hc1 : isLast i) (x0 : Vec F S256x2048 .f32) (x1 : Vec F S1024x2048 .bf16) (x2 xs : Vec F S256x1024 .f32) :
    accLast c i arg2 harg2 arg3 harg3 arg4 harg4 arg5 harg5 arg6 harg6 hc0 hc1 x0 x1 x2 xs = k0_pay2 x0 x1 xs := by
  unfold accLast
  rw [View.read_writes_eq_canon _ _ _ (cover_accLast c i arg2 harg2 arg3 harg3 arg4 harg4 arg5 harg5 arg6 harg6 hc0 hc1 x0 x1 x2 xs)]
  unfold embedRunLast
  dsimp only
  sl_unfold_words
  rw [View.canon_unit_zero zeroOff]
  simp only [View.readAt_eq_ld, harg2.read_unread, harg3.read_unread, harg6.read_unread,
    View.ld_unit_zero (S := S256x2048) zeroOff, View.ld_unit_zero (S := S1024x2048) zeroOff,
    View.ld_unit_zero (S := S256x1024) zeroOff]

/-- And the output block gets the grown accumulator plus the bias block. -/
theorem outLast_eq (hc0 : ¬isFirst i) (hc1 : isLast i) (x0 : Vec F S256x2048 .f32) (x1 : Vec F S1024x2048 .bf16) (x2 xs : Vec F S256x1024 .f32) :
    outLast c i arg2 harg2 arg3 harg3 arg4 harg4 arg5 harg5 arg6 harg6 hc0 hc1 x0 x1 x2 xs = k0_pay3 (k0_pay2 x0 x1 xs) x2 := by
  unfold outLast
  rw [View.read_writes_eq_canon _ _ _ (cover_outLast c i arg2 harg2 arg3 harg3 arg4 harg4 arg5 harg5 arg6 harg6 hc0 hc1 x0 x1 x2 xs)]
  unfold embedRunLast
  dsimp only
  sl_unfold_words
  rw [View.canon_unit_zero zeroOff, View.readCov_unit_zero (S := S256x1024) _ zeroOff]
  simp only [View.readAt_eq_ld, harg2.read_unread, harg3.read_unread, harg4.read_unread, harg6.read_unread,
    View.ld_unit_zero (S := S256x2048) zeroOff, View.ld_unit_zero (S := S1024x2048) zeroOff,
    View.ld_unit_zero (S := S256x1024) zeroOff]

/-! The same at an entry (row `p` of the row tile, lane `d`), over the extended reals. -/

theorem accFirst_at (hc0 : isFirst i) (hc1 : ¬isLast i) (x0 : Vec Ideal S256x2048 .f32) (x1 : Vec Ideal S1024x2048 .bf16)
    (p : Fin 256) (d : Fin 1024) :
    accFirst c i arg2 harg2 arg3 harg3 arg4 harg4 arg5 harg5 arg6 harg6 hc0 hc1 x0 x1 (ix2 p d)
      = ∑ q : Fin 2048, x0 (ix2 p q) * x1 (ix2 d q) := by
  rw [accFirst_eq, k0_pay2_at, k0_pay1_at, zero_add]

theorem accMid_at (hc0 : ¬isFirst i) (hc1 : ¬isLast i) (x0 : Vec Ideal S256x2048 .f32) (x1 : Vec Ideal S1024x2048 .bf16)
    (xs : Vec Ideal S256x1024 .f32) (p : Fin 256) (d : Fin 1024) :
    accMid c i arg2 harg2 arg3 harg3 arg4 harg4 arg5 harg5 arg6 harg6 hc0 hc1 x0 x1 xs (ix2 p d)
      = xs (ix2 p d) + ∑ q : Fin 2048, x0 (ix2 p q) * x1 (ix2 d q) := by
  rw [accMid_eq, k0_pay2_at]

theorem accLast_at (hc0 : ¬isFirst i) (hc1 : isLast i) (x0 : Vec Ideal S256x2048 .f32) (x1 : Vec Ideal S1024x2048 .bf16)
    (x2 xs : Vec Ideal S256x1024 .f32) (p : Fin 256) (d : Fin 1024) :
    accLast c i arg2 harg2 arg3 harg3 arg4 harg4 arg5 harg5 arg6 harg6 hc0 hc1 x0 x1 x2 xs (ix2 p d)
      = xs (ix2 p d) + ∑ q : Fin 2048, x0 (ix2 p q) * x1 (ix2 d q) := by
  rw [accLast_eq, k0_pay2_at]

theorem outLast_at (hc0 : ¬isFirst i) (hc1 : isLast i) (x0 : Vec Ideal S256x2048 .f32) (x1 : Vec Ideal S1024x2048 .bf16)
    (x2 xs : Vec Ideal S256x1024 .f32) (p : Fin 256) (d : Fin 1024) :
    outLast c i arg2 harg2 arg3 harg3 arg4 harg4 arg5 harg5 arg6 harg6 hc0 hc1 x0 x1 x2 xs (ix2 p d)
      = (xs (ix2 p d) + ∑ q : Fin 2048, x0 (ix2 p q) * x1 (ix2 d q)) + x2 (ix2 p d) := by
  rw [outLast_eq, k0_pay3_at, k0_pay2_at]

end Pieces

/-! ## The blocks the body reads, as entries of the arrays

Position `t = 8 i + k` of the grid is row tile `i`, pixel tile `k`. The batch's block there is rows `256 i + p`, pixels
`2048 k + q`; the embedding's is all 1024 lanes at the same pixels; the bias's and the output's are rows `256 i + p`
and all lanes. -/

/-- Row `256 i + p`: row `p` of row tile `i`. -/
abbrev rowOf (i : Fin 4) (p : Fin 256) : Fin 1024 := Cert.LibFlatten.flat (by norm_num : 4 * 256 = 1024) i p

/-- The share of one pixel tile in entry `(p, d)`, from the tile's two blocks. -/
def blockShare (A : S256x2048.Idx → EReal) (B : S1024x2048.Idx → EReal) (p : Fin 256) (d : Fin 1024) : EReal :=
  ∑ q : Fin 2048, A (ix2 p q) * B (ix2 d q)

/-- The share of pixel tile `k` in entry `(256 i + p, d)`, from the two whole arrays. -/
def tileShare (X Wt : S1024x16384.Idx → EReal) (i : Fin 4) (p : Fin 256) (d : Fin 1024) (k : Fin 8) : EReal :=
  ∑ q : Fin 2048, X (ix2 (rowOf i p) (Cert.Spec.px k q)) * Wt (ix2 d (Cert.Spec.px k q))

/-- The embedded rows as one function of the flattened batch, the embedding and the bias table: entry `(r, d)` is the
    sum over the 8 pixel tiles of the sums over a tile's 2048 pixels, plus the bias. -/
def embedWhole (X Wt : S1024x16384.Idx → EReal) (bias : S1024x1024.Idx → EReal) : S1024x1024.Idx → EReal := fun i =>
  (∑ k : Fin 8, ∑ q : Fin 2048, X (ix2 (i 0 : Fin 1024) (Cert.Spec.px k q)) * Wt (ix2 (i 1 : Fin 1024) (Cert.Spec.px k q)))
    + bias (ix2 (i 0 : Fin 1024) (i 1 : Fin 1024))

theorem embedWhole_apply (X Wt : S1024x16384.Idx → EReal) (bias : S1024x1024.Idx → EReal) (r d : Fin 1024) :
    embedWhole X Wt bias (ix2 r d)
      = (∑ k : Fin 8, ∑ q : Fin 2048, X (ix2 r (Cert.Spec.px k q)) * Wt (ix2 d (Cert.Spec.px k q))) + bias (ix2 r d) := rfl

section Value
variable (V : (c : Dev nD) → (b : Ref sig .tc) → Buf (Elt Ideal) ((c : Thread nD τ).loc b))

theorem gridN : cfg0.N = 32 := N_0

/-- The four index maps, decided over the 32 positions. -/
theorem tile_index : ∀ t : Fin cfg0.N,
    win0_0.index t (0 : Fin 2) = t.val / 8 ∧ win0_0.index t (1 : Fin 2) = t.val % 8
    ∧ win0_1.index t (0 : Fin 2) = 0 ∧ win0_1.index t (1 : Fin 2) = t.val % 8
    ∧ win0_2.index t (0 : Fin 2) = t.val / 8 ∧ win0_2.index t (1 : Fin 2) = 0
    ∧ win0_3.index t (0 : Fin 2) = t.val / 8 ∧ win0_3.index t (1 : Fin 2) = 0 :=
  (by decide +kernel : ∀ t : Fin grid0.N, _)

theorem rows_read (c : Dev nD) (t : Fin cfg0.N) (i : Fin 4) (k : Fin 8) (ht : t.val = 8 * i.val + k.val)
    (p : Fin 256) (q : Fin 2048) :
    (iblk0 V c 0 t : S256x2048.Idx → EReal) (ix2 p q)
      = (V c main_v0 : S1024x16384.Idx → EReal) (ix2 (rowOf i p) (Cert.Spec.px k q)) := by
  obtain ⟨e0, e1, -⟩ := tile_index t
  have hi := i.isLt; have hk := k.isLt
  show V c main_v0 (((cfg0.win 0).blk t).view.emb (ix2 p q)) = _
  refine congrArg (V c main_v0) (funext fun a => Fin.ext ?_)
  match a with
  | ⟨0, _⟩ => show win0_0.index t (0 : Fin 2) * 256 + 1 * p.val = 256 * i.val + p.val; rw [e0]; omega
  | ⟨1, _⟩ => show win0_0.index t (1 : Fin 2) * 2048 + 1 * q.val = 2048 * k.val + q.val; rw [e1]; omega

theorem emb_read (c : Dev nD) (t : Fin cfg0.N) (i : Fin 4) (k : Fin 8) (ht : t.val = 8 * i.val + k.val)
    (d : Fin 1024) (q : Fin 2048) :
    (iblk0 V c 1 t : S1024x2048.Idx → EReal) (ix2 d q)
      = (V c main_v1 : S1024x16384.Idx → EReal) (ix2 d (Cert.Spec.px k q)) := by
  obtain ⟨-, -, e0, e1, -⟩ := tile_index t
  have hi := i.isLt; have hk := k.isLt
  show V c main_v1 (((cfg0.win 1).blk t).view.emb (ix2 d q)) = _
  refine congrArg (V c main_v1) (funext fun a => Fin.ext ?_)
  match a with
  | ⟨0, _⟩ => show win0_1.index t (0 : Fin 2) * 1024 + 1 * d.val = d.val; rw [e0]; omega
  | ⟨1, _⟩ => show win0_1.index t (1 : Fin 2) * 2048 + 1 * q.val = 2048 * k.val + q.val; rw [e1]; omega

theorem bias_read (c : Dev nD) (t : Fin cfg0.N) (i : Fin 4) (k : Fin 8) (ht : t.val = 8 * i.val + k.val)
    (p : Fin 256) (d : Fin 1024) :
    (iblk0 V c 2 t : S256x1024.Idx → EReal) (ix2 p d)
      = (V c main_v12 : S1024x1024.Idx → EReal) (ix2 (rowOf i p) d) := by
  obtain ⟨-, -, -, -, e0, e1, -⟩ := tile_index t
  have hi := i.isLt; have hk := k.isLt
  show V c main_v12 (((cfg0.win 2).blk t).view.emb (ix2 p d)) = _
  refine congrArg (V c main_v12) (funext fun a => Fin.ext ?_)
  match a with
  | ⟨0, _⟩ => show win0_2.index t (0 : Fin 2) * 256 + 1 * p.val = 256 * i.val + p.val; rw [e0]; omega
  | ⟨1, _⟩ => show win0_2.index t (1 : Fin 2) * 1024 + 1 * d.val = d.val; rw [e1]; omega

/-! ## The accumulator, position by position -/

/-- One position's share of entry `(p, d)`. -/
def tileSum (c : Dev nD) (t : Fin cfg0.N) (p : Fin 256) (d : Fin 1024) : EReal :=
  blockShare (iblk0 V c 0 t) (iblk0 V c 1 t) p d

/-- Pixel tile `k` of row tile `i`, as sums of entries of the two arrays the region finds. -/
def tile (c : Dev nD) (i : Fin 4) (p : Fin 256) (d : Fin 1024) (k : Fin 8) : EReal :=
  tileShare (V c main_v0) (V c main_v1) i p d k

theorem tileSum_eq (c : Dev nD) (t : Fin cfg0.N) (i : Fin 4) (k : Fin 8) (ht : t.val = 8 * i.val + k.val)
    (p : Fin 256) (d : Fin 1024) : tileSum V c t p d = tile V c i p d k := by
  unfold tileSum tile blockShare tileShare
  refine Finset.sum_congr rfl fun q _ => ?_
  rw [rows_read V c t i k ht p q, emb_read V c t i k ht d q]

/-- At a first pixel tile the accumulator holds the tile's share. -/
theorem accAt_start (c : Dev nD) (t : Fin cfg0.N) (h0 : t.val % 8 = 0) (p : Fin 256) (d : Fin 1024) :
    accAt V c t.val t.isLt (ix2 p d) = tileSum V c t p d := by
  rw [accAt_first V c t h0]
  exact accFirst_at c (grid0.coords t) (ms0_0 t) (hs0_0 t) (ms0_1 t) (hs0_1 t) (ms0_2 t) (hs0_2 t) (ms0_3 t) (hs0_3 t)
    accM (Memref.isWhole_whole _) ((isFirst_iff t).mpr h0) (not_last_of_first t h0) (iblk0 V c 0 t) (iblk0 V c 1 t) p d

/-- At every other position it holds what it held one position earlier plus the tile's share. -/
theorem accAt_step (c : Dev nD) (t : Fin cfg0.N) (h0 : ¬t.val % 8 = 0) (p : Fin 256) (d : Fin 1024) :
    accAt V c t.val t.isLt (ix2 p d)
      = accAt V c (t.val - 1) (Nat.lt_of_le_of_lt (Nat.sub_le _ _) t.isLt) (ix2 p d) + tileSum V c t p d := by
  by_cases h1 : t.val % 8 = 7
  · rw [accAt_last V c t h0 h1]
    exact accLast_at c (grid0.coords t) (ms0_0 t) (hs0_0 t) (ms0_1 t) (hs0_1 t) (ms0_2 t) (hs0_2 t) (ms0_3 t) (hs0_3 t)
      accM (Memref.isWhole_whole _) (not_first_of t h0) ((isLast_iff t).mpr h1) (iblk0 V c 0 t) (iblk0 V c 1 t)
      (iblk0 V c 2 t) (accAt V c (t.val - 1) (Nat.lt_of_le_of_lt (Nat.sub_le _ _) t.isLt)) p d
  · rw [accAt_mid V c t h0 h1]
    exact accMid_at c (grid0.coords t) (ms0_0 t) (hs0_0 t) (ms0_1 t) (hs0_1 t) (ms0_2 t) (hs0_2 t) (ms0_3 t) (hs0_3 t)
      accM (Memref.isWhole_whole _) (not_first_of t h0) (not_last_of t h1) (iblk0 V c 0 t) (iblk0 V c 1 t)
      (accAt V c (t.val - 1) (Nat.lt_of_le_of_lt (Nat.sub_le _ _) t.isLt)) p d

/-- The position of pixel tile `k` of row tile `i`. -/
def posOf (i : Fin 4) (k : Fin 8) : Fin cfg0.N :=
  ⟨8 * i.val + k.val, by have hN := gridN; have hi := i.isLt; have hk := k.isLt; omega⟩

theorem posOf_val (i : Fin 4) (k : Fin 8) : (posOf i k).val = 8 * i.val + k.val := rfl

theorem accAt_congr (c : Dev nD) {n n' : ℕ} (h : n = n') (hn : n < cfg0.N) (hn' : n' < cfg0.N) :
    accAt V c n hn = accAt V c n' hn' := by subst h; rfl

/-- After the last pixel tile of row tile `i` the accumulator holds the sum of the eight tiles' shares. -/
theorem acc_full (c : Dev nD) (i : Fin 4) (p : Fin 256) (d : Fin 1024) :
    accAt V c (posOf i (Fin.last 7)).val (posOf i (Fin.last 7)).isLt (ix2 p d) = ∑ k : Fin 8, tile V c i p d k := by
  refine Cert.Lib.BlockSum.acc_fin_last (n := 7) (tile V c i p d)
    (fun k => accAt V c (posOf i k).val (posOf i k).isLt (ix2 p d)) ?_ ?_
  · show accAt V c (posOf i 0).val (posOf i 0).isLt (ix2 p d) = tile V c i p d 0
    have h0 : (posOf i 0).val % 8 = 0 := by rw [posOf_val]; show (8 * i.val + 0) % 8 = 0; omega
    rw [accAt_start V c (posOf i 0) h0 p d, tileSum_eq V c (posOf i 0) i 0 (posOf_val i 0) p d]
  · intro k
    show accAt V c (posOf i k.succ).val (posOf i k.succ).isLt (ix2 p d)
      = accAt V c (posOf i k.castSucc).val (posOf i k.castSucc).isLt (ix2 p d) + tile V c i p d k.succ
    have hk := k.isLt
    have e1 : (k.succ : Fin 8).val = k.val + 1 := Fin.val_succ k
    have e2 : (k.castSucc : Fin 8).val = k.val := Fin.coe_castSucc k
    have h0 : ¬(posOf i k.succ).val % 8 = 0 := by rw [posOf_val, e1]; omega
    rw [accAt_step V c (posOf i k.succ) h0 p d, tileSum_eq V c (posOf i k.succ) i k.succ (posOf_val i k.succ) p d,
      accAt_congr V c (show (posOf i k.succ).val - 1 = (posOf i k.castSucc).val by rw [posOf_val, posOf_val, e1, e2]; omega)]

/-! ## The output block, the write-backs, the whole array -/

/-- After the last pixel tile of row tile `i` the output block holds the eight shares plus the bias. -/
theorem outAt_full (c : Dev nD) (t : Fin cfg0.N) (i : Fin 4) (ht : t.val = 8 * i.val + 7) (p : Fin 256) (d : Fin 1024) :
    outAt V c t (ix2 p d)
      = (∑ k : Fin 8, tile V c i p d k) + (V c main_v12 : S1024x1024.Idx → EReal) (ix2 (rowOf i p) d) := by
  obtain rfl : t = posOf i (Fin.last 7) := Fin.ext ht
  have hi := i.isLt
  have h0 : ¬(posOf i (Fin.last 7)).val % 8 = 0 := by rw [ht]; omega
  have h1 : (posOf i (Fin.last 7)).val % 8 = 7 := by rw [ht]; omega
  rw [outAt_last V c (posOf i (Fin.last 7)) h0 h1]
  refine (outLast_at c (grid0.coords (posOf i (Fin.last 7))) (ms0_0 (posOf i (Fin.last 7))) (hs0_0 (posOf i (Fin.last 7)))
    (ms0_1 (posOf i (Fin.last 7))) (hs0_1 (posOf i (Fin.last 7))) (ms0_2 (posOf i (Fin.last 7))) (hs0_2 (posOf i (Fin.last 7)))
    (ms0_3 (posOf i (Fin.last 7))) (hs0_3 (posOf i (Fin.last 7))) accM (Memref.isWhole_whole _)
    (not_first_of (posOf i (Fin.last 7)) h0) ((isLast_iff (posOf i (Fin.last 7))).mpr h1)
    (iblk0 V c 0 (posOf i (Fin.last 7))) (iblk0 V c 1 (posOf i (Fin.last 7))) (iblk0 V c 2 (posOf i (Fin.last 7)))
    (accAt V c ((posOf i (Fin.last 7)).val - 1) (Nat.lt_of_le_of_lt (Nat.sub_le _ _) (posOf i (Fin.last 7)).isLt)) p d).trans ?_
  rw [← acc_full V c i p d, accAt_step V c (posOf i (Fin.last 7)) h0 p d,
    bias_read V c (posOf i (Fin.last 7)) i (Fin.last 7) ht p d]
  rfl

/-- What a write-back point writes back is its block of the embedded rows. -/
theorem flushed3_eq (c : Dev nD) (t : Fin cfg0.N) (hf : (cfg0.win 3).flush t = true) :
    (dat0 (F := Ideal) V c).flushed 3 t
      = ((cfg0.win 3).blk t).view.read (Elt Ideal) (embedWhole (V c main_v0) (V c main_v1) (V c main_v12)) := by
  have h7 : t.val % 8 = 7 := (flush0_3 t).mp hf
  have hN := gridN
  have hlt := t.isLt
  have hi : t.val / 8 < 4 := by omega
  have ht : t.val = 8 * (⟨t.val / 8, hi⟩ : Fin 4).val + 7 := by show t.val = 8 * (t.val / 8) + 7; omega
  obtain ⟨-, -, -, -, -, -, e0, e1⟩ := tile_index t
  show (cfg0.win 3).cut (grid0.coords t) ((dat0 (F := Ideal) V c).after 3 t) = _
  rw [after0_3]
  funext y
  obtain ⟨p, d, rfl⟩ : ∃ (p : Fin 256) (d : Fin 1024), y = ix2 p d := ⟨y 0, y 1, eq_ix2 y⟩
  show outAt V c t (ix2 p d)
    = embedWhole (V c main_v0) (V c main_v1) (V c main_v12) (((cfg0.win 3).blk t).view.emb (ix2 p d))
  have hemb : ((cfg0.win 3).blk t).view.emb (ix2 p d) = ix2 (rowOf (⟨t.val / 8, hi⟩ : Fin 4) p) d := by
    refine funext fun a => Fin.ext ?_
    match a with
    | ⟨0, _⟩ => show win0_3.index t (0 : Fin 2) * 256 + 1 * p.val = 256 * (t.val / 8) + p.val; rw [e0]; omega
    | ⟨1, _⟩ => show win0_3.index t (1 : Fin 2) * 1024 + 1 * d.val = d.val; rw [e1]; omega
  rw [hemb, embedWhole_apply, outAt_full V c t (⟨t.val / 8, hi⟩ : Fin 4) ht p d]
  rfl

/-- An index of the output array is in a position's block when each coordinate is in the block's range. -/
theorem mem_blk3 (t : Fin cfg0.N) (j : S1024x1024.Idx) :
    j ∈ ((cfg0.win 3).blk t).view.set
      ↔ ∀ a : Fin 2, win0_3.index t a * S256x1024.size a ≤ (j a).val
          ∧ (j a).val < win0_3.index t a * S256x1024.size a + S256x1024.size a := by
  show j ∈ ((View.whole main_v28).slice (win0_3.rect t)).set ↔ _
  rw [View.set_slice_whole, Rect.mem_set_unit]
  exact Iff.rfl

/-- Row `r` is written back by the last pixel tile of its row tile `r / 256`. -/
theorem cover3 (j : S1024x1024.Idx) :
    ∃ t : Fin cfg0.N, (cfg0.win 3).flush t = true ∧ j ∈ ((cfg0.win 3).blk t).view.set := by
  have h0 : (j 0).val < 1024 := (j 0).isLt
  have h1 : (j 1).val < 1024 := (j 1).isLt
  have hi : (j 0).val / 256 < 4 := by omega
  have htv : (posOf (⟨(j 0).val / 256, hi⟩ : Fin 4) (Fin.last 7)).val = 8 * ((j 0).val / 256) + 7 := rfl
  obtain ⟨-, -, -, -, -, -, e0, e1⟩ := tile_index (posOf (⟨(j 0).val / 256, hi⟩ : Fin 4) (Fin.last 7))
  refine ⟨posOf (⟨(j 0).val / 256, hi⟩ : Fin 4) (Fin.last 7), (flush0_3 _).mpr (by rw [htv]; omega), ?_⟩
  rw [mem_blk3]
  intro a
  match a with
  | ⟨0, _⟩ =>
    show win0_3.index (posOf (⟨(j 0).val / 256, hi⟩ : Fin 4) (Fin.last 7)) (0 : Fin 2) * 256 ≤ (j 0).val
      ∧ (j 0).val < win0_3.index (posOf (⟨(j 0).val / 256, hi⟩ : Fin 4) (Fin.last 7)) (0 : Fin 2) * 256 + 256
    rw [e0, htv]; omega
  | ⟨1, _⟩ =>
    show win0_3.index (posOf (⟨(j 0).val / 256, hi⟩ : Fin 4) (Fin.last 7)) (1 : Fin 2) * 1024 ≤ (j 1).val
      ∧ (j 1).val < win0_3.index (posOf (⟨(j 0).val / 256, hi⟩ : Fin 4) (Fin.last 7)) (1 : Fin 2) * 1024 + 1024
    rw [e1]; omega

/-- So the output array ends holding the embedded rows. -/
theorem final0 (c : Dev nD) :
    (dat0 (F := Ideal) V c).arrAt 3 cfg0.N = embedWhole (V c main_v0) (V c main_v1) (V c main_v12) :=
  (dat0 (F := Ideal) V c).arrAt_eq_of_cover 3 (embedWhole (V c main_v0) (V c main_v1) (V c main_v12))
    (flushed3_eq V c) cover3

/-- Entry by entry. -/
theorem out0_array (c : Dev nD) (r d : Fin 1024) :
    (dat0 (F := Ideal) V c).arrAt 3 cfg0.N (ix2 r d)
      = embedWhole (V c main_v0) (V c main_v1) (V c main_v12) (ix2 r d) :=
  congrFun (final0 V c) (ix2 r d)

end Value

end Cert.KernelIdeal.Hand

end
-- ==== Proof.SpecConsts.lean ====
/-
  The three single-precision constants the two programs spell, as the extended reals their bit patterns denote.

  A pattern of sign s, biased exponent e and fraction f denotes (-1)^s * 2^(e - 127) * (1 + f / 2^23) when
  0 < e < 255, and zero when e = 0 and f = 0.  The pattern 0x43000000 has s = 0, e = 134, f = 0, so it denotes
  2^7 = 128; the pattern 0x3F800000 has e = 127, f = 0, so it denotes 2^0 = 1; the all-zero pattern denotes 0.
-/
import Mathlib
import Idealize.ShloMosaic.PureOps.Ideal

noncomputable section

namespace Cert.Spec

open Idealize.ShloMosaic

/-- The all-zero pattern denotes zero. -/
theorem ofBits_zero : Ideal.ofBits .f32 0x00000000#32 = (0 : EReal) := by
  simp [Ideal.ofBits, Ideal.ieee]

/-- Exponent field 127, fraction 0: the number one. -/
theorem ofBits_one : Ideal.ofBits .f32 0x3F800000#32 = (1 : EReal) := by
  simp [Ideal.ofBits, Ideal.ieee, -EReal.coe_mul]; norm_num

/-- Exponent field 134, fraction 0: two to the seventh, the number of lanes of a head. -/
theorem ofBits_128 : Ideal.ofBits .f32 0x43000000#32 = (128 : EReal) := by
  have h : Ideal.ofBits .f32 0x43000000#32 = ((128 : ℝ) : EReal) := by
    simp [Ideal.ofBits, Ideal.ieee, -EReal.coe_mul]; norm_num
  rw [h]; rfl

end Cert.Spec

end
-- ==== Proof.GlueMask.lean ====
/-
  The heads' indicator, as the host part of the kernel program builds it.

  Before its first kernel the program computes, on the host, a [1024, 8] table: row e is lane e, column h is head h,
  and the entry is 1 where floor(e / 128) = h and 0 elsewhere, as a single-precision number.  One copy is divided by
  128 (the averaging weights), one is transposed (the spreading weights).  The floor division is spelled out as
  the quotient rounded toward zero, minus one where the operands' signs differ and the remainder is not zero.  Lanes run over 0 … 1023 and the divisor is 128, so both are non-negative: for lane 0 the
  remainder is zero, for the others the signs agree, the correction never applies, and the quotient toward zero of
  non-negative words is the quotient of the natural numbers.
-/
import proofs.«151928_j1992864825605_2_alg».proof.Proof.Gen.KernelIdeal.Launch
import proofs.«151928_j1992864825605_2_alg».proof.Proof.Spec
import proofs.«151928_j1992864825605_2_alg».proof.Proof.SpecConsts
import Idealize.ShloMosaic.Lib.StableHlo.Run
import Idealize.ShloMosaic.Lib.ValueIdx
import Idealize.ShloMosaic.Lib.ValueLayout
import Idealize.ShloMosaic.PureOps.Ideal

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo

/-! ## Words: the floor division of a small non-negative word by 128 -/

/-- A natural number below 1024 is the value of its 32-bit word. -/
theorem toNat_small (n : Nat) (hn : n < 1024) : (BitVec.ofNat 32 n).toNat = n := by
  rw [BitVec.toNat_ofNat]; exact Nat.mod_eq_of_lt (by omega)

/-- Such a word is non-negative. -/
theorem msb_small (n : Nat) (hn : n < 1024) : (BitVec.ofNat 32 n).msb = false := by
  rw [BitVec.msb_eq_decide, toNat_small n hn]
  simp only [decide_eq_false_iff_not, not_le]
  omega

theorem msb_128 : (128#32 : BitVec 32).msb = false := by decide

/-- Division by 128 is at neither corner of signed division (a zero divisor, or the least word by minus one). -/
theorem not_corner (x : BitVec 32) : ¬ IntOp.SDivCorner x 128#32 := by
  unfold IntOp.SDivCorner
  rintro (h | ⟨_, h⟩)
  · exact absurd h (by decide)
  · exact absurd h (by decide)

/-- The signed quotient of a small non-negative word by 128 is the natural quotient. -/
theorem divsi_small (n : Nat) (hn : n < 1024) :
    IntOp.divsi .host (BitVec.ofNat 32 n) 128#32 = BitVec.ofNat 32 (n / 128) := by
  unfold IntOp.divsi
  rw [if_neg (not_corner _), BitVec.sdiv_eq, msb_small n hn, msb_128]
  apply BitVec.eq_of_toNat_eq
  show (BitVec.ofNat 32 n / 128#32).toNat = _
  rw [BitVec.toNat_udiv, toNat_small n hn, toNat_small (n / 128) (by omega)]
  rfl

/-- The signed remainder of a small non-negative word by 128 is the natural remainder. -/
theorem remsi_small (n : Nat) (hn : n < 1024) :
    IntOp.remsi .host (BitVec.ofNat 32 n) 128#32 = BitVec.ofNat 32 (n % 128) := by
  unfold IntOp.remsi
  rw [if_neg (not_corner _), BitVec.srem_eq, msb_small n hn, msb_128]
  apply BitVec.eq_of_toNat_eq
  show (BitVec.ofNat 32 n % 128#32).toNat = _
  rw [BitVec.toNat_umod, toNat_small n hn, toNat_small (n % 128) (by omega)]
  rfl

/-- The sign of a word: 0 at zero, -1 below, 1 above. -/
def sgn (x : BitVec 32) : BitVec 32 := if x = 0 then 0 else if x.msb then -1 else 1

theorem sgn_128 : sgn 128#32 = 1 := by decide

/-- A small positive word has sign 1. -/
theorem sgn_small_pos (n : Nat) (hn : n < 1024) (h0 : n ≠ 0) : sgn (BitVec.ofNat 32 n) = 1 := by
  unfold sgn
  have hne : BitVec.ofNat 32 n ≠ 0 := fun h => h0 (by
    have := congrArg BitVec.toNat h
    rwa [toNat_small n hn] at this)
  rw [if_neg hne, msb_small n hn]
  rfl

/-- THE FLOOR DIVISION of a small non-negative word by 128, as spelled (quotient toward zero, corrected by one where
    the signs differ and the remainder is not zero), is the natural quotient: the correction never applies. -/
theorem floordiv_small (n : Nat) (hn : n < 1024) :
    Scalar.select
      (IntOp.andi (IntOp.cmpi .ne (sgn (BitVec.ofNat 32 n)) (sgn 128#32))
        (IntOp.cmpi .ne (IntOp.remsi .host (BitVec.ofNat 32 n) 128#32) 0#32))
      (IntOp.subi (IntOp.divsi .host (BitVec.ofNat 32 n) 128#32) 1#32)
      (IntOp.divsi .host (BitVec.ofNat 32 n) 128#32)
      = BitVec.ofNat 32 (n / 128) := by
  have hc : IntOp.andi (IntOp.cmpi .ne (sgn (BitVec.ofNat 32 n)) (sgn 128#32))
      (IntOp.cmpi .ne (IntOp.remsi .host (BitVec.ofNat 32 n) 128#32) 0#32) = 0#1 := by
    by_cases h0 : n = 0
    · subst h0
      rw [remsi_small 0 (by omega)]
      show IntOp.andi _ (IntOp.cmpi .ne 0#32 0#32) = 0#1
      have : IntOp.cmpi .ne 0#32 0#32 = 0#1 := by decide
      rw [this]
      exact BitVec.and_zero
    · rw [sgn_small_pos n hn h0, sgn_128]
      have : IntOp.cmpi .ne (1 : BitVec 32) 1 = 0#1 := by decide
      rw [this]
      exact BitVec.zero_and
  rw [hc, select_zero, divsi_small n hn]

/-- The comparison of two small words, converted to a number, is the indicator. -/
theorem mask_word (e : Fin 1024) (h : Fin 8) :
    (((IntOp.cmpi .eq (BitVec.ofNat 32 (e.val / 128)) (BitVec.ofNat 32 h.val)).toNat : ℝ) : EReal)
      = Cert.Spec.mask e h := by
  have he := e.isLt
  have hh := h.isLt
  unfold Cert.Spec.mask IntOp.cmpi
  by_cases hc : e.val / 128 = h.val
  · rw [if_pos hc, hc]
    simp
  · rw [if_neg hc]
    have hne : BitVec.ofNat 32 (e.val / 128) ≠ BitVec.ofNat 32 h.val := fun heq => hc (by
      have := congrArg BitVec.toNat heq
      rwa [toNat_small _ (by omega), toNat_small _ (by omega)] at this)
    have : (BitVec.ofNat 32 (e.val / 128) == BitVec.ofNat 32 h.val) = false := beq_eq_false_iff_ne.mpr hne
    rw [this]
    simp

/-! ## Broadcasts read at an index -/

section Reads
variable {α : Type}

/-- A [1024, 1] column broadcast over 8 columns reads, at (e, h), the column at e. -/
theorem bcast_col (q : (⟨2, ![1024, 1]⟩ : Shape).Idx → α)
    (hb : (⟨2, ![1024, 1]⟩ : Shape).BroadcastsInDim ⟨2, ![1024, 8]⟩ ![0, 1]) (e : Fin 1024) (h : Fin 8) :
    broadcastInDim ⟨2, ![1024, 8]⟩ ![0, 1] hb q (ix2 e h) = q (ix2 e (0 : Fin 1)) := by
  unfold broadcastInDim
  refine congrArg q (funext fun a => ?_)
  match a with
  | ⟨0, _⟩ => rfl
  | ⟨1, _⟩ => rfl

/-- A [1, 8] row broadcast over 1024 rows reads, at (e, h), the row at h. -/
theorem bcast_row (r : (⟨2, ![1, 8]⟩ : Shape).Idx → α)
    (hb : (⟨2, ![1, 8]⟩ : Shape).BroadcastsInDim ⟨2, ![1024, 8]⟩ ![0, 1]) (e : Fin 1024) (h : Fin 8) :
    broadcastInDim ⟨2, ![1024, 8]⟩ ![0, 1] hb r (ix2 e h) = r (ix2 (0 : Fin 1) h) := by
  unfold broadcastInDim
  refine congrArg r (funext fun a => ?_)
  match a with
  | ⟨0, _⟩ => rfl
  | ⟨1, _⟩ => rfl

/-- A [1024] vector laid out as a [1024, 1] column. -/
theorem bcast_vec_col (v : (⟨1, ![1024]⟩ : Shape).Idx → α)
    (hb : (⟨1, ![1024]⟩ : Shape).BroadcastsInDim ⟨2, ![1024, 1]⟩ ![0]) (e : Fin 1024) (z : Fin 1) :
    broadcastInDim ⟨2, ![1024, 1]⟩ ![0] hb v (ix2 e z) = v (ix1 e) := by
  unfold broadcastInDim
  refine congrArg v (funext fun a => ?_)
  match a with
  | ⟨0, _⟩ => rfl

/-- An [8] vector laid out as a [1, 8] row. -/
theorem bcast_vec_row (v : (⟨1, ![8]⟩ : Shape).Idx → α)
    (hb : (⟨1, ![8]⟩ : Shape).BroadcastsInDim ⟨2, ![1, 8]⟩ ![1]) (z : Fin 1) (h : Fin 8) :
    broadcastInDim ⟨2, ![1, 8]⟩ ![1] hb v (ix2 z h) = v (ix1 h) := by
  unfold broadcastInDim
  refine congrArg v (funext fun a => ?_)
  match a with
  | ⟨0, _⟩ => rfl

/-- A scalar broadcast to any shape reads the scalar's one entry. -/
theorem bcast_scalar {t : Shape} (x : (⟨0, ![]⟩ : Shape).Idx → α)
    (hb : (⟨0, ![]⟩ : Shape).BroadcastsInDim t (![] : Fin 0 → Fin t.rank)) (i : t.Idx) :
    broadcastInDim t ![] hb x i = x ix0 := by
  unfold broadcastInDim
  exact congrArg x (funext fun a => a.elim0)

end Reads

/-! ## The arrays the host builds -/

/-- The floor division of a [1024, 1] column of words by a scalar word, as spelled: the quotient toward zero,
    minus one where the signs differ and the remainder is not zero. -/
def floorDiv (x : S1024x1.Idx → BitVec 32) (c : S_.Idx → BitVec 32) : S1024x1.Idx → BitVec 32 :=
  select
    (andi (cmpi .ne (signi x) (broadcastInDim S1024x1 ![] bcast_S_S1024x1 (signi (id c))))
      (cmpi .ne (Host.remsi x (broadcastInDim S1024x1 ![] bcast_S_S1024x1 (id c)))
        (broadcastInDim S1024x1 ![] bcast_S_S1024x1 (constantI S_ 32 0#32))))
    (subi (Host.divsi x (broadcastInDim S1024x1 ![] bcast_S_S1024x1 (id c)))
      (broadcastInDim S1024x1 ![] bcast_S_S1024x1 (constantI S_ 32 1#32)))
    (Host.divsi x (broadcastInDim S1024x1 ![] bcast_S_S1024x1 (id c)))

/-- The floor division read at an entry. -/
theorem floorDiv_apply (x : S1024x1.Idx → BitVec 32) (c : S_.Idx → BitVec 32) (i : S1024x1.Idx) :
    floorDiv x c i
      = Scalar.select
          (IntOp.andi (IntOp.cmpi .ne (sgn (x i)) (sgn (c ix0)))
            (IntOp.cmpi .ne (IntOp.remsi .host (x i) (c ix0)) 0#32))
          (IntOp.subi (IntOp.divsi .host (x i) (c ix0)) 1#32)
          (IntOp.divsi .host (x i) (c ix0)) := by
  show Scalar.select
      (IntOp.andi (IntOp.cmpi .ne (sgn (x i)) (broadcastInDim S1024x1 ![] bcast_S_S1024x1 (signi (id c)) i))
        (IntOp.cmpi .ne (IntOp.remsi .host (x i) (broadcastInDim S1024x1 ![] bcast_S_S1024x1 (id c) i))
          (broadcastInDim S1024x1 ![] bcast_S_S1024x1 (constantI S_ 32 0#32) i)))
      (IntOp.subi (IntOp.divsi .host (x i) (broadcastInDim S1024x1 ![] bcast_S_S1024x1 (id c) i))
        (broadcastInDim S1024x1 ![] bcast_S_S1024x1 (constantI S_ 32 1#32) i))
      (IntOp.divsi .host (x i) (broadcastInDim S1024x1 ![] bcast_S_S1024x1 (id c) i)) = _
  rw [bcast_scalar, bcast_scalar, bcast_scalar, bcast_scalar]
  rfl

/-- The indicator table: lane quotients in a column against head numbers in a row, compared and converted. -/
def hostInd (q : S1024x1.Idx → BitVec 32) (r : S1x8.Idx → BitVec 32) : S1024x8.Idx → EReal :=
  (uitofp .f32 (cmpi .eq (broadcastInDim S1024x8 ![0, 1] bcast_S1024x1_S1024x8_0_1 q)
    (broadcastInDim S1024x8 ![0, 1] bcast_S1x8_S1024x8_0_1 r)) : FVec Ideal S1024x8 .f32)

/-- The indicator table read at (e, h). -/
theorem hostInd_apply (q : S1024x1.Idx → BitVec 32) (r : S1x8.Idx → BitVec 32) (e : Fin 1024) (h : Fin 8) :
    hostInd q r (ix2 e h)
      = (((IntOp.cmpi .eq (q (ix2 e (0 : Fin 1))) (r (ix2 (0 : Fin 1) h))).toNat : ℝ) : EReal) := by
  show (((IntOp.cmpi .eq (broadcastInDim S1024x8 ![0, 1] bcast_S1024x1_S1024x8_0_1 q (ix2 e h))
      (broadcastInDim S1024x8 ![0, 1] bcast_S1x8_S1024x8_0_1 r (ix2 e h))).toNat : ℝ) : EReal) = _
  rw [bcast_col, bcast_row]

/-! ## The three host stretches -/

section Stretches
variable (W : Valuation τ sig (Elt Ideal))

/-- After the first stretch: the lane numbers as a column. -/
theorem v15_eq : (StableHlo.after (hostOps0 (F := Ideal)) W main_v15 : S1024x1.Idx → BitVec 32)
    = broadcastInDim S1024x1 ![0] bcast_S1024_S1024x1_0 (iotaInDim S1024 32 0) := by
  after_results
  all_goals rfl

/-- After the first stretch: the head numbers as a row. -/
theorem v17_eq : (StableHlo.after (hostOps0 (F := Ideal)) W main_v17 : S1x8.Idx → BitVec 32)
    = broadcastInDim S1x8 ![1] bcast_S8_S1x8_1 (iotaInDim S8 32 0) := by
  after_results
  all_goals rfl

/-- After the first stretch: the divisor. -/
theorem c_eq : (StableHlo.after (hostOps0 (F := Ideal)) W main_c : S_.Idx → BitVec 32) = constantI S_ 32 128#32 := by
  after_results
  all_goals rfl

/-- The second stretch is the floor division of the lane column by the divisor. -/
theorem v18_eq : (StableHlo.after (hostOps0_1 (F := Ideal)) W main_v18 : S1024x1.Idx → BitVec 32)
    = floorDiv (W main_v15) (W main_c) := by
  after_results
  all_goals rfl

/-- The second stretch leaves the head row alone. -/
theorem v17_keep : (StableHlo.after (hostOps0_1 (F := Ideal)) W main_v17 : S1x8.Idx → BitVec 32) = W main_v17 := by
  after_results
  all_goals rfl

/-- The third stretch: the indicator divided by the constant 128. -/
theorem v25_eq : (StableHlo.after (hostOps0_2 (F := Ideal)) W main_v25 : S1024x8.Idx → EReal)
    = truncf .bf16 (Host.divf (hostInd (W main_v18) (W main_v17))
        (broadcastInDim S1024x8 ![] bcast_S_S1024x8 (constant (F := Ideal) S_ .f32 0x43000000#32))) bitsLt_bf16_f32 := by
  after_results
  all_goals rfl

/-- The third stretch: the indicator transposed. -/
theorem v27_eq : (StableHlo.after (hostOps0_2 (F := Ideal)) W main_v27 : S8x1024.Idx → EReal)
    = truncf (F := Ideal) .bf16
        (transpose S8x1024 [1, 0] (hostInd (W main_v18) (W main_v17)) transposes_S1024x8_S8x1024_1_0)
        bitsLt_bf16_f32 := by
  after_results
  all_goals rfl

end Stretches

/-! ## The arrays at an entry -/

/-- The floor division at an entry whose operands are known. -/
theorem floorDiv_apply_of (x : S1024x1.Idx → BitVec 32) (c : S_.Idx → BitVec 32) (i : S1024x1.Idx)
    (n d : BitVec 32) (hx : x i = n) (hc : c ix0 = d) :
    floorDiv x c i
      = Scalar.select
          (IntOp.andi (IntOp.cmpi .ne (sgn n) (sgn d)) (IntOp.cmpi .ne (IntOp.remsi .host n d) 0#32))
          (IntOp.subi (IntOp.divsi .host n d) 1#32)
          (IntOp.divsi .host n d) := by
  rw [floorDiv_apply, hx, hc]

/-- The indicator table at (e, h) when the column's entry e and the row's entry h are known. -/
theorem hostInd_apply_of (q : S1024x1.Idx → BitVec 32) (r : S1x8.Idx → BitVec 32) (e : Fin 1024) (h : Fin 8)
    (a b : BitVec 32) (hq : q (ix2 e (0 : Fin 1)) = a) (hr : r (ix2 (0 : Fin 1) h) = b) :
    hostInd q r (ix2 e h) = (((IntOp.cmpi .eq a b).toNat : ℝ) : EReal) := by
  rw [hostInd_apply, hq, hr]

section Final
variable (V₀ : Valuation τ sig (Elt Ideal))

/-- The lane column after the first stretch: entry e is the word of e. -/
theorem v15_apply (e : Fin 1024) (z : Fin 1) :
    (StableHlo.after (hostOps0 (F := Ideal)) V₀ main_v15 : S1024x1.Idx → BitVec 32) (ix2 e z)
      = BitVec.ofNat 32 e.val :=
  (congrFun (v15_eq V₀) (ix2 e z)).trans (bcast_vec_col _ _ e z)

/-- The divisor after the first stretch is the word of 128. -/
theorem c_apply : (StableHlo.after (hostOps0 (F := Ideal)) V₀ main_c : S_.Idx → BitVec 32) ix0 = 128#32 :=
  congrFun (c_eq V₀) ix0

/-- The head row after the first stretch: entry h is the word of h. -/
theorem v17_apply0 (z : Fin 1) (h : Fin 8) :
    (StableHlo.after (hostOps0 (F := Ideal)) V₀ main_v17 : S1x8.Idx → BitVec 32) (ix2 z h)
      = BitVec.ofNat 32 h.val :=
  (congrFun (v17_eq V₀) (ix2 z h)).trans (bcast_vec_row _ _ z h)

/-- The quotient column after the second stretch: entry e is the word of e / 128. -/
theorem v18_apply (e : Fin 1024) (z : Fin 1) :
    (StableHlo.after (hostOps0_1 (F := Ideal)) (StableHlo.after hostOps0 V₀) main_v18 : S1024x1.Idx → BitVec 32)
        (ix2 e z) = BitVec.ofNat 32 (e.val / 128) :=
  (congrFun (v18_eq (StableHlo.after hostOps0 V₀)) (ix2 e z)).trans
    ((floorDiv_apply_of _ _ _ _ _ (v15_apply V₀ e z) (c_apply V₀)).trans (floordiv_small e.val e.isLt))

/-- The head row after the second stretch is unchanged. -/
theorem v17_apply (z : Fin 1) (h : Fin 8) :
    (StableHlo.after (hostOps0_1 (F := Ideal)) (StableHlo.after hostOps0 V₀) main_v17 : S1x8.Idx → BitVec 32)
        (ix2 z h) = BitVec.ofNat 32 h.val :=
  (congrFun (v17_keep (StableHlo.after hostOps0 V₀)) (ix2 z h)).trans (v17_apply0 V₀ z h)

/-- The table the third stretch compares and converts is the heads' indicator. -/
theorem ind_apply (e : Fin 1024) (h : Fin 8) :
    hostInd ((StableHlo.after (hostOps0_1 (F := Ideal)) (StableHlo.after hostOps0 V₀)) main_v18)
        ((StableHlo.after (hostOps0_1 (F := Ideal)) (StableHlo.after hostOps0 V₀)) main_v17) (ix2 e h)
      = Cert.Spec.mask e h :=
  (hostInd_apply_of _ _ e h _ _ (v18_apply V₀ e 0) (v17_apply V₀ 0 h)).trans (mask_word e h)

/-- THE AVERAGING WEIGHTS: after the three host stretches, entry (e, h) of the first table is the indicator of
    "lane e belongs to head h" divided by 128. -/
theorem start_v25_at (e : Fin 1024) (h : Fin 8) :
    (StableHlo.after (hostOps0_2 (F := Ideal))
        (StableHlo.after hostOps0_1 (StableHlo.after hostOps0 V₀)) main_v25 : S1024x8.Idx → EReal) (ix2 e h)
      = Ideal.div (Cert.Spec.mask e h) 128 := by
  refine (congrFun (v25_eq _) (ix2 e h)).trans ?_
  exact congrArg₂ Ideal.div (ind_apply V₀ e h) ((bcast_scalar _ _ _).trans Cert.Spec.ofBits_128)

/-- THE SPREADING WEIGHTS: after the three host stretches, entry (h, e) of the second table is the indicator of
    "lane e belongs to head h". -/
theorem start_v27_at (e : Fin 1024) (h : Fin 8) :
    (StableHlo.after (hostOps0_2 (F := Ideal))
        (StableHlo.after hostOps0_1 (StableHlo.after hostOps0 V₀)) main_v27 : S8x1024.Idx → EReal) (ix2 h e)
      = Cert.Spec.mask e h := by
  refine (congrFun (v27_eq _) (ix2 h e)).trans ?_
  exact (transpose_ix2_apply (hostInd _ _) transposes_S1024x8_S8x1024_1_0 h e).trans (ind_apply V₀ e h)

end Final

end Cert.KernelIdeal.Hand

end
-- ==== Proof.GlueAt.lean ====
/-
  The host operations around the three kernels, read entry by entry at the ideal values.

  Before the first kernel the host flattens the image batch [16, 1, 64, 128, 128] to rows 64 b + c and pixel
  columns 128 y + x, narrows the weight tables (the identity on extended reals), adds the bias row to each row of
  the positional table and repeats the sum over the 16 samples, and views the output bias as a row. Between and after
  the kernels it only regroups rows: [1024, 1024] as [16, 64, 1024] and back, and the result [1024, 16384] as
  [16, 1, 64, 128, 128]. A regrouping keeps the row-major position, so each entry of the new view is named by
  the quotient and remainder of the row by 64 and of the pixel by 128.
-/
import proofs.«151928_j1992864825605_2_alg».proof.Proof.Gen.KernelIdeal.Regions
import proofs.«151928_j1992864825605_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.TcCoe

/-- What the buffers hold when the first kernel starts: the launch contents after the host operations before it. -/
local notation "startOf(" V ")" => StableHlo.after hostOps0_2 (StableHlo.after hostOps0_1 (StableHlo.after hostOps0 V))

/-- A buffer that only the first group of host operations writes holds, at the start of the first kernel, what
    that group left in it. -/
theorem start_of_first (V₀ : Valuation τ sig (Elt Ideal)) (r : Ref sig .tc) (h1 : r ∉ hostOps0_1_W) (h2 : r ∉ hostOps0_2_W) :
    startOf(V₀) r = StableHlo.after hostOps0 V₀ r :=
  (StableHlo.after_of_writes_sub hostOps0_2 _ hostOps0_2_writes h2).trans
    (StableHlo.after_of_writes_sub hostOps0_1 _ hostOps0_1_writes h1)

/-! ## Before the first kernel -/

/-- The image batch flattened: row m is sample m / 64, channel m % 64; column p is pixel (p / 128, p % 128). -/
theorem start_v0_at (V₀ : Valuation τ sig (Elt Ideal)) (m : Fin 1024) (p : Fin 16384) :
    startOf(V₀) main_v0 (ix2 m p)
      = V₀ main_arg0 (ix5 (⟨m.val / 64, by have := m.isLt; omega⟩ : Fin 16) (0 : Fin 1) (⟨m.val % 64, by omega⟩ : Fin 64)
          (⟨p.val / 128, by have := p.isLt; omega⟩ : Fin 128) (⟨p.val % 128, by omega⟩ : Fin 128)) := by
  rw [start_of_first V₀ main_v0 (by decide) (by decide)]
  after_results
  show shapeCast S1024x16384 (V₀ main_arg0 : S16x1x64x128x128.Idx → EReal) shapeCasts_S16x1x64x128x128_S1024x16384 (ix2 m p) = _
  refine shapeCast_apply (s := S16x1x64x128x128) (t := S1024x16384) _ _ _ _ ?_
  rw [Shape.rowMajor_val_two, Shape.rowMajor_val_five]
  show ((((m.val / 64) * 1 + 0) * 64 + m.val % 64) * 128 + p.val / 128) * 128 + p.val % 128 = m.val * 16384 + p.val
  omega

/-- The embedding table narrowed is the embedding table. -/
theorem start_v1 (V₀ : Valuation τ sig (Elt Ideal)) : (startOf(V₀) main_v1 : S1024x16384.Idx → EReal) = V₀ main_arg1 := by
  rw [start_of_first V₀ main_v1 (by decide) (by decide)]
  after_results
  rfl
theorem start_v1_at (V₀ : Valuation τ sig (Elt Ideal)) (i : S1024x16384.Idx) : startOf(V₀) main_v1 i = V₀ main_arg1 i :=
  congrFun (start_v1 V₀) i

/-- The query projection narrowed is the query projection. -/
theorem start_v2 (V₀ : Valuation τ sig (Elt Ideal)) : (startOf(V₀) main_v2 : S1024x1024.Idx → EReal) = V₀ main_arg4 := by
  rw [start_of_first V₀ main_v2 (by decide) (by decide)]
  after_results
  rfl
theorem start_v2_at (V₀ : Valuation τ sig (Elt Ideal)) (i : S1024x1024.Idx) : startOf(V₀) main_v2 i = V₀ main_arg4 i :=
  congrFun (start_v2 V₀) i

/-- The value projection narrowed is the value projection. -/
theorem start_v3 (V₀ : Valuation τ sig (Elt Ideal)) : (startOf(V₀) main_v3 : S1024x1024.Idx → EReal) = V₀ main_arg6 := by
  rw [start_of_first V₀ main_v3 (by decide) (by decide)]
  after_results
  rfl
theorem start_v3_at (V₀ : Valuation τ sig (Elt Ideal)) (i : S1024x1024.Idx) : startOf(V₀) main_v3 i = V₀ main_arg6 i :=
  congrFun (start_v3 V₀) i

/-- The channel mixer narrowed is the channel mixer. -/
theorem start_v4 (V₀ : Valuation τ sig (Elt Ideal)) : (startOf(V₀) main_v4 : S64x64.Idx → EReal) = V₀ main_arg5 := by
  rw [start_of_first V₀ main_v4 (by decide) (by decide)]
  after_results
  rfl
theorem start_v4_at (V₀ : Valuation τ sig (Elt Ideal)) (i : S64x64.Idx) : startOf(V₀) main_v4 i = V₀ main_arg5 i :=
  congrFun (start_v4 V₀) i

/-- The output map narrowed is the output map. -/
theorem start_v5 (V₀ : Valuation τ sig (Elt Ideal)) : (startOf(V₀) main_v5 : S16384x1024.Idx → EReal) = V₀ main_arg7 := by
  rw [start_of_first V₀ main_v5 (by decide) (by decide)]
  after_results
  rfl
theorem start_v5_at (V₀ : Valuation τ sig (Elt Ideal)) (i : S16384x1024.Idx) : startOf(V₀) main_v5 i = V₀ main_arg7 i :=
  congrFun (start_v5 V₀) i

/-- The bias table: row m holds the positional table's row m % 64 plus the bias row — the sum is formed on the
    [64, 1024] table, given unit axes, repeated over the 16 samples and regrouped to 1024 rows. -/
theorem start_v12_at (V₀ : Valuation τ sig (Elt Ideal)) (m : Fin 1024) (d : Fin 1024) :
    startOf(V₀) main_v12 (ix2 m d)
      = @HAdd.hAdd EReal EReal EReal instHAdd (V₀ main_arg3 (ix3 (0 : Fin 1) (⟨m.val % 64, by omega⟩ : Fin 64) d))
          (V₀ main_arg2 (ix1 d)) := by
  rw [start_of_first V₀ main_v12 (by decide) (by decide)]
  after_results
  show shapeCast S1024x1024
      (broadcastInDim S16x64x1x1024 ![0, 1, 2, 3] bcast_S1x64x1x1024_S16x64x1x1024_0_1_2_3
        (shapeCast S1x64x1x1024
          (addf (F := Ideal) (φ := .f32) (shapeCast S64x1024 (V₀ main_arg3 : S1x64x1024.Idx → EReal) shapeCasts_S1x64x1024_S64x1024)
            (broadcastInDim S64x1024 ![0, 1] bcast_S1x1024_S64x1024_0_1
              (shapeCast S1x1024 (V₀ main_arg2 : S1024.Idx → EReal) shapeCasts_S1024_S1x1024)))
          shapeCasts_S64x1024_S1x64x1x1024))
      shapeCasts_S16x64x1x1024_S1024x1024 (ix2 m d) = _
  -- row m of the regrouped table is (m / 64, m % 64, 0, ·) of the repeated one
  refine (shapeCast_apply (s := S16x64x1x1024) (t := S1024x1024) _ _ _
    (ix4 (⟨m.val / 64, by have := m.isLt; omega⟩ : Fin 16) (⟨m.val % 64, by omega⟩ : Fin 64) (0 : Fin 1) d) ?_).trans ?_
  · rw [Shape.rowMajor_val_four, Shape.rowMajor_val_two]
    show (((m.val / 64) * 64 + m.val % 64) * 1 + 0) * 1024 + d.val = m.val * 1024 + d.val
    omega
  -- the repetition over the samples forgets the sample
  refine (broadcastInDim_apply (s := S1x64x1x1024) (t := S16x64x1x1024) _ _ _ _
    (ix4 (0 : Fin 1) (⟨m.val % 64, by omega⟩ : Fin 64) (0 : Fin 1) d) ?_).trans ?_
  · intro a
    match a with
    | ⟨0, _⟩ => rfl
    | ⟨1, _⟩ => rfl
    | ⟨2, _⟩ => rfl
    | ⟨3, _⟩ => rfl
  -- the unit axes drop
  refine (shapeCast_apply (s := S64x1024) (t := S1x64x1x1024) _ _ _ (ix2 (⟨m.val % 64, by omega⟩ : Fin 64) d) ?_).trans ?_
  · rw [Shape.rowMajor_val_four, Shape.rowMajor_val_two]
    show (m.val % 64) * 1024 + d.val = (((0 : ℕ) * 64 + m.val % 64) * 1 + 0) * 1024 + d.val
    omega
  rw [addf_apply]
  refine congrArg₂ (· + ·) ?_ ?_
  · exact shapeCast_1ab_ab_apply _ _ _ _
  · refine (broadcastInDim_apply (s := S1x1024) (t := S64x1024) _ _ _ _ (ix2 (0 : Fin 1) d) ?_).trans ?_
    · intro a
      match a with
      | ⟨0, _⟩ => rfl
      | ⟨1, _⟩ => rfl
    · exact shapeCast_a_1a_apply _ _ _ _

/-- The output bias viewed as one row. -/
theorem start_v13_at (V₀ : Valuation τ sig (Elt Ideal)) (p : Fin 16384) :
    startOf(V₀) main_v13 (ix2 (0 : Fin 1) p) = V₀ main_arg8 (ix1 p) := by
  rw [start_of_first V₀ main_v13 (by decide) (by decide)]
  after_results
  show shapeCast S1x16384 (V₀ main_arg8 : S16384.Idx → EReal) shapeCasts_S16384_S1x16384 (ix2 (0 : Fin 1) p) = _
  exact shapeCast_a_1a_apply _ _ _ _

/-! ## Between and after the kernels -/

/-- The embedded rows regrouped by sample: entry (b, c, d) is row 64 b + c. -/
theorem hostOps1_v29_at (W : Valuation τ sig (Elt Ideal)) (b : Fin 16) (c : Fin 64) (d : Fin 1024) :
    StableHlo.after hostOps1 W main_v29 (ix3 b c d) = W main_v28 (ix2 (Cert.Spec.rc b c) d) := by
  after_results
  show shapeCast S16x64x1024 (W main_v28 : S1024x1024.Idx → EReal) shapeCasts_S1024x1024_S16x64x1024 (ix3 b c d) = _
  refine shapeCast_apply (s := S1024x1024) (t := S16x64x1024) _ _ _ _ ?_
  rw [Shape.rowMajor_val_two, Shape.rowMajor_val_three]
  show (64 * b.val + c.val) * 1024 + d.val = (b.val * 64 + c.val) * 1024 + d.val
  omega

/-- The gated rows flattened again: row m is entry (m / 64, m % 64, ·). -/
theorem hostOps2_v31_at (W : Valuation τ sig (Elt Ideal)) (m : Fin 1024) (d : Fin 1024) :
    StableHlo.after hostOps2 W main_v31 (ix2 m d)
      = W main_v30 (ix3 (⟨m.val / 64, by have := m.isLt; omega⟩ : Fin 16) (⟨m.val % 64, by omega⟩ : Fin 64) d) := by
  after_results
  show shapeCast S1024x1024 (W main_v30 : S16x64x1024.Idx → EReal) shapeCasts_S16x64x1024_S1024x1024 (ix2 m d) = _
  refine shapeCast_apply (s := S16x64x1024) (t := S1024x1024) _ _ _ _ ?_
  rw [Shape.rowMajor_val_two, Shape.rowMajor_val_three]
  show ((m.val / 64) * 64 + m.val % 64) * 1024 + d.val = m.val * 1024 + d.val
  omega

/-- The result as images: entry (b, 0, c, y, x) is row 64 b + c, pixel 128 y + x. -/
theorem hostOps3_v33_at (W : Valuation τ sig (Elt Ideal)) (b : Fin 16) (c : Fin 64) (y x : Fin 128) :
    StableHlo.after hostOps3 W main_v33 (ix5 b (0 : Fin 1) c y x)
      = W main_v32 (ix2 (Cert.Spec.rc b c) (Cert.Spec.pix y x)) := by
  after_results
  show shapeCast S16x1x64x128x128 (W main_v32 : S1024x16384.Idx → EReal) shapeCasts_S1024x16384_S16x1x64x128x128
    (ix5 b (0 : Fin 1) c y x) = _
  refine shapeCast_apply (s := S1024x16384) (t := S16x1x64x128x128) _ _ _ _ ?_
  rw [Shape.rowMajor_val_two, Shape.rowMajor_val_five]
  show (64 * b.val + c.val) * 16384 + (128 * y.val + x.val)
    = (((b.val * 1 + 0) * 64 + c.val) * 128 + y.val) * 128 + x.val
  omega

end Cert.KernelIdeal.Hand

end
-- ==== Proof.SpecArgs.lean ====
/-
  The argument arrays, as the programs hold them (functions of a shape's indices), read as the curried tables the
  two computations are stated over: the image batch flattened to rows `64 b + c` and pixels `128 y + x`.
-/
import Idealize.ShloMosaic.Lib.ValueIdx
import proofs.«151928_j1992864825605_2_alg».proof.Proof.Spec

noncomputable section

namespace Cert.Spec

open Idealize.ShloMosaic Idealize.ShloMosaic.ValueIdx

/-- The nine argument arrays as curried tables. Row `m` of the flattened batch is sample `m / 64`, channel `m % 64`;
    pixel `p` is image position `(p / 128, p % 128)`. -/
def argsOf (x : (⟨5, ![16, 1, 64, 128, 128]⟩ : Shape).Idx → EReal) (we : (⟨2, ![1024, 16384]⟩ : Shape).Idx → EReal)
    (be : (⟨1, ![1024]⟩ : Shape).Idx → EReal) (pos : (⟨3, ![1, 64, 1024]⟩ : Shape).Idx → EReal)
    (wq : (⟨2, ![1024, 1024]⟩ : Shape).Idx → EReal) (wk : (⟨2, ![64, 64]⟩ : Shape).Idx → EReal)
    (wv : (⟨2, ![1024, 1024]⟩ : Shape).Idx → EReal) (wo : (⟨2, ![16384, 1024]⟩ : Shape).Idx → EReal)
    (bo : (⟨1, ![16384]⟩ : Shape).Idx → EReal) : Args where
  X m p := x (ix5 (⟨m.val / 64, by have := m.isLt; omega⟩ : Fin 16) (0 : Fin 1) (⟨m.val % 64, by omega⟩ : Fin 64)
    (⟨p.val / 128, by have := p.isLt; omega⟩ : Fin 128) (⟨p.val % 128, by omega⟩ : Fin 128))
  We d p := we (ix2 d p)
  be d := be (ix1 d)
  pos c d := pos (ix3 (0 : Fin 1) c d)
  Wq e d := wq (ix2 e d)
  Wk f c := wk (ix2 f c)
  Wv e d := wv (ix2 e d)
  Wo p d := wo (ix2 p d)
  bo p := bo (ix1 p)

end Cert.Spec

end
-- ==== Proof.KiValue.lean ====
/-
  The result array, entry by entry, as the tiled computation of the launch arguments.

  The buffer contents at the nine boundaries of the run are a fold from the launch memory. Read backwards from the
  return: the result viewed as images is the third kernel's output array, whose entry (64 b + c, 128 y + x) is the
  product of the gated row with the output map plus the output bias; the gated rows, flattened, are the second
  kernel's output array, whose entry (b, c, d) is the spread gate times the value, both computed from the embedded
  rows, the two projections, the channel mixer and the heads' indicator; the embedded rows, regrouped, are the first
  kernel's output array, the tiled product of the flattened image batch with the embedding table plus the two bias
  tables. The weight tables, the indicator matrices and the biases are written once before the first kernel and by
  nothing after, so each kernel reads in them what the host operations left; those are the launch arguments
  themselves, narrowed or regrouped. Each stage matches its definition term for term.
-/
import proofs.«151928_j1992864825605_2_alg».proof.Proof.KiRun
import proofs.«151928_j1992864825605_2_alg».proof.Proof.KiGateValue
import proofs.«151928_j1992864825605_2_alg».proof.Proof.KiOutValue
import proofs.«151928_j1992864825605_2_alg».proof.Proof.KiEmbedValue
import proofs.«151928_j1992864825605_2_alg».proof.Proof.GlueMask
import proofs.«151928_j1992864825605_2_alg».proof.Proof.GlueAt
import proofs.«151928_j1992864825605_2_alg».proof.Proof.SpecArgs

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (c : Dev nD)

/-- The nine argument arrays at launch, as the curried tables of the two computations. -/
abbrev launchArgs : Cert.Spec.Args :=
  Cert.Spec.argsOf (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8))

/-! ## Buffers no kernel and no later host operation writes -/

/-- A buffer that neither the first kernel nor the regrouping after it writes holds, when the second kernel
    starts, what it held when the first started. -/
theorem W5_eq_W3 (r : Ref sig .tc) (h0 : ∀ w, Pipeline.arrRef spec0 w ≠ r) (h1 : r ∉ hostOps1_W) :
    W5 m c (Proc.devRef .tc r) = W3 m c (Proc.devRef .tc r) :=
  (StableHlo.after_of_writes_sub hostOps1 _ hostOps1_writes h1).trans (W4_of_ne m c r h0)

/-- Likewise up to the start of the third kernel. -/
theorem W7_eq_W3 (r : Ref sig .tc) (h0 : ∀ w, Pipeline.arrRef spec0 w ≠ r) (h1 : r ∉ hostOps1_W)
    (h2 : ∀ w, Pipeline.arrRef spec1 w ≠ r) (h3 : r ∉ hostOps2_W) :
    W7 m c (Proc.devRef .tc r) = W3 m c (Proc.devRef .tc r) :=
  (StableHlo.after_of_writes_sub hostOps2 _ hostOps2_writes h3).trans ((W6_of_ne m c r h2).trans (W5_eq_W3 m c r h0 h1))

/-- Row 64 b + c of the flattened batch is sample b … -/
theorem rc_div (b : Fin 16) (c' : Fin 64) :
    (⟨(Cert.Spec.rc b c').val / 64, by have := (Cert.Spec.rc b c').isLt; omega⟩ : Fin 16) = b :=
  Fin.ext (Cert.LibFlatten.flat_div _ b c')
/-- … channel c. -/
theorem rc_mod (b : Fin 16) (c' : Fin 64) :
    (⟨(Cert.Spec.rc b c').val % 64, Nat.mod_lt _ (by decide)⟩ : Fin 64) = c' :=
  Fin.ext (Cert.LibFlatten.flat_mod _ b c')

/-! ## The three stages -/

/-- After the first kernel: row 64 b + c of the embedded table is the tiled embedding of that row plus the two
    bias tables. -/
theorem embed_value (b : Fin 16) (c' : Fin 64) (d : Fin 1024) :
    W4 m c (Proc.devRef .tc main_v28) (ix2 (Cert.Spec.rc b c') d) = Cert.Spec.kXe (launchArgs m c) b c' d := by
  refine (congrFun (W4_arr m c 3) (ix2 (Cert.Spec.rc b c') d)).trans ?_
  rw [out0_array, embedWhole_apply]
  unfold Cert.Spec.kXe
  refine congrArg₂ (· + ·)
    (Finset.sum_congr rfl fun k _ => Finset.sum_congr rfl fun q _ => congrArg₂ (· * ·) ?_ ?_) ?_
  · exact start_v0_at (W0 m c) _ _
  · exact start_v1_at (W0 m c) _
  · refine (start_v12_at (W0 m c) _ _).trans ?_
    rw [rc_mod]
    rfl

/-- What the second kernel reads of the embedded table, regrouped by sample. -/
theorem embed_regrouped (b : Fin 16) (c' : Fin 64) (d : Fin 1024) :
    V5 m c main_v29 (ix3 b c' d) = Cert.Spec.kXe (launchArgs m c) b c' d :=
  (hostOps1_v29_at (W4 m c) b c' d).trans (embed_value m c b c' d)

/-- After the second kernel: entry (b, c, d) is the gate of channel c spread over lane d times the value. -/
theorem gate_value (b : Fin 16) (c' : Fin 64) (d : Fin 1024) :
    W6 m c (Proc.devRef .tc main_v30) (ix3 b c' d) = Cert.Spec.kOut (launchArgs m c) b c' d := by
  have hX := embed_regrouped m c b
  refine (congrFun (W6_arr m c 6) (ix3 b c' d)).trans ?_
  rw [out1_array, gateWhole_apply]
  unfold Cert.Spec.kOut Cert.Spec.kKf Cert.Spec.kK Cert.Spec.kZ Cert.Spec.kQm Cert.Spec.kQ Cert.Spec.kV
  refine congrArg₂ (· * ·)
    (Finset.sum_congr rfl fun h _ => congrArg₂ (· * ·)
      (congrArg Ideal.logistic (Finset.sum_congr rfl fun c'' _ => congrArg₂ (· * ·) ?_
        (Finset.sum_congr rfl fun e _ => congrArg₂ (· * ·)
          (Finset.sum_congr rfl fun d' _ => congrArg₂ (· * ·) (hX c'' d') ?_) ?_))) ?_)
    (Finset.sum_congr rfl fun d' _ => congrArg₂ (· * ·) (hX c' d') ?_)
  · exact (congrFun (W5_eq_W3 m c main_v4 (by decide) (by decide)) _).trans (start_v4_at (W0 m c) _)
  · exact (congrFun (W5_eq_W3 m c main_v2 (by decide) (by decide)) _).trans (start_v2_at (W0 m c) _)
  · exact (congrFun (W5_eq_W3 m c main_v25 (by decide) (by decide)) _).trans (start_v25_at (W0 m c) e h)
  · exact (congrFun (W5_eq_W3 m c main_v27 (by decide) (by decide)) _).trans (start_v27_at (W0 m c) d h)
  · exact (congrFun (W5_eq_W3 m c main_v3 (by decide) (by decide)) _).trans (start_v3_at (W0 m c) _)

/-- At the return: entry (b, 0, c, y, x) of the result is the gated row 64 b + c mapped to pixel 128 y + x, plus
    the output bias. -/
theorem result_value (b : Fin 16) (c' : Fin 64) (y x : Fin 128) :
    W9 m c (Proc.devRef .tc main_v33) (ix5 b (0 : Fin 1) c' y x)
      = Cert.Spec.kFin (Cert.Spec.argsOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8))) b c' (Cert.Spec.pix y x) := by
  show _ = Cert.Spec.kFin (launchArgs m c) b c' (Cert.Spec.pix y x)
  refine (hostOps3_v33_at (W8 m c) b c' y x).trans ?_
  refine (congrFun (W8_arr m c 3) (ix2 (Cert.Spec.rc b c') (Cert.Spec.pix y x))).trans ?_
  rw [out2_array, projWhole_apply]
  unfold Cert.Spec.kFin
  refine congrArg₂ (· + ·) (Finset.sum_congr rfl fun d _ => congrArg₂ (· * ·) ?_ ?_) ?_
  · refine (hostOps2_v31_at (W6 m c) (Cert.Spec.rc b c') d).trans ?_
    rw [rc_div, rc_mod]
    exact gate_value m c b c' d
  · exact (congrFun (W7_eq_W3 m c main_v5 (by decide) (by decide) (by decide) (by decide)) _).trans (start_v5_at (W0 m c) _)
  · exact (congrFun (W7_eq_W3 m c main_v13 (by decide) (by decide) (by decide) (by decide)) _).trans (start_v13_at (W0 m c) _)

end Cert.KernelIdeal.Hand

end
-- ==== Proof.RefIsSpec.lean ====
/-
  The reference's result array, read entry by entry, is the specification's whole-sum form.

  The reference is a straight line of array operations. Read at an index, each one is a formula in the entries of
  its operands: a reshape reads the entry at the same row-major position, a transpose swaps two coordinates, a
  broadcast forgets the coordinates it adds, a contraction is a sum of products over the contracted coordinate, and
  the reduction over a head's lanes is a sum of 128 entries on top of its initial value.  Following these formulas
  from the arguments to the result gives, stage by stage, the functions of the specification: the embedded rows, the
  queries and the values, the head means, the mixed channels, the gate, the gated values, and the map back to the
  pixels.

  The only arithmetic on indices is that of the row-major positions: row 64 b + c of the flattened batch, lane
  128 h + j of head h, pixel 128 y + x of the image.
-/
import proofs.«151928_j1992864825605_2_alg».proof.Proof.Gen.ReferenceIdeal.Read
import proofs.«151928_j1992864825605_2_alg».proof.Proof.SpecArgs
import proofs.«151928_j1992864825605_2_alg».proof.Proof.SpecConsts

noncomputable section

namespace Cert.ReferenceIdeal.RefValue

open Idealize.ShloMosaic Idealize.ShloMosaic.ValueIdx
open Cert.ReferenceIdeal Cert.ReferenceIdeal.Read
open Cert.Spec

/-! ## Where each layout operation reads its operand

Each fact is about one operation and says, for an index given by its coordinates, which index of the operand the
operation reads. -/

/-- The batch flattened to rows and pixels reads the image at sample `m / 64`, channel `m % 64` of row `m = 64 b + c`
    and at position `(p / 128, p % 128)` of pixel `p`. -/
theorem flatten_reads (b : Fin 16) (c : Fin 64) (p : Fin 16384) :
    idx_main_v0 (ix3 b c p)
      = ix5 (⟨(rc b c).val / 64, by have := (rc b c).isLt; omega⟩ : Fin 16) (0 : Fin 1)
          (⟨(rc b c).val % 64, by omega⟩ : Fin 64) (⟨p.val / 128, by have := p.isLt; omega⟩ : Fin 128)
          (⟨p.val % 128, by omega⟩ : Fin 128) := by
  have hb := b.isLt; have hc := c.isLt; have hp := p.isLt
  refine funext fun a => Fin.ext ?_
  match a with
  | ⟨0, _⟩ => show ((b.val * 64 + c.val) * 16384 + p.val) / 1048576 = (64 * b.val + c.val) / 64; omega
  | ⟨1, _⟩ => rfl
  | ⟨2, _⟩ => show ((b.val * 64 + c.val) * 16384 + p.val) / 16384 % 64 = (64 * b.val + c.val) % 64; omega
  | ⟨3, _⟩ => show ((b.val * 64 + c.val) * 16384 + p.val) / 128 % 128 = p.val / 128; omega
  | ⟨4, _⟩ => show ((b.val * 64 + c.val) * 16384 + p.val) % 128 = p.val % 128; omega

/-- Splitting the 1024 lanes of a row into 8 heads of 128: entry `(b, c, h, j)` is lane `128 h + j` (queries). -/
theorem splitQ_reads (b : Fin 16) (c : Fin 64) (h : Fin 8) (j : Fin 128) :
    idx_main_v8 (ix4 b c h j) = ix3 b c (hd h j) := by
  have hb := b.isLt; have hc := c.isLt; have hh := h.isLt; have hj := j.isLt
  refine funext fun a => Fin.ext ?_
  match a with
  | ⟨0, _⟩ => show (((b.val * 64 + c.val) * 8 + h.val) * 128 + j.val) / 65536 = b.val; omega
  | ⟨1, _⟩ => show (((b.val * 64 + c.val) * 8 + h.val) * 128 + j.val) / 1024 % 64 = c.val; omega
  | ⟨2, _⟩ => show (((b.val * 64 + c.val) * 8 + h.val) * 128 + j.val) % 1024 = 128 * h.val + j.val; omega

/-- The same splitting for the values. -/
theorem splitV_reads (b : Fin 16) (c : Fin 64) (h : Fin 8) (j : Fin 128) :
    idx_main_v21 (ix4 b c h j) = ix3 b c (hd h j) := by
  have hb := b.isLt; have hc := c.isLt; have hh := h.isLt; have hj := j.isLt
  refine funext fun a => Fin.ext ?_
  match a with
  | ⟨0, _⟩ => show (((b.val * 64 + c.val) * 8 + h.val) * 128 + j.val) / 65536 = b.val; omega
  | ⟨1, _⟩ => show (((b.val * 64 + c.val) * 8 + h.val) * 128 + j.val) / 1024 % 64 = c.val; omega
  | ⟨2, _⟩ => show (((b.val * 64 + c.val) * 8 + h.val) * 128 + j.val) % 1024 = 128 * h.val + j.val; omega

/-- Heads before channels: entry `(b, h, c, j)` of the transposed queries is entry `(b, c, h, j)`. -/
theorem swapQ_reads (b : Fin 16) (h : Fin 8) (c : Fin 64) (j : Fin 128) :
    idx_main_v9 (ix4 b h c j) = ix4 b c h j :=
  funext fun a => by match a with | ⟨0, _⟩ => rfl | ⟨1, _⟩ => rfl | ⟨2, _⟩ => rfl | ⟨3, _⟩ => rfl

/-- The same transposition for the values. -/
theorem swapV_reads (b : Fin 16) (h : Fin 8) (c : Fin 64) (j : Fin 128) :
    idx_main_v22 (ix4 b h c j) = ix4 b c h j :=
  funext fun a => by match a with | ⟨0, _⟩ => rfl | ⟨1, _⟩ => rfl | ⟨2, _⟩ => rfl | ⟨3, _⟩ => rfl

/-- Channels before heads again: entry `(b, c, h, j)` of the gated values is entry `(b, h, c, j)`. -/
theorem swapBack_reads (b : Fin 16) (c : Fin 64) (h : Fin 8) (j : Fin 128) :
    idx_main_v26 (ix4 b c h j) = ix4 b h c j :=
  funext fun a => by match a with | ⟨0, _⟩ => rfl | ⟨1, _⟩ => rfl | ⟨2, _⟩ => rfl | ⟨3, _⟩ => rfl

/-- The `k`-th term of the sum over a head's lanes. -/
theorem lanes_reads (b : Fin 16) (h : Fin 8) (c : Fin 64) (k : Fin 128) :
    idx_main_v10 (ix3 b h c) k = ix4 b h c k :=
  funext fun a => by match a with | ⟨0, _⟩ => rfl | ⟨1, _⟩ => rfl | ⟨2, _⟩ => rfl | ⟨3, _⟩ => rfl

/-- The gate spread over a head's lanes does not depend on the lane. -/
theorem spread_reads (b : Fin 16) (h : Fin 8) (c : Fin 64) (j : Fin 128) :
    idx_main_v23 (idx_main_v24 (ix4 b h c j)) = ix3 b h c :=
  funext fun a => by match a with | ⟨0, _⟩ => rfl | ⟨1, _⟩ => rfl | ⟨2, _⟩ => rfl

/-- Joining the 8 heads of 128 lanes back into 1024 lanes: lane `d` is entry `(d / 128, d % 128)`. -/
theorem join_reads (b : Fin 16) (c : Fin 64) (d : Fin 1024) :
    idx_main_v27 (ix3 b c d) = ix4 b c (hOf d) (⟨d.val % 128, by omega⟩ : Fin 128) := by
  have hb := b.isLt; have hc := c.isLt; have hd' := d.isLt
  refine funext fun a => Fin.ext ?_
  match a with
  | ⟨0, _⟩ => show ((b.val * 64 + c.val) * 1024 + d.val) / 65536 = b.val; omega
  | ⟨1, _⟩ => show ((b.val * 64 + c.val) * 1024 + d.val) / 1024 % 64 = c.val; omega
  | ⟨2, _⟩ => show ((b.val * 64 + c.val) * 1024 + d.val) / 128 % 8 = d.val / 128; omega
  | ⟨3, _⟩ => show ((b.val * 64 + c.val) * 1024 + d.val) % 128 = d.val % 128; omega

/-- A lane is lane `d % 128` of head `d / 128`. -/
theorem hd_hOf (d : Fin 1024) : hd (hOf d) (⟨d.val % 128, by omega⟩ : Fin 128) = d := by
  apply Fin.ext
  show 128 * (d.val / 128) + d.val % 128 = d.val
  omega

/-- The result with the image's two axes restored: entry `(b, 0, c, y, x)` is pixel `128 y + x` of row `(b, c)`. -/
theorem unflatten_reads (b : Fin 16) (c : Fin 64) (y xx : Fin 128) :
    idx_main_v32 (ix5 b (0 : Fin 1) c y xx) = ix3 b c (pix y xx) := by
  have hb := b.isLt; have hc := c.isLt; have hy := y.isLt; have hx := xx.isLt
  refine funext fun a => Fin.ext ?_
  match a with
  | ⟨0, _⟩ => show ((((b.val * 1 + 0) * 64 + c.val) * 128 + y.val) * 128 + xx.val) / 1048576 = b.val; omega
  | ⟨1, _⟩ => show ((((b.val * 1 + 0) * 64 + c.val) * 128 + y.val) * 128 + xx.val) / 16384 % 64 = c.val; omega
  | ⟨2, _⟩ => show ((((b.val * 1 + 0) * 64 + c.val) * 128 + y.val) * 128 + xx.val) % 16384 = 128 * y.val + xx.val; omega

/-! ## The stages -/

variable (x : (⟨S16x1x64x128x128, .f32⟩ : BufTy).Contents (Elt Ideal))
  (we : (⟨S1024x16384, .f32⟩ : BufTy).Contents (Elt Ideal))
  (be : (⟨S1024, .f32⟩ : BufTy).Contents (Elt Ideal))
  (pos : (⟨S1x64x1024, .f32⟩ : BufTy).Contents (Elt Ideal))
  (wq : (⟨S1024x1024, .f32⟩ : BufTy).Contents (Elt Ideal))
  (wk : (⟨S64x64, .f32⟩ : BufTy).Contents (Elt Ideal))
  (wv : (⟨S1024x1024, .f32⟩ : BufTy).Contents (Elt Ideal))
  (wo : (⟨S16384x1024, .f32⟩ : BufTy).Contents (Elt Ideal))
  (bo : (⟨S16384, .f32⟩ : BufTy).Contents (Elt Ideal))

/-- The flattened batch is the specification's table `X`. -/
theorem flat_at (b : Fin 16) (c : Fin 64) (p : Fin 16384) :
    val_main_v0 (F := Ideal) x (ix3 b c p) = (argsOf x we be pos wq wk wv wo bo).X (rc b c) p := by
  rw [val_main_v0_apply, flatten_reads]
  rfl

/-- The embedded rows: the product with the embedding, plus its bias, plus the positional table, in that order. -/
theorem embed_at (b : Fin 16) (c : Fin 64) (d : Fin 1024) :
    val_main_v6 (F := Ideal) x we be pos (ix3 b c d) = rXe (argsOf x we be pos wq wk wv wo bo) b c d := by
  have el : ∀ k : Fin 16384, lidx_main_v1 (ix3 b c d) k = ix3 b c k := fun k =>
    funext fun a => by match a with | ⟨0, _⟩ => rfl | ⟨1, _⟩ => rfl | ⟨2, _⟩ => rfl
  have er : ∀ k : Fin 16384, ridx_main_v1 (ix3 b c d) k = ix2 d k := fun k =>
    funext fun a => by match a with | ⟨0, _⟩ => rfl | ⟨1, _⟩ => rfl
  have eb : idx_main_v2 (idx_main_v3 (ix3 b c d)) = ix1 d :=
    funext fun a => by match a with | ⟨0, _⟩ => rfl
  have ep : idx_main_v5 (ix3 b c d) = ix3 (0 : Fin 1) c d :=
    funext fun a => by match a with | ⟨0, _⟩ => rfl | ⟨1, _⟩ => rfl | ⟨2, _⟩ => rfl
  rw [val_main_v6_apply, val_main_v4_apply, val_main_v1_apply, val_main_v3_apply, val_main_v2_apply,
    val_main_v5_apply, eb, ep]
  simp only [el, er, flat_at x we be pos wq wk wv wo bo]
  rfl

/-- The queries. -/
theorem query_at (b : Fin 16) (c : Fin 64) (e : Fin 1024) :
    val_main_v7 (F := Ideal) x we be pos wq (ix3 b c e) = rQ (argsOf x we be pos wq wk wv wo bo) b c e := by
  have el : ∀ k : Fin 1024, lidx_main_v7 (ix3 b c e) k = ix3 b c k := fun k =>
    funext fun a => by match a with | ⟨0, _⟩ => rfl | ⟨1, _⟩ => rfl | ⟨2, _⟩ => rfl
  have er : ∀ k : Fin 1024, ridx_main_v7 (ix3 b c e) k = ix2 e k := fun k =>
    funext fun a => by match a with | ⟨0, _⟩ => rfl | ⟨1, _⟩ => rfl
  rw [val_main_v7_apply]
  simp only [el, er, embed_at x we be pos wq wk wv wo bo]
  rfl

/-- The values. -/
theorem value_at (b : Fin 16) (c : Fin 64) (e : Fin 1024) :
    val_main_v20 (F := Ideal) x we be pos wv (ix3 b c e) = rV (argsOf x we be pos wq wk wv wo bo) b c e := by
  have el : ∀ k : Fin 1024, lidx_main_v20 (ix3 b c e) k = ix3 b c k := fun k =>
    funext fun a => by match a with | ⟨0, _⟩ => rfl | ⟨1, _⟩ => rfl | ⟨2, _⟩ => rfl
  have er : ∀ k : Fin 1024, ridx_main_v20 (ix3 b c e) k = ix2 e k := fun k =>
    funext fun a => by match a with | ⟨0, _⟩ => rfl | ⟨1, _⟩ => rfl
  rw [val_main_v20_apply]
  simp only [el, er, embed_at x we be pos wq wk wv wo bo]
  rfl

/-- The head means: the sum of the head's 128 query lanes on top of the initial value zero, divided by 128. -/
theorem headMean_at (b : Fin 16) (h : Fin 8) (c : Fin 64) :
    val_main_v12 (F := Ideal) x we be pos wq (ix3 b h c) = rQm (argsOf x we be pos wq wk wv wo bo) b h c := by
  rw [val_main_v12_apply, val_main_v10_apply, val_main_v11_apply, val_main_cst_apply, val_main_cst_0_apply]
  simp only [lanes_reads, val_main_v9_apply, swapQ_reads, val_main_v8_apply, splitQ_reads,
    query_at x we be pos wq wk wv wo bo, Ideal.ofBits_def, Ideal.hostDivf_def, ofBits_zero, ofBits_128]
  rfl

/-- The channels mixed. -/
theorem mix_at (b : Fin 16) (h : Fin 8) (f : Fin 64) :
    val_main_v13 (F := Ideal) x we be pos wq wk (ix3 b h f) = rZ (argsOf x we be pos wq wk wv wo bo) b h f := by
  have el : ∀ k : Fin 64, lidx_main_v13 (ix3 b h f) k = ix3 b h k := fun k =>
    funext fun a => by match a with | ⟨0, _⟩ => rfl | ⟨1, _⟩ => rfl | ⟨2, _⟩ => rfl
  have er : ∀ k : Fin 64, ridx_main_v13 (ix3 b h f) k = ix2 f k := fun k =>
    funext fun a => by match a with | ⟨0, _⟩ => rfl | ⟨1, _⟩ => rfl
  rw [val_main_v13_apply]
  simp only [el, er, headMean_at x we be pos wq wk wv wo bo]
  rfl

/-- The gate: one over one plus the exponential of the negated mix. -/
theorem gate_at (b : Fin 16) (h : Fin 8) (f : Fin 64) :
    val_main_v19 (F := Ideal) x we be pos wq wk (ix3 b h f) = rK (argsOf x we be pos wq wk wv wo bo) b h f := by
  rw [val_main_v19_apply, val_main_v18_apply, val_main_cst_2_apply, val_main_v17_apply, val_main_v16_apply,
    val_main_cst_1_apply, val_main_v15_apply, val_main_v14_apply, mix_at x we be pos wq wk wv wo bo]
  simp only [Ideal.ofBits_def, Ideal.hostDivf_def, Ideal.hostUnary_exp_def, Ideal.hostNegf_def, Ideal.negf_def,
    Ideal.addf_def, ofBits_one]
  rfl

/-- The gated values: lane `d` of row `(b, c)` is scaled by the gate of its head `d / 128`. -/
theorem gated_at (b : Fin 16) (c : Fin 64) (d : Fin 1024) :
    val_main_v27 (F := Ideal) x we be pos wq wk wv (ix3 b c d) = rOut (argsOf x we be pos wq wk wv wo bo) b c d := by
  rw [val_main_v27_apply, join_reads, val_main_v26_apply, swapBack_reads, val_main_v25_apply, val_main_v24_apply,
    val_main_v23_apply, spread_reads, val_main_v22_apply, swapV_reads, val_main_v21_apply, splitV_reads, hd_hOf,
    gate_at x we be pos wq wk wv wo bo, value_at x we be pos wq wk wv wo bo]
  rfl

/-- Back to the pixels: the product with the output map, plus its bias. -/
theorem pixels_at (b : Fin 16) (c : Fin 64) (p : Fin 16384) :
    val_main_v31 (F := Ideal) x we be pos wq wk wv wo bo (ix3 b c p)
      = rFin (argsOf x we be pos wq wk wv wo bo) b c p := by
  have el : ∀ k : Fin 1024, lidx_main_v28 (ix3 b c p) k = ix3 b c k := fun k =>
    funext fun a => by match a with | ⟨0, _⟩ => rfl | ⟨1, _⟩ => rfl | ⟨2, _⟩ => rfl
  have er : ∀ k : Fin 1024, ridx_main_v28 (ix3 b c p) k = ix2 p k := fun k =>
    funext fun a => by match a with | ⟨0, _⟩ => rfl | ⟨1, _⟩ => rfl
  have eb : idx_main_v29 (idx_main_v30 (ix3 b c p)) = ix1 p :=
    funext fun a => by match a with | ⟨0, _⟩ => rfl
  rw [val_main_v31_apply, val_main_v28_apply, val_main_v30_apply, val_main_v29_apply, eb]
  simp only [el, er, gated_at x we be pos wq wk wv wo bo]
  rfl

/-- The reference's result at `(b, 0, c, y, x)` is the specification's whole-sum form at row `(b, c)`, pixel
    `128 y + x`. -/
theorem result_at (b : Fin 16) (c : Fin 64) (y xx : Fin 128) :
    val_main_v32 (F := Ideal) x we be pos wq wk wv wo bo (ix5 b (0 : Fin 1) c y xx)
      = rFin (argsOf x we be pos wq wk wv wo bo) b c (pix y xx) := by
  rw [val_main_v32_apply, unflatten_reads, pixels_at]

/-- The whole result array as one function of its index: the entry at `i` is the whole-sum form at sample `i 0`,
    channel `i 2` and pixel `128 (i 3) + i 4` (the second axis has the single value 0). -/
theorem result_eq :
    val_main_v32 (F := Ideal) x we be pos wq wk wv wo bo
      = fun i : S16x1x64x128x128.Idx =>
          rFin (argsOf x we be pos wq wk wv wo bo) (i 0) (i 2) (pix (i 3) (i 4)) := by
  funext i
  obtain ⟨b, z, c, y, xx, rfl⟩ :
      ∃ (b : Fin 16) (z : Fin 1) (c : Fin 64) (y xx : Fin 128), i = ix5 b z c y xx :=
    ⟨i 0, i 1, i 2, i 3, i 4, eq_ix5 i⟩
  obtain rfl : z = 0 := Subsingleton.elim _ _
  exact result_at x we be pos wq wk wv wo bo b c y xx

end Cert.ReferenceIdeal.RefValue

end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.SpecLaw.lean ====
/-
  The two computations of the specification agree at every entry, when every argument entry is a real number.

  Step by step:
  * the embedding: a sum over 8 tiles of 2048 pixels is the sum over all 16384 pixels (addition is commutative and
    associative on the extended reals, so no finiteness is involved), and the two bias tables may be added in either
    order and grouping;
  * queries and values: the same sums of the same terms;
  * the head average: a product of the query row with the heads' indicator divided by 128 is the sum over the one
    head's 128 lanes, divided by 128.  The indicator's zeros kill the other heads' lanes (x * 0 = 0 for every
    extended real), but pulling the factor 1/128 out of the remaining sum is distributivity, which on the extended
    reals holds only off the infinities: here every query entry is real, being built from real arguments by finite
    sums and products;
  * the channel mix: the factors of each product in the other order;
  * the squashing: 1 / (1 + e^(-z)) is the definition of the logistic function;
  * spreading the gate over the lanes: a sum over the 8 heads against the indicator of lane d keeps the one term of
    d's own head (x * 1 = x, x * 0 = 0: again no finiteness);
  * the gated values and the map back to pixels: the same products and sums of the same terms.
-/
import Mathlib
import Idealize.ShloMosaic.PureOps.Ideal
import proofs.«151928_j1992864825605_2_alg».proof.Proof.Spec
import proofs.«151928_j1992864825605_2_alg».proof.Proof.LibFlatten
import proofs.«151928_j1992864825605_2_alg».proof.Proof.LibFinite

noncomputable section

open scoped BigOperators

namespace Cert.Spec

open Idealize.ShloMosaic
open Cert.LibFlatten (flat flat_div sum_sum_flat)
open Cert.Finite

/-! ## Arithmetic facts used below -/

/-- A finite sum of reals times a real is the sum of the products.  (Right distributivity, which the extended reals
    have only off the infinities.) -/
theorem sum_mul_of_isReal {ι : Type*} (S : Finset ι) (x : ι → EReal) (c : EReal)
    (hx : ∀ k, IsReal (x k)) (hc : IsReal c) : (∑ k ∈ S, x k) * c = ∑ k ∈ S, x k * c := by
  classical
  induction S using Finset.induction_on with
  | empty => rw [Finset.sum_empty, Finset.sum_empty, zero_mul]
  | insert i S hi ih =>
    have hs : IsReal (∑ k ∈ S, x k) := IsReal.sum S x fun k _ => hx k
    rw [Finset.sum_insert hi, Finset.sum_insert hi]
    calc (x i + ∑ k ∈ S, x k) * c = c * (x i + ∑ k ∈ S, x k) := mul_comm _ _
      _ = c * x i + c * ∑ k ∈ S, x k := mul_add_of_isReal hc (hx i) hs
      _ = x i * c + (∑ k ∈ S, x k) * c := by rw [mul_comm c (x i), mul_comm c (∑ k ∈ S, x k)]
      _ = x i * c + ∑ k ∈ S, x k * c := by rw [ih]

/-- The numeral 128 of the extended reals is the real number 128. -/
theorem coe_128 : (128 : EReal) = ((128 : ℝ) : EReal) := rfl

/-- Dividing by 128 is multiplying by the real 1/128, for every extended real. -/
theorem div_128 (x : EReal) : Ideal.div x 128 = x * (((1 / 128 : ℝ)) : EReal) := by
  rw [coe_128, Ideal.div_coe (by norm_num : (128 : ℝ) ≠ 0)]

/-! ## The heads' indicator -/

/-- Lane j of head h belongs to head h. -/
theorem mask_hd_self (h : Fin 8) (j : Fin 128) : mask (hd h j) h = 1 := by
  unfold mask
  exact if_pos (flat_div _ h j)

/-- Lane j of head h' does not belong to another head h. -/
theorem mask_hd_ne {h' h : Fin 8} (hne : h' ≠ h) (j : Fin 128) : mask (hd h' j) h = 0 := by
  unfold mask
  refine if_neg fun e => hne (Fin.ext ?_)
  exact (flat_div _ h' j).symm.trans e

/-- Lane d belongs to its own head. -/
theorem mask_hOf (d : Fin 1024) : mask d (hOf d) = 1 := by
  unfold mask
  exact if_pos rfl

/-- Lane d belongs to no head but its own. -/
theorem mask_ne_hOf (d : Fin 1024) {h : Fin 8} (hne : h ≠ hOf d) : mask d h = 0 := by
  unfold mask
  refine if_neg fun e => hne (Fin.ext ?_)
  exact e.symm

variable (a : Args)

/-! ## The embedding -/

/-- Tile sums against the whole sum, and the two bias tables regrouped. -/
theorem kXe_eq_rXe (b : Fin 16) (c : Fin 64) (d : Fin 1024) : kXe a b c d = rXe a b c d := by
  unfold kXe rXe
  have hs : (∑ k : Fin 8, ∑ p : Fin 2048, a.X (rc b c) (px k p) * a.We d (px k p))
      = ∑ p : Fin 16384, a.X (rc b c) p * a.We d p :=
    sum_sum_flat (by norm_num : 8 * 2048 = 16384) (fun p => a.X (rc b c) p * a.We d p)
  rw [hs, add_comm (a.pos c d) (a.be d)]
  exact (add_assoc _ _ _).symm

/-- The embedding of real arguments is real. -/
theorem rXe_isReal (ha : a.Real) (b : Fin 16) (c : Fin 64) (d : Fin 1024) : IsReal (rXe a b c d) := by
  unfold rXe
  exact ((IsReal.sum_fin _ fun p => IsReal.mul (ha.X _ p) (ha.We d p)).add (ha.be d)).add (ha.pos c d)

/-! ## Queries and values -/

theorem kQ_eq_rQ (b : Fin 16) (c : Fin 64) (e : Fin 1024) : kQ a b c e = rQ a b c e := by
  unfold kQ rQ
  exact Finset.sum_congr rfl fun d _ => by rw [kXe_eq_rXe]

theorem kV_eq_rV (b : Fin 16) (c : Fin 64) (e : Fin 1024) : kV a b c e = rV a b c e := by
  unfold kV rV
  exact Finset.sum_congr rfl fun d _ => by rw [kXe_eq_rXe]

/-- A query entry of real arguments is real. -/
theorem rQ_isReal (ha : a.Real) (b : Fin 16) (c : Fin 64) (e : Fin 1024) : IsReal (rQ a b c e) := by
  unfold rQ
  exact IsReal.sum_fin _ fun d => IsReal.mul (rXe_isReal a ha b c d) (ha.Wq e d)

/-! ## The head average -/

/-- The product with the indicator divided by 128 is the head's lane sum divided by 128. -/
theorem kQm_eq_rQm (ha : a.Real) (b : Fin 16) (c : Fin 64) (h : Fin 8) : kQm a b c h = rQm a b h c := by
  unfold kQm rQm
  rw [zero_add, div_128]
  refine (sum_sum_flat (by norm_num : 8 * 128 = 1024)
    (fun e => kQ a b c e * Ideal.div (mask e h) 128)).symm.trans ?_
  rw [Finset.sum_eq_single h]
  · rw [sum_mul_of_isReal Finset.univ (fun j : Fin 128 => rQ a b c (hd h j)) _
      (fun j => rQ_isReal a ha b c (hd h j)) (isReal_coe _)]
    refine Finset.sum_congr rfl fun j _ => ?_
    rw [kQ_eq_rQ, mask_hd_self, div_128, one_mul]
  · intro h' _ hne
    refine Finset.sum_eq_zero fun j _ => ?_
    rw [mask_hd_ne hne, div_128, zero_mul, mul_zero]
  · intro hn
    exact absurd (Finset.mem_univ h) hn

/-! ## The channel mix, the squashing, the spreading -/

theorem kZ_eq_rZ (ha : a.Real) (b : Fin 16) (f : Fin 64) (h : Fin 8) : kZ a b f h = rZ a b h f := by
  unfold kZ rZ
  exact Finset.sum_congr rfl fun c _ => by rw [kQm_eq_rQm a ha, mul_comm]

theorem kK_eq_rK (ha : a.Real) (b : Fin 16) (f : Fin 64) (h : Fin 8) : kK a b f h = rK a b h f := by
  unfold kK rK Ideal.logistic
  rw [kZ_eq_rZ a ha]

/-- The sum over the heads against lane d's indicator keeps the term of d's own head. -/
theorem kKf_eq (ha : a.Real) (b : Fin 16) (c : Fin 64) (d : Fin 1024) : kKf a b c d = rK a b (hOf d) c := by
  unfold kKf
  rw [Finset.sum_eq_single (hOf d)]
  · rw [mask_hOf, mul_one, kK_eq_rK a ha]
  · intro h _ hne
    rw [mask_ne_hOf d hne, mul_zero]
  · intro hn
    exact absurd (Finset.mem_univ _) hn

/-! ## The gated values and the map back to pixels -/

theorem kOut_eq_rOut (ha : a.Real) (b : Fin 16) (c : Fin 64) (d : Fin 1024) : kOut a b c d = rOut a b c d := by
  unfold kOut rOut
  rw [kKf_eq a ha, kV_eq_rV]

/-- The two computations agree at every entry of the result. -/
theorem kFin_eq_rFin (a : Args) (ha : a.Real) (b : Fin 16) (c : Fin 64) (p : Fin 16384) :
    kFin a b c p = rFin a b c p := by
  unfold kFin rFin
  exact congrArg (· + a.bo p) (Finset.sum_congr rfl fun d _ => by rw [kOut_eq_rOut a ha])

end Cert.Spec

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«151928_j1992864825605_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.PreReal.lean ====
/-
  Real-valuedness of the nine argument arrays, from the precondition.

  The precondition is the conjunction, over the nine arrays, of "every entry x has |x| < +∞", each conjunct being a
  reduction by "and" of the entrywise comparison of |x| with the pattern of +∞.  At the extended reals |x| is
  max x (-x), which is +∞ at both infinities; so the comparison holds exactly when x is neither infinity, that is,
  when x is a real number.  A reduction by "and" over all the axes that comes out true has a true at every entry.
  These two facts, for an array of any shape, are the general lemmas of the finite-inputs library file; here they are
  applied to the nine arrays of this kernel.
-/
import proofs.«151928_j1992864825605_2_alg».proof.Defs
import proofs.«151928_j1992864825605_2_alg».proof.Proof.Gen.Pre_finite_inputs
import proofs.«151928_j1992864825605_2_alg».proof.Proof.SpecArgs
import proofs.«151928_j1992864825605_2_alg».proof.Proof.LibFinite
import proofs.«151928_j1992864825605_2_alg».proof.Proof.LibFiniteInputs

noncomputable section

namespace Cert.KernelIdeal.Hand

open Idealize.ShloMosaic Idealize.ShloMosaic.ValueIdx Idealize.SL.Sem
open Cert.Finite Cert.Lib.FiniteInputs

/-- THE ARGUMENTS ARE REAL: under the precondition, every entry of each of the nine argument arrays, read as the
    tables the two computations are stated over, is a real number. -/
theorem args_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (Cert.Spec.argsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))).Real := by
  have e := congrFun (h c) ix0
  dsimp only [Cert.Pre_finite_inputs.fn, Cert.Pre_finite_inputs.fn_part1, Cert.Pre_finite_inputs.fn_part2] at e
  obtain ⟨e7, h8⟩ := and_scalar _ _ e
  obtain ⟨e6, h7⟩ := and_scalar _ _ e7
  obtain ⟨e5, h6⟩ := and_scalar _ _ e6
  obtain ⟨e4, h5⟩ := and_scalar _ _ e5
  obtain ⟨e3, h4⟩ := and_scalar _ _ e4
  obtain ⟨e2, h3⟩ := and_scalar _ _ e3
  obtain ⟨e1, h2⟩ := and_scalar _ _ e2
  obtain ⟨h0, h1⟩ := and_scalar _ _ e1
  exact
    { X := fun _ _ => all_real _ _ _ _ h0 _
      We := fun _ _ => all_real _ _ _ _ h1 _
      be := fun _ => all_real _ _ _ _ h2 _
      pos := fun _ _ => all_real _ _ _ _ h3 _
      Wq := fun _ _ => all_real _ _ _ _ h4 _
      Wk := fun _ _ => all_real _ _ _ _ h5 _
      Wv := fun _ _ => all_real _ _ _ _ h6 _
      Wo := fun _ _ => all_real _ _ _ _ h7 _
      bo := fun _ => all_real _ _ _ _ h8 _ }

end Cert.KernelIdeal.Hand

end
-- ==== Proof.lean ====
/-
  Three kernels against one reference, over the extended reals.

  The kernels' program embeds every row of the flattened image batch (a matrix product summed tile by tile along the
  pixels, the two bias tables added first to each other), gates it sample by sample (queries and values by two matrix
  products, the mean over each head's 128 query lanes as a product with the heads' indicator matrix divided by 128,
  the channel mix, the logistic function, the gate spread back over the lanes as a product with the transposed
  indicator, times the values), and maps back to pixels (a last matrix product plus a bias). The reference computes
  the same with whole sums, the mean as a sum divided by 128, and the logistic function written out as
  1 / (1 + e^(-z)).

  Entry by entry the two results are the same extended real when every argument entry is a real number: sums may be
  regrouped and reordered freely, a product with an indicator entry keeps or drops a term, and the factor 1/128
  moves across the 128-lane sum because the summands are real — the one place where the finiteness of the inputs is
  used.

  The frames: each program terminates without a fault and leaves its nine argument arrays unchanged; for the
  kernels' program this is the composition of its nine segments (host operations and the three kernel regions), for
  the reference its run with the result forgotten. The kernels' idealization rewrote nothing.
-/
import proofs.«151928_j1992864825605_2_alg».proof.Defs
import proofs.«151928_j1992864825605_2_alg».proof.Proof.Gen.Kernel
import proofs.«151928_j1992864825605_2_alg».proof.Proof.Gen.KernelIdeal
import proofs.«151928_j1992864825605_2_alg».proof.Proof.Gen.ReferenceIdeal
import proofs.«151928_j1992864825605_2_alg».proof.Proof.Gen.Pre_finite_inputs
import proofs.«151928_j1992864825605_2_alg».proof.Proof.KbRun
import proofs.«151928_j1992864825605_2_alg».proof.Proof.KiRun
import proofs.«151928_j1992864825605_2_alg».proof.Proof.KiValue
import proofs.«151928_j1992864825605_2_alg».proof.Proof.RefIsSpec
import proofs.«151928_j1992864825605_2_alg».proof.Proof.SpecLaw
import proofs.«151928_j1992864825605_2_alg».proof.Proof.PreReal
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernels' program runs to the end, faults nowhere, and leaves its arguments unchanged. -/
theorem frame_kernel : Cert.frame_Kernel := fun m ρ _ => Cert.Kernel.Hand.frame_all m ρ

/-- So does the idealized kernels' program. -/
theorem frame_kernelIdeal : Cert.frame_KernelIdeal := fun m ρ _ => Cert.KernelIdeal.Hand.frame_all m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end, and with the same result array: entry
    `(b, 0, c, y, x)` of the kernels' result is the tile-sum form at `(b, c, 128 y + x)`, of the reference's the
    whole-sum form, and the two forms agree on real arguments. -/
theorem algebraic : Cert.algebraic_KernelIdeal_ReferenceIdeal := by
  intro m ρ m' ρ' hpre hagree
  refine ⟨fun c => Cert.KernelIdeal.Hand.W9 m c (Proc.devRef .tc Cert.KernelIdeal.main_v33),
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v32_eq _ _ _ _ _ _ _ _ _).trans ?_
  rw [Cert.ReferenceIdeal.RefValue.result_eq]
  obtain ⟨h0, h1, h2, h3, h4, h5, h6, h7, h8⟩ := hagree c
  rw [h0, h1, h2, h3, h4, h5, h6, h7, h8]
  funext i
  obtain ⟨b, z, c', y, x, rfl⟩ : ∃ (b : Fin 16) (z : Fin 1) (c' : Fin 64) (y x : Fin 128), i = ix5 b z c' y x :=
    ⟨i 0, i 1, i 2, i 3, i 4, eq_ix5 i⟩
  obtain rfl : z = 0 := Subsingleton.elim _ _
  show _ = Cert.KernelIdeal.Hand.W9 m c (Proc.devRef .tc Cert.KernelIdeal.main_v33) (ix5 b (0 : Fin 1) c' y x)
  rw [Cert.KernelIdeal.Hand.result_value m c b c' y x]
  exact (Cert.Spec.kFin_eq_rFin _ (Cert.KernelIdeal.Hand.args_real m hpre c) b c' (Cert.Spec.pix y x)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
